-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v95_0)) (v1 : (c : Dev Cert.KernelIdeal.nD) → Buf (Elt Ideal) ((c.tc : Thread Cert.KernelIdeal.nD Cert.KernelIdeal.τ).loc Cert.KernelIdeal.main_v95_1)) (v2 : (c : Dev Cert.KernelIdeal.nD) → Buf (Elt Ideal) ((c.tc : Thread Cert.KernelIdeal.nD Cert.KernelIdeal.τ).loc Cert.KernelIdeal.main_v95_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95_0) = v0 c
          ∧ r.2.mem ((c.tc : Thread Cert.KernelIdeal.nD Cert.KernelIdeal.τ).loc Cert.KernelIdeal.main_v95_1) = v1 c
          ∧ r.2.mem ((c.tc : Thread Cert.KernelIdeal.nD Cert.KernelIdeal.τ).loc Cert.KernelIdeal.main_v95_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_v205) = v1 c
          ∧ r.2.mem ((c.tc : Thread Cert.ReferenceIdeal.nD Cert.ReferenceIdeal.τ).loc Cert.ReferenceIdeal.main_v165) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x256 : Shape := ⟨2, ![30000, 256]⟩
abbrev S2x480000 : Shape := ⟨2, ![2, 480000]⟩
abbrev S480000 : Shape := ⟨1, ![480000]⟩
abbrev S256x256 : Shape := ⟨2, ![256, 256]⟩
abbrev S2x256x256 : Shape := ⟨3, ![2, 256, 256]⟩
abbrev S256 : Shape := ⟨1, ![256]⟩
abbrev S_ : Shape := ⟨0, ![]⟩

class Facts : Prop where
  bcast_S_S30000x256 : S_.BroadcastsInDim S30000x256 (![] : Fin 0 → Fin S30000x256.rank)
  reducesTo_S30000x256_S_d0_1 : S30000x256.ReducesTo [0, 1] S_
  h_S_ : 0 < S_.numel
  bcast_S_S480000 : S_.BroadcastsInDim S480000 (![] : Fin 0 → Fin S480000.rank)
  reducesTo_S480000_S_d0 : S480000.ReducesTo [0] S_
  bcast_S_S256x256 : S_.BroadcastsInDim S256x256 (![] : Fin 0 → Fin S256x256.rank)
  reducesTo_S256x256_S_d0_1 : S256x256.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S256 : S_.BroadcastsInDim S256 (![] : Fin 0 → Fin S256.rank)
  reducesTo_S256_S_d0 : S256.ReducesTo [0] S_

variable [Facts]

def fn_part7 {F : FTy → Type} [FloatOps F] (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  main_v123

def fn_part6 {F : FTy → Type} [FloatOps F] (main_arg24 : FVec F S256 .f32) (main_arg25 : FVec F S256 .f32) (main_arg26 : FVec F S256x256 .f32) (main_arg27 : FVec F S256 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256 .f32 := Host.absf main_arg24
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256 .f32 := Host.absf main_arg25
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256x256 .f32 := Host.absf main_arg26
  let main_cst_44 : FVec F S_ .f32 := constant S_ .f32 0x7F800000#32
  let main_v115 : FVec F S256x256 .f32 := broadcastInDim S256x256 ![] bcast_S_S256x256 main_cst_44
  let main_v116 : IVec S256x256 1 := cmpf .olt main_v114 main_v115
  let main_c_45 : IVec S_ 1 := constantI S_ 1 1#1
  let main_v117 : IVec S_ 1 := (fun x v => Host.reduce IntOp.andi x v reducesTo_S256x256_S_d0_1 h_S_) main_v116 main_c_45
  let main_v118 : IVec S_ 1 := andi main_v113 main_v117
  let main_v119 : FVec F S256 .f32 := Host.absf main_arg27
  fn_part7 (F := F) main_v118 main_v119

def fn_part5 {F : FTy → Type} [FloatOps F] (main_arg21 : FVec F S256 .f32) (main_arg22 : FVec F S256 .f32) (main_arg23 : FVec F S256 .f32) (main_arg24 : FVec F S256 .f32) (main_arg25 : FVec F S256 .f32) (main_arg26 : FVec F S256x256 .f32) (main_arg27 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg21
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg22
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg23
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg24 main_arg25 main_arg26 main_arg27 main_v98 main_v101 main_c_39

def fn_part4 {F : FTy → Type} [FloatOps F] (main_arg17 : FVec F S256 .f32) (main_arg18 : FVec F S256 .f32) (main_arg19 : FVec F S256 .f32) (main_arg20 : FVec F S256 .f32) (main_arg21 : FVec F S256 .f32) (main_arg22 : FVec F S256 .f32) (main_arg23 : FVec F S256 .f32) (main_arg24 : FVec F S256 .f32) (main_arg25 : FVec F S256 .f32) (main_arg26 : FVec F S256x256 .f32) (main_arg27 : FVec F S256 .f32) (main_v63 : IVec S_ 1) (main_v67 : IVec S_ 1) : IVec S_ 1 :=
  let main_v68 : IVec S_ 1 := andi main_v63 main_v67
  let main_v69 : FVec F S256 .f32 := Host.absf main_arg17
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg18
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg19
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg20
  let main_cst_32 : FVec F S_ .f32 := constant S_ .f32 0x7F800000#32
  fn_part5 (F := F) main_arg21 main_arg22 main_arg23 main_arg24 main_arg25 main_arg26 main_arg27 main_v83 main_v84 main_cst_32

def fn_part3 {F : FTy → Type} [FloatOps F] (main_arg14 : FVec F S2x256x256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_arg22 : FVec F S256 .f32) (main_arg23 : FVec F S256 .f32) (main_arg24 : FVec F S256 .f32) (main_arg25 : FVec F S256 .f32) (main_arg26 : FVec F S256x256 .f32) (main_arg27 : FVec F S256 .f32) (main_v48 : IVec S_ 1) (main_v49 : FVec F S2x256x256 .f32) (main_v50 : FVec F S2x256x256 .f32) : IVec S_ 1 :=
  let main_v51 : IVec S2x256x256 1 := cmpf .olt main_v49 main_v50
  let main_c_19 : IVec S_ 1 := constantI S_ 1 1#1
  let main_v52 : IVec S_ 1 := (fun x v => Host.reduce IntOp.andi x v reducesTo_S2x256x256_S_d0_1_2 h_S_) main_v51 main_c_19
  let main_v53 : IVec S_ 1 := andi main_v48 main_v52
  let main_v54 : FVec F S2x256x256 .f32 := Host.absf main_arg14
  let main_cst_20 : FVec F S_ .f32 := constant S_ .f32 0x7F800000#32
  let main_v55 : FVec F S2x256x256 .f32 := broadcastInDim S2x256x256 ![] bcast_S_S2x256x256 main_cst_20
  let main_v56 : IVec S2x256x256 1 := cmpf .olt main_v54 main_v55
  let main_c_21 : IVec S_ 1 := constantI S_ 1 1#1
  let main_v57 : IVec S_ 1 := (fun x v => Host.reduce IntOp.andi x v reducesTo_S2x256x256_S_d0_1_2 h_S_) main_v56 main_c_21
  let main_v58 : IVec S_ 1 := andi main_v53 main_v57
  let main_v59 : FVec F S256 .f32 := Host.absf main_arg15
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg16
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg17 main_arg18 main_arg19 main_arg20 main_arg21 main_arg22 main_arg23 main_arg24 main_arg25 main_arg26 main_arg27 main_v63 main_v67

def fn_part2 {F : FTy → Type} [FloatOps F] (main_arg10 : FVec F S256x256 .f32) (main_arg11 : FVec F S2x256x256 .f32) (main_arg12 : FVec F S2x256x256 .f32) (main_arg13 : FVec F S2x256x256 .f32) (main_arg14 : FVec F S2x256x256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_arg22 : FVec F S256 .f32) (main_arg23 : FVec F S256 .f32) (main_arg24 : FVec F S256 .f32) (main_arg25 : FVec F S256 .f32) (main_arg26 : FVec F S256x256 .f32) (main_arg27 : FVec F S256 .f32) (main_v33 : IVec S_ 1) : IVec S_ 1 :=
  let main_v34 : FVec F S256x256 .f32 := Host.absf main_arg10
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S2x256x256 .f32 := Host.absf main_arg11
  let main_cst_14 : FVec F S_ .f32 := constant S_ .f32 0x7F800000#32
  let main_v40 : FVec F S2x256x256 .f32 := broadcastInDim S2x256x256 ![] bcast_S_S2x256x256 main_cst_14
  let main_v41 : IVec S2x256x256 1 := cmpf .olt main_v39 main_v40
  let main_c_15 : IVec S_ 1 := constantI S_ 1 1#1
  let main_v42 : IVec S_ 1 := (fun x v => Host.reduce IntOp.andi x v reducesTo_S2x256x256_S_d0_1_2 h_S_) main_v41 main_c_15
  let main_v43 : IVec S_ 1 := andi main_v38 main_v42
  let main_v44 : FVec F S2x256x256 .f32 := Host.absf main_arg12
  let main_cst_16 : FVec F S_ .f32 := constant S_ .f32 0x7F800000#32
  let main_v45 : FVec F S2x256x256 .f32 := broadcastInDim S2x256x256 ![] bcast_S_S2x256x256 main_cst_16
  let main_v46 : IVec S2x256x256 1 := cmpf .olt main_v44 main_v45
  let main_c_17 : IVec S_ 1 := constantI S_ 1 1#1
  let main_v47 : IVec S_ 1 := (fun x v => Host.reduce IntOp.andi x v reducesTo_S2x256x256_S_d0_1_2 h_S_) main_v46 main_c_17
  let main_v48 : IVec S_ 1 := andi main_v43 main_v47
  let main_v49 : FVec F S2x256x256 .f32 := Host.absf main_arg13
  let main_cst_18 : FVec F S_ .f32 := constant S_ .f32 0x7F800000#32
  let main_v50 : FVec F S2x256x256 .f32 := broadcastInDim S2x256x256 ![] bcast_S_S2x256x256 main_cst_18
  fn_part3 (F := F) main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg7 : FVec F S256x256 .f32) (main_arg8 : FVec F S256x256 .f32) (main_arg9 : FVec F S256x256 .f32) (main_arg10 : FVec F S256x256 .f32) (main_arg11 : FVec F S2x256x256 .f32) (main_arg12 : FVec F S2x256x256 .f32) (main_arg13 : FVec F S2x256x256 .f32) (main_arg14 : FVec F S2x256x256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_arg22 : FVec F S256 .f32) (main_arg23 : FVec F S256 .f32) (main_arg24 : FVec F S256 .f32) (main_arg25 : FVec F S256 .f32) (main_arg26 : FVec F S256x256 .f32) (main_arg27 : FVec F S256 .f32) (main_v13 : IVec S_ 1) (main_v16 : IVec S30000x256 1) : IVec S_ 1 :=
  let main_c_5 : IVec S_ 1 := constantI S_ 1 1#1
  let main_v17 : IVec S_ 1 := (fun x v => Host.reduce IntOp.andi x v reducesTo_S30000x256_S_d0_1 h_S_) main_v16 main_c_5
  let main_v18 : IVec S_ 1 := andi main_v13 main_v17
  let main_v19 : FVec F S256x256 .f32 := Host.absf main_arg7
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg8
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg9
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S30000x256 .f32) (main_arg1 : IVec S2x480000 32) (main_arg2 : FVec F S480000 .f32) (main_arg3 : FVec F S30000x256 .f32) (main_arg4 : FVec F S30000x256 .f32) (main_arg5 : IVec S480000 32) (main_arg6 : IVec S480000 32) (main_arg7 : FVec F S256x256 .f32) (main_arg8 : FVec F S256x256 .f32) (main_arg9 : FVec F S256x256 .f32) (main_arg10 : FVec F S256x256 .f32) (main_arg11 : FVec F S2x256x256 .f32) (main_arg12 : FVec F S2x256x256 .f32) (main_arg13 : FVec F S2x256x256 .f32) (main_arg14 : FVec F S2x256x256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_arg22 : FVec F S256 .f32) (main_arg23 : FVec F S256 .f32) (main_arg24 : FVec F S256 .f32) (main_arg25 : FVec F S256 .f32) (main_arg26 : FVec F S256x256 .f32) (main_arg27 : FVec F S256 .f32) : IVec S_ 1 :=
  let main_v0 : FVec F S30000x256 .f32 := Host.absf main_arg0
  let main_cst : FVec F S_ .f32 := constant S_ .f32 0x7F800000#32
  let main_v1 : FVec F S30000x256 .f32 := broadcastInDim S30000x256 ![] bcast_S_S30000x256 main_cst
  let main_v2 : IVec S30000x256 1 := cmpf .olt main_v0 main_v1
  let main_c : IVec S_ 1 := constantI S_ 1 1#1
  let main_v3 : IVec S_ 1 := (fun x v => Host.reduce IntOp.andi x v reducesTo_S30000x256_S_d0_1 h_S_) main_v2 main_c
  let main_v4 : FVec F S480000 .f32 := Host.absf main_arg2
  let main_cst_0 : FVec F S_ .f32 := constant S_ .f32 0x7F800000#32
  let main_v5 : FVec F S480000 .f32 := broadcastInDim S480000 ![] bcast_S_S480000 main_cst_0
  let main_v6 : IVec S480000 1 := cmpf .olt main_v4 main_v5
  let main_c_1 : IVec S_ 1 := constantI S_ 1 1#1
  let main_v7 : IVec S_ 1 := (fun x v => Host.reduce IntOp.andi x v reducesTo_S480000_S_d0 h_S_) main_v6 main_c_1
  let main_v8 : IVec S_ 1 := andi main_v3 main_v7
  let main_v9 : FVec F S30000x256 .f32 := Host.absf main_arg3
  let main_cst_2 : FVec F S_ .f32 := constant S_ .f32 0x7F800000#32
  let main_v10 : FVec F S30000x256 .f32 := broadcastInDim S30000x256 ![] bcast_S_S30000x256 main_cst_2
  let main_v11 : IVec S30000x256 1 := cmpf .olt main_v9 main_v10
  let main_c_3 : IVec S_ 1 := constantI S_ 1 1#1
  let main_v12 : IVec S_ 1 := (fun x v => Host.reduce IntOp.andi x v reducesTo_S30000x256_S_d0_1 h_S_) main_v11 main_c_3
  let main_v13 : IVec S_ 1 := andi main_v8 main_v12
  let main_v14 : FVec F S30000x256 .f32 := Host.absf main_arg4
  let main_cst_4 : FVec F S_ .f32 := constant S_ .f32 0x7F800000#32
  let main_v15 : FVec F S30000x256 .f32 := broadcastInDim S30000x256 ![] bcast_S_S30000x256 main_cst_4
  let main_v16 : IVec S30000x256 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S30000x256 : Shape := ⟨2, ![30000, 256]⟩
abbrev S2x480000 : Shape := ⟨2, ![2, 480000]⟩
abbrev S480000 : Shape := ⟨1, ![480000]⟩
abbrev S256x256 : Shape := ⟨2, ![256, 256]⟩
abbrev S2x256x256 : Shape := ⟨3, ![2, 256, 256]⟩
abbrev S256 : Shape := ⟨1, ![256]⟩
abbrev S1x480000 : Shape := ⟨2, ![1, 480000]⟩
abbrev S_ : Shape := ⟨0, ![]⟩
abbrev S480000x1 : Shape := ⟨2, ![480000, 1]⟩
abbrev S480000x256 : Shape := ⟨2, ![480000, 256]⟩
abbrev S960000 : Shape := ⟨1, ![960000]⟩
abbrev S960000x256 : Shape := ⟨2, ![960000, 256]⟩
abbrev S960000x1 : Shape := ⟨2, ![960000, 1]⟩
abbrev S30000 : Shape := ⟨1, ![30000]⟩
abbrev S256x1024 : Shape := ⟨2, ![256, 1024]⟩
abbrev S1x256x256 : Shape := ⟨3, ![1, 256, 256]⟩
abbrev S1024 : Shape := ⟨1, ![1024]⟩
abbrev S1x1024 : Shape := ⟨2, ![1, 1024]⟩
abbrev S1x256 : Shape := ⟨2, ![1, 256]⟩
abbrev S1200x256 : Shape := ⟨2, ![1200, 256]⟩
abbrev S1200x1024 : Shape := ⟨2, ![1200, 1024]⟩

abbrev nBuf : Space → Nat
  | .hbm => 145
  | .vmem => 23
  | .smem => 0
  | _ => 0

abbrev hbmTy0_0 (i : Nat) : BufTy := match i % 128 with
  | 0 => ⟨S30000x256, .f32⟩
  | 1 => ⟨S2x480000, .i32⟩
  | 2 => ⟨S480000, .f32⟩
  | 3 => ⟨S30000x256, .f32⟩
  | 4 => ⟨S30000x256, .f32⟩
  | 5 => ⟨S480000, .i32⟩
  | 6 => ⟨S480000, .i32⟩
  | 7 => ⟨S256x256, .f32⟩
  | 8 => ⟨S256x256, .f32⟩
  | 9 => ⟨S256x256, .f32⟩
  | 10 => ⟨S256x256, .f32⟩
  | 11 => ⟨S2x256x256, .f32⟩
  | 12 => ⟨S2x256x256, .f32⟩
  | 13 => ⟨S2x256x256, .f32⟩
  | 14 => ⟨S2x256x256, .f32⟩
  | 15 => ⟨S256, .f32⟩
  | 16 => ⟨S256, .f32⟩
  | 17 => ⟨S256, .f32⟩
  | 18 => ⟨S256, .f32⟩
  | 19 => ⟨S256, .f32⟩
  | 20 => ⟨S256, .f32⟩
  | 21 => ⟨S256, .f32⟩
  | 22 => ⟨S256, .f32⟩
  | 23 => ⟨S256, .f32⟩
  | 24 => ⟨S256, .f32⟩
  | 25 => ⟨S256, .f32⟩
  | 26 => ⟨S256x256, .f32⟩
  | 27 => ⟨S256, .f32⟩
  | 28 => ⟨S1x480000, .i32⟩
  | 29 => ⟨S480000, .i32⟩
  | 30 => ⟨S1x480000, .i32⟩
  | 31 => ⟨S480000, .i32⟩
  | 32 => ⟨S_, .i32⟩
  | 33 => ⟨S480000, .i32⟩
  | 34 => ⟨S480000, .i1⟩
  | 35 => ⟨S_, .i32⟩
  | 36 => ⟨S480000, .i32⟩
  | 37 => ⟨S480000, .i32⟩
  | 38 => ⟨S480000, .i32⟩
  | 39 => ⟨S480000x1, .i32⟩
  | 40 => ⟨S480000x256, .f32⟩
  | 41 => ⟨S_, .i32⟩
  | 42 => ⟨S480000, .i32⟩
  | 43 => ⟨S480000, .i1⟩
  | 44 => ⟨S_, .i32⟩
  | 45 => ⟨S480000, .i32⟩
  | 46 => ⟨S480000, .i32⟩
  | 47 => ⟨S480000, .i32⟩
  | 48 => ⟨S480000x1, .i32⟩
  | 49 => ⟨S480000x256, .f32⟩
  | 50 => ⟨S960000, .i32⟩
  | 51 => ⟨S960000x256, .f32⟩
  | 52 => ⟨S_, .i32⟩
  | 53 => ⟨S960000, .i32⟩
  | 54 => ⟨S960000, .i1⟩
  | 55 => ⟨S_, .i32⟩
  | 56 => ⟨S960000, .i32⟩
  | 57 => ⟨S960000, .i32⟩
  | 58 => ⟨S960000, .i32⟩
  | 59 => ⟨S960000x1, .i32⟩
  | 60 => ⟨S30000x256, .f32⟩
  | 61 => ⟨S_, .f32⟩
  | 62 => ⟨S30000, .f32⟩
  | 63 => ⟨S480000x1, .i32⟩
  | 64 => ⟨S30000, .f32⟩
  | 65 => ⟨S_, .f32⟩
  | 66 => ⟨S30000, .f32⟩
  | 67 => ⟨S30000, .i1⟩
  | 68 => ⟨S_, .f32⟩
  | 69 => ⟨S30000, .f32⟩
  | 70 => ⟨S30000, .f32⟩
  | 71 => ⟨S30000, .f32⟩
  | 72 => ⟨S_, .f32⟩
  | 73 => ⟨S_, .f32⟩
  | 74 => ⟨S30000, .f32⟩
  | 75 => ⟨S30000, .f32⟩
  | 76 => ⟨S_, .i32⟩
  | 77 => ⟨S480000, .i32⟩
  | 78 => ⟨S480000, .i1⟩
  | 79 => ⟨S_, .i32⟩
  | 80 => ⟨S480000, .i32⟩
  | 81 => ⟨S480000, .i32⟩
  | 82 => ⟨S480000, .i32⟩
  | 83 => ⟨S480000x1, .i32⟩
  | 84 => ⟨S480000, .f32⟩
  | 85 => ⟨S480000, .f32⟩
  | 86 => ⟨S480000, .f32⟩
  | 87 => ⟨S_, .i32⟩
  | 88 => ⟨S480000, .i32⟩
  | 89 => ⟨S480000, .i1⟩
  | 90 => ⟨S_, .i32⟩
  | 91 => ⟨S480000, .i32⟩
  | 92 => ⟨S480000, .i32⟩
  | 93 => ⟨S480000, .i32⟩
  | 94 => ⟨S480000x1, .i32⟩
  | 95 => ⟨S480000, .f32⟩
  | 96 => ⟨S480000, .f32⟩
  | 97 => ⟨S480000x1, .f32⟩
  | 98 => ⟨S_, .i32⟩
  | 99 => ⟨S480000, .i32⟩
  | 100 => ⟨S480000, .i1⟩
  | 101 => ⟨S_, .i32⟩
  | 102 => ⟨S480000, .i32⟩
  | 103 => ⟨S480000, .i32⟩
  | 104 => ⟨S480000, .i32⟩
  | 105 => ⟨S480000x1, .i32⟩
  | 106 => ⟨S480000x256, .f32⟩
  | 107 => ⟨S480000x256, .f32⟩
  | 108 => ⟨S480000x256, .f32⟩
  | 109 => ⟨S_, .f32⟩
  | 110 => ⟨S30000x256, .f32⟩
  | 111 => ⟨S480000x1, .i32⟩
  | 112 => ⟨S30000x256, .f32⟩
  | 113 => ⟨S256x1024, .f32⟩
  | 114 => ⟨S1x256x256, .f32⟩
  | 115 => ⟨S256x256, .f32⟩
  | 116 => ⟨S1x256x256, .f32⟩
  | 117 => ⟨S256x256, .f32⟩
  | 118 => ⟨S1x256x256, .f32⟩
  | 119 => ⟨S256x256, .f32⟩
  | 120 => ⟨S1x256x256, .f32⟩
  | 121 => ⟨S256x256, .f32⟩
  | 122 => ⟨S256x1024, .f32⟩
  | 123 => ⟨S1x256x256, .f32⟩
  | 124 => ⟨S256x256, .f32⟩
  | 125 => ⟨S1x256x256, .f32⟩
  | 126 => ⟨S256x256, .f32⟩
  | 127 => ⟨S1x256x256, .f32⟩
  | _ => ⟨S30000x256, .f32⟩

abbrev hbmTy0_1 (i : Nat) : BufTy := match i % 128 with
  | 0 => ⟨S256x256, .f32⟩
  | 1 => ⟨S1x256x256, .f32⟩
  | 2 => ⟨S256x256, .f32⟩
  | 3 => ⟨S256x1024, .f32⟩
  | 4 => ⟨S256, .f32⟩
  | 5 => ⟨S256, .f32⟩
  | 6 => ⟨S256, .f32⟩
  | 7 => ⟨S256, .f32⟩
  | 8 => ⟨S1024, .f32⟩
  | 9 => ⟨S1x1024, .f32⟩
  | 10 => ⟨S1x256, .f32⟩
  | 11 => ⟨S1x256, .f32⟩
  | 12 => ⟨S1x256, .f32⟩
  | 13 => ⟨S1x256, .f32⟩
  | 14 => ⟨S30000x256, .f32⟩
  | 15 => ⟨S30000x256, .f32⟩
  | 16 => ⟨S30000x256, .f32⟩
  | _ => ⟨S30000x256, .f32⟩

abbrev hbmTy (i : Nat) : BufTy := match i / 128 with
  | 0 => hbmTy0_0 i
  | 1 => hbmTy0_1 i
  | _ => ⟨S30000x256, .f32⟩

abbrev bufTy : (tb : Table) → Fin (tcTables nBuf tb) → BufTy
  | .hbm, ⟨i, _⟩ => hbmTy i
  | .local _ .vmem, ⟨0, _⟩ => ⟨S1200x256, .f32⟩
  | .local _ .vmem, ⟨1, _⟩ => ⟨S1200x256, .f32⟩
  | .local _ .vmem, ⟨2, _⟩ => ⟨S1200x256, .f32⟩
  | .local _ .vmem, ⟨3, _⟩ => ⟨S1200x256, .f32⟩
  | .local _ .vmem, ⟨4, _⟩ => ⟨S1200x256, .f32⟩
  | .local _ .vmem, ⟨5, _⟩ => ⟨S1200x256, .f32⟩
  | .local _ .vmem, ⟨6, _⟩ => ⟨S1200x256, .f32⟩
  | .local _ .vmem, ⟨7, _⟩ => ⟨S1200x256, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S256x256, .f32⟩
  | .local _ .vmem, ⟨16, _⟩ => ⟨S1x256, .f32⟩
  | .local _ .vmem, ⟨17, _⟩ => ⟨S1200x256, .f32⟩
  | .local _ .vmem, ⟨18, _⟩ => ⟨S1200x256, .f32⟩
  | .local _ .vmem, ⟨19, _⟩ => ⟨S1200x256, .f32⟩
  | .local _ .vmem, ⟨20, _⟩ => ⟨S1200x256, .f32⟩
  | .local _ .vmem, ⟨21, _⟩ => ⟨S1200x256, .f32⟩
  | .local _ .vmem, ⟨22, _⟩ => ⟨S1200x256, .f32⟩
  | _, _ => ⟨S30000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_1 : Ref sig .tc := ⟨.hbm, 41, rfl⟩
abbrev main_v11 : Ref sig .tc := ⟨.hbm, 42, rfl⟩
abbrev main_v12 : Ref sig .tc := ⟨.hbm, 43, rfl⟩
abbrev main_c_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_c_3 : Ref sig .tc := ⟨.hbm, 52, rfl⟩
abbrev main_v20 : Ref sig .tc := ⟨.hbm, 53, rfl⟩
abbrev main_v21 : Ref sig .tc := ⟨.hbm, 54, rfl⟩
abbrev main_c_4 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_5 : Ref sig .tc := ⟨.hbm, 65, rfl⟩
abbrev main_v30 : Ref sig .tc := ⟨.hbm, 66, rfl⟩
abbrev main_v31 : Ref sig .tc := ⟨.hbm, 67, rfl⟩
abbrev main_cst_6 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_7 : Ref sig .tc := ⟨.hbm, 72, rfl⟩
abbrev main_call0_v0 : Ref sig .tc := ⟨.hbm, 73, rfl⟩
abbrev main_call0_v1 : Ref sig .tc := ⟨.hbm, 74, rfl⟩
abbrev main_v35 : Ref sig .tc := ⟨.hbm, 75, rfl⟩
abbrev main_c_8 : Ref sig .tc := ⟨.hbm, 76, rfl⟩
abbrev main_v36 : Ref sig .tc := ⟨.hbm, 77, rfl⟩
abbrev main_v37 : Ref sig .tc := ⟨.hbm, 78, rfl⟩
abbrev main_c_9 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_10 : Ref sig .tc := ⟨.hbm, 87, rfl⟩
abbrev main_v45 : Ref sig .tc := ⟨.hbm, 88, rfl⟩
abbrev main_v46 : Ref sig .tc := ⟨.hbm, 89, rfl⟩
abbrev main_c_11 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_c_12 : Ref sig .tc := ⟨.hbm, 98, rfl⟩
abbrev main_v54 : Ref sig .tc := ⟨.hbm, 99, rfl⟩
abbrev main_v55 : Ref sig .tc := ⟨.hbm, 100, rfl⟩
abbrev main_c_13 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_14 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95_0 : Ref sig .tc := ⟨.hbm, 142, rfl⟩
abbrev main_v95_1 : Ref sig .tc := ⟨.hbm, 143, rfl⟩
abbrev main_v95_2 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1200x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1200x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1200x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1200x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1200x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1200x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S2x480000_S1x480000_0_0 : S2x480000.Slices ![0, 0] S1x480000
  shapeCasts_S1x480000_S480000 : S1x480000.ShapeCasts S480000
  slices_S2x480000_S1x480000_1_0 : S2x480000.Slices ![1, 0] S1x480000
  bcast_S_S480000 : S_.BroadcastsInDim S480000 (![] : Fin 0 → Fin S480000.rank)
  bcast_S480000_S480000x1_0 : S480000.BroadcastsInDim S480000x1 (![0] : Fin 1 → Fin S480000x1.rank)
  concatenates_S480000_S480000_S960000_d0 : Shape.Concatenates [S480000, S480000] S960000 0
  concatenates_S480000x256_S480000x256_S960000x256_d0 : Shape.Concatenates [S480000x256, S480000x256] S960000x256 0
  bcast_S_S960000 : S_.BroadcastsInDim S960000 (![] : Fin 0 → Fin S960000.rank)
  bcast_S960000_S960000x1_0 : S960000.BroadcastsInDim S960000x1 (![0] : Fin 1 → Fin S960000x1.rank)
  bcast_S_S30000 : S_.BroadcastsInDim S30000 (![] : Fin 0 → Fin S30000.rank)
  bcast_S480000x1_S480000x256_0_1 : S480000x1.BroadcastsInDim S480000x256 (![0, 1] : Fin 2 → Fin S480000x256.rank)
  bcast_S_S30000x256 : S_.BroadcastsInDim S30000x256 (![] : Fin 0 → Fin S30000x256.rank)
  concatenates_S256x256_S256x256_S256x256_S256x256_S256x1024_d1 : Shape.Concatenates [S256x256, S256x256, S256x256, S256x256] S256x1024 1
  slices_S2x256x256_S1x256x256_0_0_0 : S2x256x256.Slices ![0, 0, 0] S1x256x256
  shapeCasts_S1x256x256_S256x256 : S1x256x256.ShapeCasts S256x256
  slices_S2x256x256_S1x256x256_1_0_0 : S2x256x256.Slices ![1, 0, 0] S1x256x256
  concatenates_S256_S256_S256_S256_S1024_d0 : Shape.Concatenates [S256, S256, S256, S256] S1024 0
  shapeCasts_S1024_S1x1024 : S1024.ShapeCasts S1x1024
  shapeCasts_S256_S1x256 : S256.ShapeCasts S1x256
  inb_S1200x256_S1200x256_0_0 : ∀ a, (![0, 0] : Fin 2 → Nat) a + S1200x256.size a ≤ S1200x256.size a
  h_S1200x256 : 0 < S1200x256.numel
  shapeCasts_S1200x256_S1200x256 : S1200x256.ShapeCasts S1200x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1200x1024 : S1x1024.Broadcasts S1200x1024
  slices_S1200x1024_o0_0_S1200x256 : S1200x1024.Slices ![0, 0] S1200x256
  slices_S1200x1024_o0_256_S1200x256 : S1200x1024.Slices ![0, 256] S1200x256
  slices_S1200x1024_o0_512_S1200x256 : S1200x1024.Slices ![0, 512] S1200x256
  slices_S1200x1024_o0_768_S1200x256 : S1200x1024.Slices ![0, 768] S1200x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1200x256 : S1x256.Broadcasts S1200x256
  inb_S256x256_S256x256_0_0 : ∀ a, (![0, 0] : Fin 2 → Nat) a + S256x256.size a ≤ S256x256.size a
  h_S256x256 : 0 < S256x256.numel
  gather_S30000x256_S480000x1_S480000x256_1_0_n_n_0_1_1256_wf : GatherDims.WF S30000x256 S480000x1 S480000x256 [1] [0] [] [0] [] 1 ![1, 256]
  scatter_S30000x256_S960000x1_S960000x256_1_0_0_1_wf : ScatterDims.WF S30000x256 S960000x1 S960000x256 [1] [0] [0] 1
  scatter_S30000_S480000x1_S480000_n_0_0_1_wf : ScatterDims.WF S30000 S480000x1 S480000 [] [0] [0] 1
  gather_S30000_S480000x1_S480000_n_0_n_n_0_1_1_wf : GatherDims.WF S30000 S480000x1 S480000 [] [0] [] [0] [] 1 ![1]
  scatter_S30000x256_S480000x1_S480000x256_1_0_0_1_wf : ScatterDims.WF S30000x256 S480000x1 S480000x256 [1] [0] [0] 1
  dot_S1200x256_S256x1024_S1200x1024_1_0_0_1_n_n_wf : DotDims.WF S1200x256 S256x1024 S1200x1024 [1] [0] [0] [1] [] []
  dot_S1200x256_S256x256_S1200x256_1_0_0_1_n_n_wf : DotDims.WF S1200x256 S256x256 S1200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1200x256.size a ≤ S30000x256.size a
  hwx0_0 : ∀ i : grid0.Coords, EltTy.bits .f32 = 32 ∨ (Rect.block (s := S30000x256) S1200x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1200x256.size a ≤ S30000x256.size a
  hwx0_1 : ∀ i : grid0.Coords, EltTy.bits .f32 = 32 ∨ (Rect.block (s := S30000x256) S1200x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1200x256.size a ≤ S30000x256.size a
  hwx0_2 : ∀ i : grid0.Coords, EltTy.bits .f32 = 32 ∨ (Rect.block (s := S30000x256) S1200x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1200x256.size a ≤ S30000x256.size a
  hwx0_3 : ∀ i : grid0.Coords, EltTy.bits .f32 = 32 ∨ (Rect.block (s := S30000x256) S1200x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .f32 = 32 ∨ (Rect.block (s := S256x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .f32 = 32 ∨ (Rect.block (s := S256x1024) S256x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S256x1024.size a
  hwx0_6 : ∀ i : grid0.Coords, EltTy.bits .f32 = 32 ∨ (Rect.block (s := S256x1024) S256x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1200x256.size a ≤ S30000x256.size a
  hwx0_13 : ∀ i : grid0.Coords, EltTy.bits .f32 = 32 ∨ (Rect.block (s := S30000x256) S1200x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1200x256.size a ≤ S30000x256.size a
  hwx0_14 : ∀ i : grid0.Coords, EltTy.bits .f32 = 32 ∨ (Rect.block (s := S30000x256) S1200x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1200x256.size a ≤ S30000x256.size a
  hwx0_15 : ∀ i : grid0.Coords, EltTy.bits .f32 = 32 ∨ (Rect.block (s := S30000x256) S1200x256.size (cc0_transform_15 i) (hinb0_15 i)).WholeWords (EltTy.packing .f32)

variable [Facts₀]

def gather_S30000x256_S480000x1_S480000x256_1_0_n_n_0_1_1256 : GatherDims S30000x256 S480000x1 S480000x256 where
  offsetDims := [1]
  collapsedSliceDims := [0]
  operandBatchingDims := []
  startIndicesBatchingDims := []
  startIndexMap := [0]
  indexVectorDim := 1
  sliceSizes := ![1, 256]
  wf := gather_S30000x256_S480000x1_S480000x256_1_0_n_n_0_1_1256_wf
def scatter_S30000x256_S960000x1_S960000x256_1_0_0_1 : ScatterDims S30000x256 S960000x1 S960000x256 where
  updateWindowDims := [1]
  insertedWindowDims := [0]
  scatterDimsToOperandDims := [0]
  indexVectorDim := 1
  wf := scatter_S30000x256_S960000x1_S960000x256_1_0_0_1_wf
def scatter_S30000_S480000x1_S480000_n_0_0_1 : ScatterDims S30000 S480000x1 S480000 where
  updateWindowDims := []
  insertedWindowDims := [0]
  scatterDimsToOperandDims := [0]
  indexVectorDim := 1
  wf := scatter_S30000_S480000x1_S480000_n_0_0_1_wf
def gather_S30000_S480000x1_S480000_n_0_n_n_0_1_1 : GatherDims S30000 S480000x1 S480000 where
  offsetDims := []
  collapsedSliceDims := [0]
  operandBatchingDims := []
  startIndicesBatchingDims := []
  startIndexMap := [0]
  indexVectorDim := 1
  sliceSizes := ![1]
  wf := gather_S30000_S480000x1_S480000_n_0_n_n_0_1_1_wf
def scatter_S30000x256_S480000x1_S480000x256_1_0_0_1 : ScatterDims S30000x256 S480000x1 S480000x256 where
  updateWindowDims := [1]
  insertedWindowDims := [0]
  scatterDimsToOperandDims := [0]
  indexVectorDim := 1
  wf := scatter_S30000x256_S480000x1_S480000x256_1_0_0_1_wf
def dot_S1200x256_S256x1024_S1200x1024_1_0_0_1_n_n : DotDims S1200x256 S256x1024 S1200x1024 where
  lhsContracting := [1]
  rhsContracting := [0]
  lhsNonContracting := [0]
  rhsNonContracting := [1]
  lhsBatch := []
  rhsBatch := []
  wf := dot_S1200x256_S256x1024_S1200x1024_1_0_0_1_n_n_wf
def dot_S1200x256_S256x256_S1200x256_1_0_0_1_n_n : DotDims S1200x256 S256x256 S1200x256 where
  lhsContracting := [1]
  rhsContracting := [0]
  lhsNonContracting := [0]
  rhsNonContracting := [1]
  lhsBatch := []
  rhsBatch := []
  wf := dot_S1200x256_S256x256_S1200x256_1_0_0_1_n_n_wf

abbrev win0_0 : Pipeline.Window sig grid0 :=
  Pipeline.Window.ofSpec (Memref.whole main_v26) S1200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1200x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1200x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v65) S1200x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v66) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v75) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v84) S256x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v90) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v91) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v92) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v93) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg26) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v94) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v95_0) S1200x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v95_1) S1200x256.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v95_2) S1200x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S30000x256 : Shape := ⟨2, ![30000, 256]⟩
abbrev S2x480000 : Shape := ⟨2, ![2, 480000]⟩
abbrev S480000 : Shape := ⟨1, ![480000]⟩
abbrev S256x256 : Shape := ⟨2, ![256, 256]⟩
abbrev S2x256x256 : Shape := ⟨3, ![2, 256, 256]⟩
abbrev S256 : Shape := ⟨1, ![256]⟩
abbrev S1x480000 : Shape := ⟨2, ![1, 480000]⟩
abbrev S_ : Shape := ⟨0, ![]⟩
abbrev S480000x1 : Shape := ⟨2, ![480000, 1]⟩
abbrev S480000x256 : Shape := ⟨2, ![480000, 256]⟩
abbrev S30000 : Shape := ⟨1, ![30000]⟩
abbrev S1x256x256 : Shape := ⟨3, ![1, 256, 256]⟩
abbrev S1x256 : Shape := ⟨2, ![1, 256]⟩

abbrev nBuf : Space → Nat
  | .hbm => 277
  | .vmem => 0
  | .smem => 0
  | _ => 0

abbrev hbmTy0_0 (i : Nat) : BufTy := match i % 128 with
  | 0 => ⟨S30000x256, .f32⟩
  | 1 => ⟨S2x480000, .i32⟩
  | 2 => ⟨S480000, .f32⟩
  | 3 => ⟨S30000x256, .f32⟩
  | 4 => ⟨S30000x256, .f32⟩
  | 5 => ⟨S480000, .i32⟩
  | 6 => ⟨S480000, .i32⟩
  | 7 => ⟨S256x256, .f32⟩
  | 8 => ⟨S256x256, .f32⟩
  | 9 => ⟨S256x256, .f32⟩
  | 10 => ⟨S256x256, .f32⟩
  | 11 => ⟨S2x256x256, .f32⟩
  | 12 => ⟨S2x256x256, .f32⟩
  | 13 => ⟨S2x256x256, .f32⟩
  | 14 => ⟨S2x256x256, .f32⟩
  | 15 => ⟨S256, .f32⟩
  | 16 => ⟨S256, .f32⟩
  | 17 => ⟨S256, .f32⟩
  | 18 => ⟨S256, .f32⟩
  | 19 => ⟨S256, .f32⟩
  | 20 => ⟨S256, .f32⟩
  | 21 => ⟨S256, .f32⟩
  | 22 => ⟨S256, .f32⟩
  | 23 => ⟨S256, .f32⟩
  | 24 => ⟨S256, .f32⟩
  | 25 => ⟨S256, .f32⟩
  | 26 => ⟨S256x256, .f32⟩
  | 27 => ⟨S256, .f32⟩
  | 28 => ⟨S1x480000, .i32⟩
  | 29 => ⟨S480000, .i32⟩
  | 30 => ⟨S1x480000, .i32⟩
  | 31 => ⟨S480000, .i32⟩
  | 32 => ⟨S_, .i32⟩
  | 33 => ⟨S480000, .i32⟩
  | 34 => ⟨S480000, .i1⟩
  | 35 => ⟨S_, .i32⟩
  | 36 => ⟨S480000, .i32⟩
  | 37 => ⟨S480000, .i32⟩
  | 38 => ⟨S480000, .i32⟩
  | 39 => ⟨S480000x1, .i32⟩
  | 40 => ⟨S480000x256, .f32⟩
  | 41 => ⟨S_, .i32⟩
  | 42 => ⟨S480000, .i32⟩
  | 43 => ⟨S480000, .i1⟩
  | 44 => ⟨S_, .i32⟩
  | 45 => ⟨S480000, .i32⟩
  | 46 => ⟨S480000, .i32⟩
  | 47 => ⟨S480000, .i32⟩
  | 48 => ⟨S480000x1, .i32⟩
  | 49 => ⟨S480000x256, .f32⟩
  | 50 => ⟨S_, .i32⟩
  | 51 => ⟨S480000, .i32⟩
  | 52 => ⟨S480000, .i1⟩
  | 53 => ⟨S_, .i32⟩
  | 54 => ⟨S480000, .i32⟩
  | 55 => ⟨S480000, .i32⟩
  | 56 => ⟨S480000, .i32⟩
  | 57 => ⟨S480000x1, .i32⟩
  | 58 => ⟨S30000x256, .f32⟩
  | 59 => ⟨S_, .i32⟩
  | 60 => ⟨S480000, .i32⟩
  | 61 => ⟨S480000, .i1⟩
  | 62 => ⟨S_, .i32⟩
  | 63 => ⟨S480000, .i32⟩
  | 64 => ⟨S480000, .i32⟩
  | 65 => ⟨S480000, .i32⟩
  | 66 => ⟨S480000x1, .i32⟩
  | 67 => ⟨S30000x256, .f32⟩
  | 68 => ⟨S_, .f32⟩
  | 69 => ⟨S30000, .f32⟩
  | 70 => ⟨S480000x1, .i32⟩
  | 71 => ⟨S30000, .f32⟩
  | 72 => ⟨S_, .f32⟩
  | 73 => ⟨S30000, .f32⟩
  | 74 => ⟨S30000, .i1⟩
  | 75 => ⟨S_, .f32⟩
  | 76 => ⟨S30000, .f32⟩
  | 77 => ⟨S30000, .f32⟩
  | 78 => ⟨S30000, .f32⟩
  | 79 => ⟨S_, .f32⟩
  | 80 => ⟨S_, .f32⟩
  | 81 => ⟨S30000, .f32⟩
  | 82 => ⟨S30000, .f32⟩
  | 83 => ⟨S_, .i32⟩
  | 84 => ⟨S480000, .i32⟩
  | 85 => ⟨S480000, .i1⟩
  | 86 => ⟨S_, .i32⟩
  | 87 => ⟨S480000, .i32⟩
  | 88 => ⟨S480000, .i32⟩
  | 89 => ⟨S480000, .i32⟩
  | 90 => ⟨S480000x1, .i32⟩
  | 91 => ⟨S480000, .f32⟩
  | 92 => ⟨S480000, .f32⟩
  | 93 => ⟨S480000, .f32⟩
  | 94 => ⟨S_, .i32⟩
  | 95 => ⟨S480000, .i32⟩
  | 96 => ⟨S480000, .i1⟩
  | 97 => ⟨S_, .i32⟩
  | 98 => ⟨S480000, .i32⟩
  | 99 => ⟨S480000, .i32⟩
  | 100 => ⟨S480000, .i32⟩
  | 101 => ⟨S480000x1, .i32⟩
  | 102 => ⟨S480000, .f32⟩
  | 103 => ⟨S480000, .f32⟩
  | 104 => ⟨S30000x256, .f32⟩
  | 105 => ⟨S1x256x256, .f32⟩
  | 106 => ⟨S256x256, .f32⟩
  | 107 => ⟨S30000x256, .f32⟩
  | 108 => ⟨S480000x1, .f32⟩
  | 109 => ⟨S_, .i32⟩
  | 110 => ⟨S480000, .i32⟩
  | 111 => ⟨S480000, .i1⟩
  | 112 => ⟨S_, .i32⟩
  | 113 => ⟨S480000, .i32⟩
  | 114 => ⟨S480000, .i32⟩
  | 115 => ⟨S480000, .i32⟩
  | 116 => ⟨S480000x1, .i32⟩
  | 117 => ⟨S480000x256, .f32⟩
  | 118 => ⟨S480000x256, .f32⟩
  | 119 => ⟨S480000x256, .f32⟩
  | 120 => ⟨S_, .f32⟩
  | 121 => ⟨S30000x256, .f32⟩
  | 122 => ⟨S480000x1, .i32⟩
  | 123 => ⟨S30000x256, .f32⟩
  | 124 => ⟨S1x256x256, .f32⟩
  | 125 => ⟨S256x256, .f32⟩
  | 126 => ⟨S30000x256, .f32⟩
  | 127 => ⟨S30000x256, .f32⟩
  | _ => ⟨S30000x256, .f32⟩

abbrev hbmTy0_1 (i : Nat) : BufTy := match i % 128 with
  | 0 => ⟨S1x256, .f32⟩
  | 1 => ⟨S30000x256, .f32⟩
  | 2 => ⟨S30000x256, .f32⟩
  | 3 => ⟨S30000x256, .f32⟩
  | 4 => ⟨S1x256, .f32⟩
  | 5 => ⟨S30000x256, .f32⟩
  | 6 => ⟨S30000x256, .f32⟩
  | 7 => ⟨S30000x256, .f32⟩
  | 8 => ⟨S1x256, .f32⟩
  | 9 => ⟨S30000x256, .f32⟩
  | 10 => ⟨S30000x256, .f32⟩
  | 11 => ⟨S30000x256, .f32⟩
  | 12 => ⟨S30000x256, .f32⟩
  | 13 => ⟨S_, .f32⟩
  | 14 => ⟨S30000x256, .f32⟩
  | 15 => ⟨S30000x256, .f32⟩
  | 16 => ⟨S_, .f32⟩
  | 17 => ⟨S30000x256, .f32⟩
  | 18 => ⟨S30000x256, .f32⟩
  | 19 => ⟨S30000x256, .f32⟩
  | 20 => ⟨S1x256x256, .f32⟩
  | 21 => ⟨S256x256, .f32⟩
  | 22 => ⟨S30000x256, .f32⟩
  | 23 => ⟨S480000x1, .f32⟩
  | 24 => ⟨S_, .i32⟩
  | 25 => ⟨S480000, .i32⟩
  | 26 => ⟨S480000, .i1⟩
  | 27 => ⟨S_, .i32⟩
  | 28 => ⟨S480000, .i32⟩
  | 29 => ⟨S480000, .i32⟩
  | 30 => ⟨S480000, .i32⟩
  | 31 => ⟨S480000x1, .i32⟩
  | 32 => ⟨S480000x256, .f32⟩
  | 33 => ⟨S480000x256, .f32⟩
  | 34 => ⟨S480000x256, .f32⟩
  | 35 => ⟨S_, .f32⟩
  | 36 => ⟨S30000x256, .f32⟩
  | 37 => ⟨S480000x1, .i32⟩
  | 38 => ⟨S30000x256, .f32⟩
  | 39 => ⟨S1x256x256, .f32⟩
  | 40 => ⟨S256x256, .f32⟩
  | 41 => ⟨S30000x256, .f32⟩
  | 42 => ⟨S30000x256, .f32⟩
  | 43 => ⟨S1x256, .f32⟩
  | 44 => ⟨S30000x256, .f32⟩
  | 45 => ⟨S30000x256, .f32⟩
  | 46 => ⟨S30000x256, .f32⟩
  | 47 => ⟨S1x256, .f32⟩
  | 48 => ⟨S30000x256, .f32⟩
  | 49 => ⟨S30000x256, .f32⟩
  | 50 => ⟨S30000x256, .f32⟩
  | 51 => ⟨S1x256, .f32⟩
  | 52 => ⟨S30000x256, .f32⟩
  | 53 => ⟨S30000x256, .f32⟩
  | 54 => ⟨S30000x256, .f32⟩
  | 55 => ⟨S30000x256, .f32⟩
  | 56 => ⟨S_, .f32⟩
  | 57 => ⟨S30000x256, .f32⟩
  | 58 => ⟨S30000x256, .f32⟩
  | 59 => ⟨S_, .f32⟩
  | 60 => ⟨S30000x256, .f32⟩
  | 61 => ⟨S30000x256, .f32⟩
  | 62 => ⟨S30000x256, .f32⟩
  | 63 => ⟨S1x256x256, .f32⟩
  | 64 => ⟨S256x256, .f32⟩
  | 65 => ⟨S30000x256, .f32⟩
  | 66 => ⟨S480000x1, .f32⟩
  | 67 => ⟨S_, .i32⟩
  | 68 => ⟨S480000, .i32⟩
  | 69 => ⟨S480000, .i1⟩
  | 70 => ⟨S_, .i32⟩
  | 71 => ⟨S480000, .i32⟩
  | 72 => ⟨S480000, .i32⟩
  | 73 => ⟨S480000, .i32⟩
  | 74 => ⟨S480000x1, .i32⟩
  | 75 => ⟨S480000x256, .f32⟩
  | 76 => ⟨S480000x256, .f32⟩
  | 77 => ⟨S480000x256, .f32⟩
  | 78 => ⟨S_, .f32⟩
  | 79 => ⟨S30000x256, .f32⟩
  | 80 => ⟨S480000x1, .i32⟩
  | 81 => ⟨S30000x256, .f32⟩
  | 82 => ⟨S1x256x256, .f32⟩
  | 83 => ⟨S256x256, .f32⟩
  | 84 => ⟨S30000x256, .f32⟩
  | 85 => ⟨S30000x256, .f32⟩
  | 86 => ⟨S1x256, .f32⟩
  | 87 => ⟨S30000x256, .f32⟩
  | 88 => ⟨S30000x256, .f32⟩
  | 89 => ⟨S30000x256, .f32⟩
  | 90 => ⟨S1x256, .f32⟩
  | 91 => ⟨S30000x256, .f32⟩
  | 92 => ⟨S30000x256, .f32⟩
  | 93 => ⟨S30000x256, .f32⟩
  | 94 => ⟨S30000x256, .f32⟩
  | 95 => ⟨S30000x256, .f32⟩
  | 96 => ⟨S30000x256, .f32⟩
  | 97 => ⟨S30000x256, .f32⟩
  | 98 => ⟨S1x256x256, .f32⟩
  | 99 => ⟨S256x256, .f32⟩
  | 100 => ⟨S30000x256, .f32⟩
  | 101 => ⟨S480000x1, .f32⟩
  | 102 => ⟨S_, .i32⟩
  | 103 => ⟨S480000, .i32⟩
  | 104 => ⟨S480000, .i1⟩
  | 105 => ⟨S_, .i32⟩
  | 106 => ⟨S480000, .i32⟩
  | 107 => ⟨S480000, .i32⟩
  | 108 => ⟨S480000, .i32⟩
  | 109 => ⟨S480000x1, .i32⟩
  | 110 => ⟨S480000x256, .f32⟩
  | 111 => ⟨S480000x256, .f32⟩
  | 112 => ⟨S480000x256, .f32⟩
  | 113 => ⟨S_, .f32⟩
  | 114 => ⟨S30000x256, .f32⟩
  | 115 => ⟨S480000x1, .i32⟩
  | 116 => ⟨S30000x256, .f32⟩
  | 117 => ⟨S1x256x256, .f32⟩
  | 118 => ⟨S256x256, .f32⟩
  | 119 => ⟨S30000x256, .f32⟩
  | 120 => ⟨S30000x256, .f32⟩
  | 121 => ⟨S1x256, .f32⟩
  | 122 => ⟨S30000x256, .f32⟩
  | 123 => ⟨S30000x256, .f32⟩
  | 124 => ⟨S30000x256, .f32⟩
  | 125 => ⟨S1x256, .f32⟩
  | 126 => ⟨S30000x256, .f32⟩
  | 127 => ⟨S30000x256, .f32⟩
  | _ => ⟨S30000x256, .f32⟩

abbrev hbmTy0_2 (i : Nat) : BufTy := match i % 128 with
  | 0 => ⟨S30000x256, .f32⟩
  | 1 => ⟨S1x256, .f32⟩
  | 2 => ⟨S30000x256, .f32⟩
  | 3 => ⟨S30000x256, .f32⟩
  | 4 => ⟨S30000x256, .f32⟩
  | 5 => ⟨S30000x256, .f32⟩
  | 6 => ⟨S_, .f32⟩
  | 7 => ⟨S30000x256, .f32⟩
  | 8 => ⟨S30000x256, .f32⟩
  | 9 => ⟨S_, .f32⟩
  | 10 => ⟨S30000x256, .f32⟩
  | 11 => ⟨S30000x256, .f32⟩
  | 12 => ⟨S30000x256, .f32⟩
  | 13 => ⟨S30000x256, .f32⟩
  | 14 => ⟨S_, .f32⟩
  | 15 => ⟨S30000x256, .f32⟩
  | 16 => ⟨S30000x256, .f32⟩
  | 17 => ⟨S30000x256, .f32⟩
  | 18 => ⟨S1x256, .f32⟩
  | 19 => ⟨S30000x256, .f32⟩
  | 20 => ⟨S30000x256, .f32⟩
  | _ => ⟨S30000x256, .f32⟩

abbrev hbmTy (i : Nat) : BufTy := match i / 128 with
  | 0 => hbmTy0_0 i
  | 1 => hbmTy0_1 i
  | 2 => hbmTy0_2 i
  | _ => ⟨S30000x256, .f32⟩

abbrev bufTy : (tb : Table) → Fin (tcTables nBuf tb) → BufTy
  | .hbm, ⟨i, _⟩ => hbmTy i
  | _, _ => ⟨S30000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_1 : Ref sig .tc := ⟨.hbm, 41, rfl⟩
abbrev main_v11 : Ref sig .tc := ⟨.hbm, 42, rfl⟩
abbrev main_v12 : Ref sig .tc := ⟨.hbm, 43, rfl⟩
abbrev main_c_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_c_3 : Ref sig .tc := ⟨.hbm, 50, rfl⟩
abbrev main_v18 : Ref sig .tc := ⟨.hbm, 51, rfl⟩
abbrev main_v19 : Ref sig .tc := ⟨.hbm, 52, rfl⟩
abbrev main_c_4 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_5 : Ref sig .tc := ⟨.hbm, 59, rfl⟩
abbrev main_v25 : Ref sig .tc := ⟨.hbm, 60, rfl⟩
abbrev main_v26 : Ref sig .tc := ⟨.hbm, 61, rfl⟩
abbrev main_c_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_7 : Ref sig .tc := ⟨.hbm, 72, rfl⟩
abbrev main_v35 : Ref sig .tc := ⟨.hbm, 73, rfl⟩
abbrev main_v36 : Ref sig .tc := ⟨.hbm, 74, rfl⟩
abbrev main_cst_8 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_9 : Ref sig .tc := ⟨.hbm, 79, rfl⟩
abbrev main_call0_v0 : Ref sig .tc := ⟨.hbm, 80, rfl⟩
abbrev main_call0_v1 : Ref sig .tc := ⟨.hbm, 81, rfl⟩
abbrev main_v40 : Ref sig .tc := ⟨.hbm, 82, rfl⟩
abbrev main_c_10 : Ref sig .tc := ⟨.hbm, 83, rfl⟩
abbrev main_v41 : Ref sig .tc := ⟨.hbm, 84, rfl⟩
abbrev main_v42 : Ref sig .tc := ⟨.hbm, 85, rfl⟩
abbrev main_c_11 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_c_12 : Ref sig .tc := ⟨.hbm, 94, rfl⟩
abbrev main_v50 : Ref sig .tc := ⟨.hbm, 95, rfl⟩
abbrev main_v51 : Ref sig .tc := ⟨.hbm, 96, rfl⟩
abbrev main_c_13 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_c_14 : Ref sig .tc := ⟨.hbm, 109, rfl⟩
abbrev main_v63 : Ref sig .tc := ⟨.hbm, 110, rfl⟩
abbrev main_v64 : Ref sig .tc := ⟨.hbm, 111, rfl⟩
abbrev main_c_15 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_16 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_17 : Ref sig .tc := ⟨.hbm, 141, rfl⟩
abbrev main_v92 : Ref sig .tc := ⟨.hbm, 142, rfl⟩
abbrev main_v93 : Ref sig .tc := ⟨.hbm, 143, rfl⟩
abbrev main_cst_18 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_c_19 : Ref sig .tc := ⟨.hbm, 152, rfl⟩
abbrev main_v101 : Ref sig .tc := ⟨.hbm, 153, rfl⟩
abbrev main_v102 : Ref sig .tc := ⟨.hbm, 154, rfl⟩
abbrev main_c_20 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_21 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_cst_22 : Ref sig .tc := ⟨.hbm, 184, rfl⟩
abbrev main_v130 : Ref sig .tc := ⟨.hbm, 185, rfl⟩
abbrev main_v131 : Ref sig .tc := ⟨.hbm, 186, rfl⟩
abbrev main_cst_23 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_c_24 : Ref sig .tc := ⟨.hbm, 195, rfl⟩
abbrev main_v139 : Ref sig .tc := ⟨.hbm, 196, rfl⟩
abbrev main_v140 : Ref sig .tc := ⟨.hbm, 197, rfl⟩
abbrev main_c_25 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_cst_26 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_c_27 : Ref sig .tc := ⟨.hbm, 230, rfl⟩
abbrev main_v171 : Ref sig .tc := ⟨.hbm, 231, rfl⟩
abbrev main_v172 : Ref sig .tc := ⟨.hbm, 232, rfl⟩
abbrev main_c_28 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_cst_29 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_cst_30 : Ref sig .tc := ⟨.hbm, 262, rfl⟩
abbrev main_v200 : Ref sig .tc := ⟨.hbm, 263, rfl⟩
abbrev main_v201 : Ref sig .tc := ⟨.hbm, 264, rfl⟩
abbrev main_cst_31 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_call1_cst : Ref sig .tc := ⟨.hbm, 270, rfl⟩
abbrev main_call1_v0 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩

abbrev nD : Nat := 1
abbrev τ : Topo := Topo.v7x

variable {F : FTy → Type} [FloatOps F]

class Facts₀ : Prop where
  slices_S2x480000_S1x480000_0_0 : S2x480000.Slices ![0, 0] S1x480000
  shapeCasts_S1x480000_S480000 : S1x480000.ShapeCasts S480000
  slices_S2x480000_S1x480000_1_0 : S2x480000.Slices ![1, 0] S1x480000
  bcast_S_S480000 : S_.BroadcastsInDim S480000 (![] : Fin 0 → Fin S480000.rank)
  bcast_S480000_S480000x1_0 : S480000.BroadcastsInDim S480000x1 (![0] : Fin 1 → Fin S480000x1.rank)
  bcast_S_S30000 : S_.BroadcastsInDim S30000 (![] : Fin 0 → Fin S30000.rank)
  slices_S2x256x256_S1x256x256_0_0_0 : S2x256x256.Slices ![0, 0, 0] S1x256x256
  shapeCasts_S1x256x256_S256x256 : S1x256x256.ShapeCasts S256x256
  bcast_S480000x1_S480000x256_0_1 : S480000x1.BroadcastsInDim S480000x256 (![0, 1] : Fin 2 → Fin S480000x256.rank)
  bcast_S_S30000x256 : S_.BroadcastsInDim S30000x256 (![] : Fin 0 → Fin S30000x256.rank)
  slices_S2x256x256_S1x256x256_1_0_0 : S2x256x256.Slices ![1, 0, 0] S1x256x256
  bcast_S256_S1x256_1 : S256.BroadcastsInDim S1x256 (![1] : Fin 1 → Fin S1x256.rank)
  bcast_S1x256_S30000x256_0_1 : S1x256.BroadcastsInDim S30000x256 (![0, 1] : Fin 2 → Fin S30000x256.rank)
  gather_S30000x256_S480000x1_S480000x256_1_0_n_n_0_1_1256_wf : GatherDims.WF S30000x256 S480000x1 S480000x256 [1] [0] [] [0] [] 1 ![1, 256]
  scatter_S30000x256_S480000x1_S480000x256_1_0_0_1_wf : ScatterDims.WF S30000x256 S480000x1 S480000x256 [1] [0] [0] 1
  scatter_S30000_S480000x1_S480000_n_0_0_1_wf : ScatterDims.WF S30000 S480000x1 S480000 [] [0] [0] 1
  gather_S30000_S480000x1_S480000_n_0_n_n_0_1_1_wf : GatherDims.WF S30000 S480000x1 S480000 [] [0] [] [0] [] 1 ![1]
  dot_S30000x256_S256x256_S30000x256_1_0_0_1_n_n_wf : DotDims.WF S30000x256 S256x256 S30000x256 [1] [0] [0] [1] [] []

variable [Facts₀]

def gather_S30000x256_S480000x1_S480000x256_1_0_n_n_0_1_1256 : GatherDims S30000x256 S480000x1 S480000x256 where
  offsetDims := [1]
  collapsedSliceDims := [0]
  operandBatchingDims := []
  startIndicesBatchingDims := []
  startIndexMap := [0]
  indexVectorDim := 1
  sliceSizes := ![1, 256]
  wf := gather_S30000x256_S480000x1_S480000x256_1_0_n_n_0_1_1256_wf
def scatter_S30000x256_S480000x1_S480000x256_1_0_0_1 : ScatterDims S30000x256 S480000x1 S480000x256 where
  updateWindowDims := [1]
  insertedWindowDims := [0]
  scatterDimsToOperandDims := [0]
  indexVectorDim := 1
  wf := scatter_S30000x256_S480000x1_S480000x256_1_0_0_1_wf
def scatter_S30000_S480000x1_S480000_n_0_0_1 : ScatterDims S30000 S480000x1 S480000 where
  updateWindowDims := []
  insertedWindowDims := [0]
  scatterDimsToOperandDims := [0]
  indexVectorDim := 1
  wf := scatter_S30000_S480000x1_S480000_n_0_0_1_wf
def gather_S30000_S480000x1_S480000_n_0_n_n_0_1_1 : GatherDims S30000 S480000x1 S480000 where
  offsetDims := []
  collapsedSliceDims := [0]
  operandBatchingDims := []
  startIndicesBatchingDims := []
  startIndexMap := [0]
  indexVectorDim := 1
  sliceSizes := ![1]
  wf := gather_S30000_S480000x1_S480000_n_0_n_n_0_1_1_wf
def dot_S30000x256_S256x256_S30000x256_1_0_0_1_n_n : DotDims S30000x256 S256x256 S30000x256 where
  lhsContracting := [1]
  rhsContracting := [0]
  lhsNonContracting := [0]
  rhsNonContracting := [1]
  lhsBatch := []
  rhsBatch := []
  wf := dot_S30000x256_S256x256_S30000x256_1_0_0_1_n_n_wf

class Facts : Prop extends Facts₀ where

variable [Facts]
-- ==== Proof.BitsHost.lean ====
/-
  The host prefix of @main: what the region finds.

  Before its one kernel region @main runs three stretches of host operations (the edge-indexed part, the
  outlined `where`, then the weights' concatenations and reshapes). None of them writes an argument array, so
  the region finds every argument as launched; every other buffer it finds at the stretches' composed value.
-/
import proofs.«101913_j61426622267687_2_alg».proof.Proof.Gen.Kernel.Launch
import proofs.«101913_j61426622267687_2_alg».proof.Proof.Gen.Kernel.Skeleton
import proofs.«101913_j61426622267687_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.HostPrefix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- @main is its three host stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation of the prefix writes the buffer `b`, given that `b` is none of the buffers they write. -/
theorem V_of_not_written (c : Dev nD) (b : Ref sig .tc)
    (h : ∀ op ∈ List.flatten [(hostOps0 : List (HloOp τ sig (Elt F))), hostOps0_1, hostOps0_2], Proc.devRef .tc b ∉ op.writes) :
    V m c b = m ((c : Thread nD τ).loc b) :=
  StableHlo.after_of_forall_not_mem (b := Proc.devRef .tc b) _ _ h

set_option maxHeartbeats 4000000 in
/-- The region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 6 as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 7 as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 8 as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 9 as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 10 as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 11 as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 12 as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 13 as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 14 as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 15 as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 16 as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 17 as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 18 as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 19 as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 20 as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 21 as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 22 as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 23 as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 24 as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 25 as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 26 as launched. -/
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 27 as launched. -/
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.Kernel.HostPrefix

end
-- ==== Proof.BitsBody.lean ====
/-
  The gate kernel's body as a triple of separation logic, at any float instance.

  The body reads each of its thirteen input blocks whole, computes, and overwrites each of its three output
  blocks whole. So whatever the output buffers held before, after the body the third holds the new cell
  state, the second the hidden output and the first the readout, each a pure function of the thirteen input
  blocks; the inputs are left as they were.
-/
import proofs.«101913_j61426622267687_2_alg».proof.Proof.Gen.Kernel.Launch
import proofs.«101913_j61426622267687_2_alg».proof.Proof.Gen.Kernel.Skeleton
import proofs.«101913_j61426622267687_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes through: each a whole block -/

abbrev rRow : Rect S1200x256 := Rect.unit (s := S1200x256) ![0, 0] S1200x256.size inb_S1200x256_S1200x256_0_0
abbrev rWide : Rect S256x1024 := Rect.unit (s := S256x1024) ![0, 0] S256x1024.size inb_S256x1024_S256x1024_0_0
abbrev rBias : Rect S1x1024 := Rect.unit (s := S1x1024) ![0, 0] S1x1024.size inb_S1x1024_S1x1024_0_0
abbrev rVec : Rect S1x256 := Rect.unit (s := S1x256) ![0, 0] S1x256.size inb_S1x256_S1x256_0_0
abbrev rSq : Rect S256x256 := Rect.unit (s := S256x256) ![0, 0] S256x256.size inb_S256x256_S256x256_0_0

/-! ## The three stored values as functions of the thirteen input blocks

Block 0 is the augmented features' rows, 1 the hidden state's, 2 the cell state's, 3 the Chebyshev term's;
4, 5, 6 the three wide weight matrices, 7 the folded bias, 8, 9, 10 the peephole vectors, 11 the readout
matrix and 12 its bias. -/

/-- The candidate stream's pre-activation (columns 512 … 767 of the wide sum). -/
def candPre (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : FVec F S1200x256 .f32 :=
  k0_pay5 (View.ld x0 rRow) (View.ld x1 rRow) (View.ld x3 rRow) (View.ld x4 rWide) (View.ld x5 rWide) (View.ld x6 rWide) (View.ld x7 rBias)
/-- The output stream's pre-activation without its peephole term (columns 768 … 1023). -/
def outPre (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : FVec F S1200x256 .f32 :=
  k0_pay6 (View.ld x0 rRow) (View.ld x1 rRow) (View.ld x3 rRow) (View.ld x4 rWide) (View.ld x5 rWide) (View.ld x6 rWide) (View.ld x7 rBias)
/-- The input gate. -/
def inGate (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : FVec F S1200x256 .f32 :=
  k0_pay7 (View.ld x0 rRow) (View.ld x1 rRow) (View.ld x2 rRow) (View.ld x3 rRow) (View.ld x4 rWide) (View.ld x5 rWide) (View.ld x6 rWide) (View.ld x7 rBias) (View.ld x8 rVec)
/-- The forget gate's argument. -/
def forgetArg (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : FVec F S1200x256 .f32 :=
  k0_pay8 (View.ld x0 rRow) (View.ld x1 rRow) (View.ld x2 rRow) (View.ld x3 rRow) (View.ld x4 rWide) (View.ld x5 rWide) (View.ld x6 rWide) (View.ld x7 rBias) (View.ld x9 rVec)
/-- The new cell state: what the body stores into its third output. -/
def cellOf (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : FVec F S1200x256 .f32 :=
  k0_pay1 (View.ld x2 rRow) (candPre x0 x1 x2 x3 x4 x5 x6 x7 x8 x9 x10 x11 x12) (inGate x0 x1 x2 x3 x4 x5 x6 x7 x8 x9 x10 x11 x12) (forgetArg x0 x1 x2 x3 x4 x5 x6 x7 x8 x9 x10 x11 x12)
/-- The hidden output: what the body stores into its second output. -/
def hiddenOf (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : FVec F S1200x256 .f32 :=
  k0_pay2 (View.ld x2 rRow) (candPre x0 x1 x2 x3 x4 x5 x6 x7 x8 x9 x10 x11 x12) (outPre x0 x1 x2 x3 x4 x5 x6 x7 x8 x9 x10 x11 x12) (inGate x0 x1 x2 x3 x4 x5 x6 x7 x8 x9 x10 x11 x12) (forgetArg x0 x1 x2 x3 x4 x5 x6 x7 x8 x9 x10 x11 x12) (View.ld x10 rVec)
/-- The readout: what the body stores into its first output. -/
def readoutOf (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : FVec F S1200x256 .f32 :=
  k0_pay3 (View.ld x2 rRow) (candPre x0 x1 x2 x3 x4 x5 x6 x7 x8 x9 x10 x11 x12) (outPre x0 x1 x2 x3 x4 x5 x6 x7 x8 x9 x10 x11 x12) (inGate x0 x1 x2 x3 x4 x5 x6 x7 x8 x9 x10 x11 x12) (forgetArg x0 x1 x2 x3 x4 x5 x6 x7 x8 x9 x10 x11 x12) (View.ld x10 rVec) (View.ld x11 rSq) (View.ld x12 rVec)

/-- The first output's buffer after the body: its one store, covering the block. -/
def out13 (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : Vec F S1200x256 .f32 := View.canon [⟨rRow, readoutOf x0 x1 x2 x3 x4 x5 x6 x7 x8 x9 x10 x11 x12⟩]
/-- The second output's buffer after the body. -/
def out14 (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : Vec F S1200x256 .f32 := View.canon [⟨rRow, hiddenOf x0 x1 x2 x3 x4 x5 x6 x7 x8 x9 x10 x11 x12⟩]
/-- The third output's buffer after the body. -/
def out15 (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : Vec F S1200x256 .f32 := View.canon [⟨rRow, cellOf x0 x1 x2 x3 x4 x5 x6 x7 x8 x9 x10 x11 x12⟩]

/-- One whole-block store covers the block. -/
theorem coverRow (p0 : Vec F S1200x256 .f32) (y : S1200x256.Idx) :
    ∃ pc ∈ ([⟨rRow, p0⟩] : List (View.Piece (Elt F) S1200x256 .f32)), y ∈ pc.1.set :=
  View.cover_of_tiled [⟨rRow, p0⟩] S1200x256.size (by rfl) y

/-! ## The body's triple -/

set_option maxHeartbeats 4000000 in
/-- On whole staging buffers, the inputs' at contents `x0 … x12` and the outputs' at anything, the body runs to
    its continuation with the inputs' buffers unchanged and the outputs' at `out13`, `out14`, `out15` of the inputs. -/
theorem sound_kernel (c : Dev nD) (E : Set ℕ) (i : grid0.Coords)
    (arg1 : Memref sig .tc .vmem S1200x256 .f32) (harg1 : arg1.IsWhole)
    (arg2 : Memref sig .tc .vmem S1200x256 .f32) (harg2 : arg2.IsWhole)
    (arg3 : Memref sig .tc .vmem S1200x256 .f32) (harg3 : arg3.IsWhole)
    (arg4 : Memref sig .tc .vmem S1200x256 .f32) (harg4 : arg4.IsWhole)
    (arg5 : Memref sig .tc .vmem S256x1024 .f32) (harg5 : arg5.IsWhole)
    (arg6 : Memref sig .tc .vmem S256x1024 .f32) (harg6 : arg6.IsWhole)
    (arg7 : Memref sig .tc .vmem S256x1024 .f32) (harg7 : arg7.IsWhole)
    (arg8 : Memref sig .tc .vmem S1x1024 .f32) (harg8 : arg8.IsWhole)
    (arg9 : Memref sig .tc .vmem S1x256 .f32) (harg9 : arg9.IsWhole)
    (arg10 : Memref sig .tc .vmem S1x256 .f32) (harg10 : arg10.IsWhole)
    (arg11 : Memref sig .tc .vmem S1x256 .f32) (harg11 : arg11.IsWhole)
    (arg12 : Memref sig .tc .vmem S256x256 .f32) (harg12 : arg12.IsWhole)
    (arg13 : Memref sig .tc .vmem S1x256 .f32) (harg13 : arg13.IsWhole)
    (arg14 : Memref sig .tc .vmem S1200x256 .f32) (harg14 : arg14.IsWhole)
    (arg15 : Memref sig .tc .vmem S1200x256 .f32) (harg15 : arg15.IsWhole)
    (arg16 : Memref sig .tc .vmem S1200x256 .f32) (harg16 : arg16.IsWhole)
    (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (out13 x0 x1 x2 x3 x4 x5 x6 x7 x8 x9 x10 x11 x12)
            ∗ owns (c : Thread nD τ) arg15 fullShare (out14 x0 x1 x2 x3 x4 x5 x6 x7 x8 x9 x10 x11 x12)
            ∗ owns (c : Thread nD τ) arg16 fullShare (out15 x0 x1 x2 x3 x4 x5 x6 x7 x8 x9 x10 x11 x12)) -∗ K ⟨⟩))
      ⊢ wp frame (wpE (defs₀ (F := F)) Variants.none c none) E (cc0__gate_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gate_kernel_eq_skeleton]; unfold cc0__gate_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (coverRow _)
  isplitl [H14]
  · iexists _; isplitr
    swap; · iexact H14
    ipureintro
    exact View.read_writes_eq_canon _ _ _ (coverRow _)
  iexists _; isplitr
  swap; · iexact H15
  ipureintro
  exact View.read_writes_eq_canon _ _ _ (coverRow _)

end Cert.Kernel.Body

end
-- ==== Proof.BitsFrame.lean ====
/-
  The frame of the program with the gate kernel, at any float instance: every weakly fair execution of @main
  terminates without a fault, every output array ends at what the twenty-five grid points wrote into it, and
  every argument array ends as launched.

  The proof data: each input window's buffer holds, at every point, that window's block of the array the
  region found; each output window's buffer holds after the body the body's stored value of the point's input
  blocks. Nothing else is kept between points.
-/
import proofs.«101913_j61426622267687_2_alg».proof.Proof.BitsHost
import proofs.«101913_j61426622267687_2_alg».proof.Proof.BitsBody
import Idealize.ShloMosaic.Lib.Pipeline.FrameBody
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.HostPrefix Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current buffer holds its block at every point, fetched there or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current buffer holds its block at every point, fetched there or not. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current buffer holds its block at every point, fetched there or not. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current buffer holds its block at every point, fetched there or not. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the library's frame post -/

set_option maxHeartbeats 4000000 in
/-- For any proof data whose arrays are the region-entry contents, a run to the library's frame post, read at the
    argument arrays, is the frame claim's post: an argument a window stages ends as the window's array began, any
    other as the region found it; and the region found every argument as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).1 11).trans (((dats 0 c).arrAt_in 11 rfl _).trans ((hA c 11).trans (V_main_arg26 m c))),
      ((h c).2 main_arg27 (Pipeline.mem_restRefs_of main_arg27 (by decide) (by decide))).trans (V_main_arg27 m c)⟩) h

/-! ## The proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = out13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after14 (c : Dev nD) (t : Fin cfg0.N) : (dats m 0 c).after 14 t = out14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after15 (c : Dev nD) (t : Fin cfg0.N) : (dats m 0 c).after 15 t = out15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 4000000 in
/-- The body at any point: the inputs' buffers hold their blocks, so the body's triple applies; the invariant and
    what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the
    pipeline ending at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  frame_of m ρ (dats m) (A_eq m) (run_main m ρ)

end Cert.Kernel.Frame

end
-- ==== Proof.IdealHost.lean ====
/-
  The host prefix of @main: what the region finds.

  Before its one kernel region @main runs three stretches of host operations (the edge-indexed part, the
  outlined `where`, then the weights' concatenations and reshapes). None of them writes an argument array, so
  the region finds every argument as launched; every other buffer it finds at the stretches' composed value.
-/
import proofs.«101913_j61426622267687_2_alg».proof.Proof.Gen.KernelIdeal.Launch
import proofs.«101913_j61426622267687_2_alg».proof.Proof.Gen.KernelIdeal.Skeleton
import proofs.«101913_j61426622267687_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.HostPrefix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- @main is its three host stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation of the prefix writes the buffer `b`, given that `b` is none of the buffers they write. -/
theorem V_of_not_written (c : Dev nD) (b : Ref sig .tc)
    (h : ∀ op ∈ List.flatten [(hostOps0 : List (HloOp τ sig (Elt F))), hostOps0_1, hostOps0_2], Proc.devRef .tc b ∉ op.writes) :
    V m c b = m ((c : Thread nD τ).loc b) :=
  StableHlo.after_of_forall_not_mem (b := Proc.devRef .tc b) _ _ h

set_option maxHeartbeats 4000000 in
/-- The region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 6 as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 7 as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 8 as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 9 as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 10 as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 11 as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 12 as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 13 as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 14 as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 15 as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 16 as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 17 as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 18 as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 19 as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 20 as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 21 as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 22 as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 23 as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 24 as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 25 as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 26 as launched. -/
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- The region finds argument 27 as launched. -/
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.KernelIdeal.HostPrefix

end
-- ==== Proof.IdealBody.lean ====
/-
  The gate kernel's body as a triple of separation logic, at any float instance.

  The body reads each of its thirteen input blocks whole, computes, and overwrites each of its three output
  blocks whole. So whatever the output buffers held before, after the body the third holds the new cell
  state, the second the hidden output and the first the readout, each a pure function of the thirteen input
  blocks; the inputs are left as they were.
-/
import proofs.«101913_j61426622267687_2_alg».proof.Proof.Gen.KernelIdeal.Launch
import proofs.«101913_j61426622267687_2_alg».proof.Proof.Gen.KernelIdeal.Skeleton
import proofs.«101913_j61426622267687_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes through: each a whole block -/

abbrev rRow : Rect S1200x256 := Rect.unit (s := S1200x256) ![0, 0] S1200x256.size inb_S1200x256_S1200x256_0_0
abbrev rWide : Rect S256x1024 := Rect.unit (s := S256x1024) ![0, 0] S256x1024.size inb_S256x1024_S256x1024_0_0
abbrev rBias : Rect S1x1024 := Rect.unit (s := S1x1024) ![0, 0] S1x1024.size inb_S1x1024_S1x1024_0_0
abbrev rVec : Rect S1x256 := Rect.unit (s := S1x256) ![0, 0] S1x256.size inb_S1x256_S1x256_0_0
abbrev rSq : Rect S256x256 := Rect.unit (s := S256x256) ![0, 0] S256x256.size inb_S256x256_S256x256_0_0

/-! ## The three stored values as functions of the thirteen input blocks

Block 0 is the augmented features' rows, 1 the hidden state's, 2 the cell state's, 3 the Chebyshev term's;
4, 5, 6 the three wide weight matrices, 7 the folded bias, 8, 9, 10 the peephole vectors, 11 the readout
matrix and 12 its bias. -/

/-- The candidate stream's pre-activation (columns 512 … 767 of the wide sum). -/
def candPre (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : FVec F S1200x256 .f32 :=
  k0_pay5 (View.ld x0 rRow) (View.ld x1 rRow) (View.ld x3 rRow) (View.ld x4 rWide) (View.ld x5 rWide) (View.ld x6 rWide) (View.ld x7 rBias)
/-- The output stream's pre-activation without its peephole term (columns 768 … 1023). -/
def outPre (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : FVec F S1200x256 .f32 :=
  k0_pay6 (View.ld x0 rRow) (View.ld x1 rRow) (View.ld x3 rRow) (View.ld x4 rWide) (View.ld x5 rWide) (View.ld x6 rWide) (View.ld x7 rBias)
/-- The input gate. -/
def inGate (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : FVec F S1200x256 .f32 :=
  k0_pay7 (View.ld x0 rRow) (View.ld x1 rRow) (View.ld x2 rRow) (View.ld x3 rRow) (View.ld x4 rWide) (View.ld x5 rWide) (View.ld x6 rWide) (View.ld x7 rBias) (View.ld x8 rVec)
/-- The forget gate's argument. -/
def forgetArg (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : FVec F S1200x256 .f32 :=
  k0_pay8 (View.ld x0 rRow) (View.ld x1 rRow) (View.ld x2 rRow) (View.ld x3 rRow) (View.ld x4 rWide) (View.ld x5 rWide) (View.ld x6 rWide) (View.ld x7 rBias) (View.ld x9 rVec)
/-- The new cell state: what the body stores into its third output. -/
def cellOf (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : FVec F S1200x256 .f32 :=
  k0_pay1 (View.ld x2 rRow) (candPre x0 x1 x2 x3 x4 x5 x6 x7 x8 x9 x10 x11 x12) (inGate x0 x1 x2 x3 x4 x5 x6 x7 x8 x9 x10 x11 x12) (forgetArg x0 x1 x2 x3 x4 x5 x6 x7 x8 x9 x10 x11 x12)
/-- The hidden output: what the body stores into its second output. -/
def hiddenOf (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : FVec F S1200x256 .f32 :=
  k0_pay2 (View.ld x2 rRow) (candPre x0 x1 x2 x3 x4 x5 x6 x7 x8 x9 x10 x11 x12) (outPre x0 x1 x2 x3 x4 x5 x6 x7 x8 x9 x10 x11 x12) (inGate x0 x1 x2 x3 x4 x5 x6 x7 x8 x9 x10 x11 x12) (forgetArg x0 x1 x2 x3 x4 x5 x6 x7 x8 x9 x10 x11 x12) (View.ld x10 rVec)
/-- The readout: what the body stores into its first output. -/
def readoutOf (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : FVec F S1200x256 .f32 :=
  k0_pay3 (View.ld x2 rRow) (candPre x0 x1 x2 x3 x4 x5 x6 x7 x8 x9 x10 x11 x12) (outPre x0 x1 x2 x3 x4 x5 x6 x7 x8 x9 x10 x11 x12) (inGate x0 x1 x2 x3 x4 x5 x6 x7 x8 x9 x10 x11 x12) (forgetArg x0 x1 x2 x3 x4 x5 x6 x7 x8 x9 x10 x11 x12) (View.ld x10 rVec) (View.ld x11 rSq) (View.ld x12 rVec)

/-- The first output's buffer after the body: its one store, covering the block. -/
def out13 (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : Vec F S1200x256 .f32 := View.canon [⟨rRow, readoutOf x0 x1 x2 x3 x4 x5 x6 x7 x8 x9 x10 x11 x12⟩]
/-- The second output's buffer after the body. -/
def out14 (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : Vec F S1200x256 .f32 := View.canon [⟨rRow, hiddenOf x0 x1 x2 x3 x4 x5 x6 x7 x8 x9 x10 x11 x12⟩]
/-- The third output's buffer after the body. -/
def out15 (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) : Vec F S1200x256 .f32 := View.canon [⟨rRow, cellOf x0 x1 x2 x3 x4 x5 x6 x7 x8 x9 x10 x11 x12⟩]

/-- One whole-block store covers the block. -/
theorem coverRow (p0 : Vec F S1200x256 .f32) (y : S1200x256.Idx) :
    ∃ pc ∈ ([⟨rRow, p0⟩] : List (View.Piece (Elt F) S1200x256 .f32)), y ∈ pc.1.set :=
  View.cover_of_tiled [⟨rRow, p0⟩] S1200x256.size (by rfl) y

/-! ## The body's triple -/

set_option maxHeartbeats 4000000 in
/-- On whole staging buffers, the inputs' at contents `x0 … x12` and the outputs' at anything, the body runs to
    its continuation with the inputs' buffers unchanged and the outputs' at `out13`, `out14`, `out15` of the inputs. -/
theorem sound_kernel (c : Dev nD) (E : Set ℕ) (i : grid0.Coords)
    (arg1 : Memref sig .tc .vmem S1200x256 .f32) (harg1 : arg1.IsWhole)
    (arg2 : Memref sig .tc .vmem S1200x256 .f32) (harg2 : arg2.IsWhole)
    (arg3 : Memref sig .tc .vmem S1200x256 .f32) (harg3 : arg3.IsWhole)
    (arg4 : Memref sig .tc .vmem S1200x256 .f32) (harg4 : arg4.IsWhole)
    (arg5 : Memref sig .tc .vmem S256x1024 .f32) (harg5 : arg5.IsWhole)
    (arg6 : Memref sig .tc .vmem S256x1024 .f32) (harg6 : arg6.IsWhole)
    (arg7 : Memref sig .tc .vmem S256x1024 .f32) (harg7 : arg7.IsWhole)
    (arg8 : Memref sig .tc .vmem S1x1024 .f32) (harg8 : arg8.IsWhole)
    (arg9 : Memref sig .tc .vmem S1x256 .f32) (harg9 : arg9.IsWhole)
    (arg10 : Memref sig .tc .vmem S1x256 .f32) (harg10 : arg10.IsWhole)
    (arg11 : Memref sig .tc .vmem S1x256 .f32) (harg11 : arg11.IsWhole)
    (arg12 : Memref sig .tc .vmem S256x256 .f32) (harg12 : arg12.IsWhole)
    (arg13 : Memref sig .tc .vmem S1x256 .f32) (harg13 : arg13.IsWhole)
    (arg14 : Memref sig .tc .vmem S1200x256 .f32) (harg14 : arg14.IsWhole)
    (arg15 : Memref sig .tc .vmem S1200x256 .f32) (harg15 : arg15.IsWhole)
    (arg16 : Memref sig .tc .vmem S1200x256 .f32) (harg16 : arg16.IsWhole)
    (x0 : Vec F S1200x256 .f32) (x1 : Vec F S1200x256 .f32) (x2 : Vec F S1200x256 .f32) (x3 : Vec F S1200x256 .f32) (x4 : Vec F S256x1024 .f32) (x5 : Vec F S256x1024 .f32) (x6 : Vec F S256x1024 .f32) (x7 : Vec F S1x1024 .f32) (x8 : Vec F S1x256 .f32) (x9 : Vec F S1x256 .f32) (x10 : Vec F S1x256 .f32) (x11 : Vec F S256x256 .f32) (x12 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (out13 x0 x1 x2 x3 x4 x5 x6 x7 x8 x9 x10 x11 x12)
            ∗ owns (c : Thread nD τ) arg15 fullShare (out14 x0 x1 x2 x3 x4 x5 x6 x7 x8 x9 x10 x11 x12)
            ∗ owns (c : Thread nD τ) arg16 fullShare (out15 x0 x1 x2 x3 x4 x5 x6 x7 x8 x9 x10 x11 x12)) -∗ K ⟨⟩))
      ⊢ wp frame (wpE (defs₀ (F := F)) Variants.none c none) E (cc0__gate_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gate_kernel_eq_skeleton]; unfold cc0__gate_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (coverRow _)
  isplitl [H14]
  · iexists _; isplitr
    swap; · iexact H14
    ipureintro
    exact View.read_writes_eq_canon _ _ _ (coverRow _)
  iexists _; isplitr
  swap; · iexact H15
  ipureintro
  exact View.read_writes_eq_canon _ _ _ (coverRow _)

end Cert.KernelIdeal.Body

end
-- ==== Proof.IdealFrame.lean ====
/-
  The frame of the program with the gate kernel, at any float instance: every weakly fair execution of @main
  terminates without a fault, every output array ends at what the twenty-five grid points wrote into it, and
  every argument array ends as launched.

  The proof data: each input window's buffer holds, at every point, that window's block of the array the
  region found; each output window's buffer holds after the body the body's stored value of the point's input
  blocks. Nothing else is kept between points.
-/
import proofs.«101913_j61426622267687_2_alg».proof.Proof.IdealHost
import proofs.«101913_j61426622267687_2_alg».proof.Proof.IdealBody
import Idealize.ShloMosaic.Lib.Pipeline.FrameBody
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.HostPrefix Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current buffer holds its block at every point, fetched there or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current buffer holds its block at every point, fetched there or not. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current buffer holds its block at every point, fetched there or not. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current buffer holds its block at every point, fetched there or not. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the library's frame post -/

set_option maxHeartbeats 4000000 in
/-- For any proof data whose arrays are the region-entry contents, a run to the library's frame post, read at the
    argument arrays, is the frame claim's post: an argument a window stages ends as the window's array began, any
    other as the region found it; and the region found every argument as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).1 11).trans (((dats 0 c).arrAt_in 11 rfl _).trans ((hA c 11).trans (V_main_arg26 m c))),
      ((h c).2 main_arg27 (Pipeline.mem_restRefs_of main_arg27 (by decide) (by decide))).trans (V_main_arg27 m c)⟩) h

/-! ## The proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = out13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after14 (c : Dev nD) (t : Fin cfg0.N) : (dats m 0 c).after 14 t = out14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after15 (c : Dev nD) (t : Fin cfg0.N) : (dats m 0 c).after 15 t = out15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 4000000 in
/-- The body at any point: the inputs' buffers hold their blocks, so the body's triple applies; the invariant and
    what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the
    pipeline ending at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  frame_of m ρ (dats m) (A_eq m) (run_main m ρ)

end Cert.KernelIdeal.Frame

end
-- ==== Proof.LayoutRows.lean ====
namespace Cert.Layout

/-! # Rows of a [30000, 256] array by row-block

The 30000 rows are cut into 25 consecutive blocks of 1200: row `r` is row `p = r mod 1200` of block `t = r / 1200`,
and `r = 1200·t + p`. -/

/-- Row `p` of block `t` is a row of the array. -/
theorem row_lt (t : Fin 25) (p : Fin 1200) : 1200 * t.val + p.val < 30000 := by omega

/-- Row `p` of block `t`: the row `1200·t + p` of the array. -/
def rowOf (t : Fin 25) (p : Fin 1200) : Fin 30000 := ⟨1200 * t.val + p.val, row_lt t p⟩

/-- Its value. -/
@[simp] theorem rowOf_val (t : Fin 25) (p : Fin 1200) : (rowOf t p).val = 1200 * t.val + p.val := rfl

/-- The block holding row `r`. -/
def blockOf (r : Fin 30000) : Fin 25 := ⟨r.val / 1200, by omega⟩

/-- The place of row `r` inside its block. -/
def inBlock (r : Fin 30000) : Fin 1200 := ⟨r.val % 1200, by omega⟩

@[simp] theorem blockOf_val (r : Fin 30000) : (blockOf r).val = r.val / 1200 := rfl
@[simp] theorem inBlock_val (r : Fin 30000) : (inBlock r).val = r.val % 1200 := rfl

/-- Every row is row `r mod 1200` of block `r / 1200`. -/
theorem rowOf_blockOf_inBlock (r : Fin 30000) : rowOf (blockOf r) (inBlock r) = r :=
  Fin.ext (by show 1200 * (r.val / 1200) + r.val % 1200 = r.val; omega)

/-- Every row of the array is a row of some block. -/
theorem rowOf_surjective (r : Fin 30000) : ∃ (t : Fin 25) (p : Fin 1200), rowOf t p = r :=
  ⟨blockOf r, inBlock r, rowOf_blockOf_inBlock r⟩

/-- The block of row `p` of block `t` is `t`. -/
theorem blockOf_rowOf (t : Fin 25) (p : Fin 1200) : blockOf (rowOf t p) = t :=
  Fin.ext (by show (1200 * t.val + p.val) / 1200 = t.val; omega)

/-- The place of row `p` of block `t` inside its block is `p`. -/
theorem inBlock_rowOf (t : Fin 25) (p : Fin 1200) : inBlock (rowOf t p) = p :=
  Fin.ext (by show (1200 * t.val + p.val) % 1200 = p.val; omega)

/-- Distinct (block, place) pairs are distinct rows. -/
theorem rowOf_injective {t t' : Fin 25} {p p' : Fin 1200} (h : rowOf t p = rowOf t' p') : t = t' ∧ p = p' := by
  have hv : 1200 * t.val + p.val = 1200 * t'.val + p'.val := congrArg Fin.val h
  exact ⟨Fin.ext (by omega), Fin.ext (by omega)⟩

/-- A statement about every row follows from the statement about every row of every block. -/
theorem forall_rows {P : Fin 30000 → Prop} (h : ∀ (t : Fin 25) (p : Fin 1200), P (rowOf t p)) (r : Fin 30000) : P r := by
  rw [← rowOf_blockOf_inBlock r]; exact h _ _

end Cert.Layout
-- ==== Proof.IdealBlocks.lean ====
/-
  A window's block at a grid point, read in the whole array's coordinates.

  The four row-blocked inputs and the three outputs move down the rows with the grid: at point `t` their block
  is rows 1200·t … 1200·t + 1199, all 256 columns. The nine other inputs have a constant index map: their block
  is the whole array at every point.
-/
import proofs.«101913_j61426622267687_2_alg».proof.Proof.IdealFrame
import proofs.«101913_j61426622267687_2_alg».proof.Proof.LayoutRows
import Idealize.ShloMosaic.Lib.ValueIdx
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.HostPrefix Cert.KernelIdeal.Body Cert.KernelIdeal.Frame Cert.Layout Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-- A grid point as a number below twenty-five. -/
theorem pt_lt (t : Fin cfg0.N) : t.val < 25 := by
  have h := t.isLt
  have e : cfg0.N = 25 := N_0
  omega

/-- The grid point's number. -/
def pt (t : Fin cfg0.N) : Fin 25 := ⟨t.val, pt_lt t⟩

/-- The printed index maps, decided over the twenty-five points: a row-blocked window's block index is (t, 0),
    a constant window's (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_13.index t (0 : Fin 2) = t.val ∧ win0_13.index t (1 : Fin 2) = 0
    ∧ win0_14.index t (0 : Fin 2) = t.val ∧ win0_14.index t (1 : Fin 2) = 0
    ∧ win0_15.index t (0 : Fin 2) = t.val ∧ win0_15.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- Window 0's block at point `t`, entry (p, k), sits at row 1200·t + p, column k of its array. -/
theorem emb0 (t : Fin cfg0.N) (p : Fin 1200) (k : Fin 256) :
    ((cfg0.win 0).blk t).view.emb (ix2 p k) = ix2 (rowOf (pt t) p) k := by
  have hf := index_facts t
  funext a; apply Fin.ext
  match a with
  | ⟨0, _⟩ => show win0_0.index t (0 : Fin 2) * 1200 + 1 * p.val = 1200 * t.val + p.val; omega
  | ⟨1, _⟩ => show win0_0.index t (1 : Fin 2) * 256 + 1 * k.val = k.val; omega
/-- Window 1's block at point `t`, entry (p, k), sits at row 1200·t + p, column k of its array. -/
theorem emb1 (t : Fin cfg0.N) (p : Fin 1200) (k : Fin 256) :
    ((cfg0.win 1).blk t).view.emb (ix2 p k) = ix2 (rowOf (pt t) p) k := by
  have hf := index_facts t
  funext a; apply Fin.ext
  match a with
  | ⟨0, _⟩ => show win0_1.index t (0 : Fin 2) * 1200 + 1 * p.val = 1200 * t.val + p.val; omega
  | ⟨1, _⟩ => show win0_1.index t (1 : Fin 2) * 256 + 1 * k.val = k.val; omega
/-- Window 2's block at point `t`, entry (p, k), sits at row 1200·t + p, column k of its array. -/
theorem emb2 (t : Fin cfg0.N) (p : Fin 1200) (k : Fin 256) :
    ((cfg0.win 2).blk t).view.emb (ix2 p k) = ix2 (rowOf (pt t) p) k := by
  have hf := index_facts t
  funext a; apply Fin.ext
  match a with
  | ⟨0, _⟩ => show win0_2.index t (0 : Fin 2) * 1200 + 1 * p.val = 1200 * t.val + p.val; omega
  | ⟨1, _⟩ => show win0_2.index t (1 : Fin 2) * 256 + 1 * k.val = k.val; omega
/-- Window 3's block at point `t`, entry (p, k), sits at row 1200·t + p, column k of its array. -/
theorem emb3 (t : Fin cfg0.N) (p : Fin 1200) (k : Fin 256) :
    ((cfg0.win 3).blk t).view.emb (ix2 p k) = ix2 (rowOf (pt t) p) k := by
  have hf := index_facts t
  funext a; apply Fin.ext
  match a with
  | ⟨0, _⟩ => show win0_3.index t (0 : Fin 2) * 1200 + 1 * p.val = 1200 * t.val + p.val; omega
  | ⟨1, _⟩ => show win0_3.index t (1 : Fin 2) * 256 + 1 * k.val = k.val; omega
/-- Window 13's block at point `t`, entry (p, k), sits at row 1200·t + p, column k of its array. -/
theorem emb13 (t : Fin cfg0.N) (p : Fin 1200) (k : Fin 256) :
    ((cfg0.win 13).blk t).view.emb (ix2 p k) = ix2 (rowOf (pt t) p) k := by
  have hf := index_facts t
  funext a; apply Fin.ext
  match a with
  | ⟨0, _⟩ => show win0_13.index t (0 : Fin 2) * 1200 + 1 * p.val = 1200 * t.val + p.val; omega
  | ⟨1, _⟩ => show win0_13.index t (1 : Fin 2) * 256 + 1 * k.val = k.val; omega
/-- Window 14's block at point `t`, entry (p, k), sits at row 1200·t + p, column k of its array. -/
theorem emb14 (t : Fin cfg0.N) (p : Fin 1200) (k : Fin 256) :
    ((cfg0.win 14).blk t).view.emb (ix2 p k) = ix2 (rowOf (pt t) p) k := by
  have hf := index_facts t
  funext a; apply Fin.ext
  match a with
  | ⟨0, _⟩ => show win0_14.index t (0 : Fin 2) * 1200 + 1 * p.val = 1200 * t.val + p.val; omega
  | ⟨1, _⟩ => show win0_14.index t (1 : Fin 2) * 256 + 1 * k.val = k.val; omega
/-- Window 15's block at point `t`, entry (p, k), sits at row 1200·t + p, column k of its array. -/
theorem emb15 (t : Fin cfg0.N) (p : Fin 1200) (k : Fin 256) :
    ((cfg0.win 15).blk t).view.emb (ix2 p k) = ix2 (rowOf (pt t) p) k := by
  have hf := index_facts t
  funext a; apply Fin.ext
  match a with
  | ⟨0, _⟩ => show win0_15.index t (0 : Fin 2) * 1200 + 1 * p.val = 1200 * t.val + p.val; omega
  | ⟨1, _⟩ => show win0_15.index t (1 : Fin 2) * 256 + 1 * k.val = k.val; omega

/-- Window 4's block at any point is its whole array. -/
theorem emb4 (t : Fin cfg0.N) (a : Fin 256) (b : Fin 1024) :
    ((cfg0.win 4).blk t).view.emb (ix2 a b) = ix2 a b := by
  have hf := index_facts t
  funext x; apply Fin.ext
  match x with
  | ⟨0, _⟩ => show win0_4.index t (0 : Fin 2) * 256 + 1 * a.val = a.val; omega
  | ⟨1, _⟩ => show win0_4.index t (1 : Fin 2) * 1024 + 1 * b.val = b.val; omega
/-- Window 5's block at any point is its whole array. -/
theorem emb5 (t : Fin cfg0.N) (a : Fin 256) (b : Fin 1024) :
    ((cfg0.win 5).blk t).view.emb (ix2 a b) = ix2 a b := by
  have hf := index_facts t
  funext x; apply Fin.ext
  match x with
  | ⟨0, _⟩ => show win0_5.index t (0 : Fin 2) * 256 + 1 * a.val = a.val; omega
  | ⟨1, _⟩ => show win0_5.index t (1 : Fin 2) * 1024 + 1 * b.val = b.val; omega
/-- Window 6's block at any point is its whole array. -/
theorem emb6 (t : Fin cfg0.N) (a : Fin 256) (b : Fin 1024) :
    ((cfg0.win 6).blk t).view.emb (ix2 a b) = ix2 a b := by
  have hf := index_facts t
  funext x; apply Fin.ext
  match x with
  | ⟨0, _⟩ => show win0_6.index t (0 : Fin 2) * 256 + 1 * a.val = a.val; omega
  | ⟨1, _⟩ => show win0_6.index t (1 : Fin 2) * 1024 + 1 * b.val = b.val; omega
/-- Window 7's block at any point is its whole array. -/
theorem emb7 (t : Fin cfg0.N) (a : Fin 1) (b : Fin 1024) :
    ((cfg0.win 7).blk t).view.emb (ix2 a b) = ix2 a b := by
  have hf := index_facts t
  funext x; apply Fin.ext
  match x with
  | ⟨0, _⟩ => show win0_7.index t (0 : Fin 2) * 1 + 1 * a.val = a.val; omega
  | ⟨1, _⟩ => show win0_7.index t (1 : Fin 2) * 1024 + 1 * b.val = b.val; omega
/-- Window 8's block at any point is its whole array. -/
theorem emb8 (t : Fin cfg0.N) (a : Fin 1) (b : Fin 256) :
    ((cfg0.win 8).blk t).view.emb (ix2 a b) = ix2 a b := by
  have hf := index_facts t
  funext x; apply Fin.ext
  match x with
  | ⟨0, _⟩ => show win0_8.index t (0 : Fin 2) * 1 + 1 * a.val = a.val; omega
  | ⟨1, _⟩ => show win0_8.index t (1 : Fin 2) * 256 + 1 * b.val = b.val; omega
/-- Window 9's block at any point is its whole array. -/
theorem emb9 (t : Fin cfg0.N) (a : Fin 1) (b : Fin 256) :
    ((cfg0.win 9).blk t).view.emb (ix2 a b) = ix2 a b := by
  have hf := index_facts t
  funext x; apply Fin.ext
  match x with
  | ⟨0, _⟩ => show win0_9.index t (0 : Fin 2) * 1 + 1 * a.val = a.val; omega
  | ⟨1, _⟩ => show win0_9.index t (1 : Fin 2) * 256 + 1 * b.val = b.val; omega
/-- Window 10's block at any point is its whole array. -/
theorem emb10 (t : Fin cfg0.N) (a : Fin 1) (b : Fin 256) :
    ((cfg0.win 10).blk t).view.emb (ix2 a b) = ix2 a b := by
  have hf := index_facts t
  funext x; apply Fin.ext
  match x with
  | ⟨0, _⟩ => show win0_10.index t (0 : Fin 2) * 1 + 1 * a.val = a.val; omega
  | ⟨1, _⟩ => show win0_10.index t (1 : Fin 2) * 256 + 1 * b.val = b.val; omega
/-- Window 11's block at any point is its whole array. -/
theorem emb11 (t : Fin cfg0.N) (a : Fin 256) (b : Fin 256) :
    ((cfg0.win 11).blk t).view.emb (ix2 a b) = ix2 a b := by
  have hf := index_facts t
  funext x; apply Fin.ext
  match x with
  | ⟨0, _⟩ => show win0_11.index t (0 : Fin 2) * 256 + 1 * a.val = a.val; omega
  | ⟨1, _⟩ => show win0_11.index t (1 : Fin 2) * 256 + 1 * b.val = b.val; omega
/-- Window 12's block at any point is its whole array. -/
theorem emb12 (t : Fin cfg0.N) (a : Fin 1) (b : Fin 256) :
    ((cfg0.win 12).blk t).view.emb (ix2 a b) = ix2 a b := by
  have hf := index_facts t
  funext x; apply Fin.ext
  match x with
  | ⟨0, _⟩ => show win0_12.index t (0 : Fin 2) * 1 + 1 * a.val = a.val; omega
  | ⟨1, _⟩ => show win0_12.index t (1 : Fin 2) * 256 + 1 * b.val = b.val; omega

/-- Input window 0's block read at (p, k) is the region-entry array at row 1200·t + p, column k. -/
theorem blk0 (c : Dev nD) (t : Fin cfg0.N) (p : Fin 1200) (k : Fin 256) :
    iblk m c 0 t (ix2 p k) = V m c main_v26 (ix2 (rowOf (pt t) p) k) := by
  show V m c main_v26 (((cfg0.win 0).blk t).view.emb (ix2 p k)) = _
  rw [emb0]
/-- Input window 1's block read at (p, k) is the region-entry array at row 1200·t + p, column k. -/
theorem blk1 (c : Dev nD) (t : Fin cfg0.N) (p : Fin 1200) (k : Fin 256) :
    iblk m c 1 t (ix2 p k) = V m c main_arg3 (ix2 (rowOf (pt t) p) k) := by
  show V m c main_arg3 (((cfg0.win 1).blk t).view.emb (ix2 p k)) = _
  rw [emb1]
/-- Input window 2's block read at (p, k) is the region-entry array at row 1200·t + p, column k. -/
theorem blk2 (c : Dev nD) (t : Fin cfg0.N) (p : Fin 1200) (k : Fin 256) :
    iblk m c 2 t (ix2 p k) = V m c main_arg4 (ix2 (rowOf (pt t) p) k) := by
  show V m c main_arg4 (((cfg0.win 2).blk t).view.emb (ix2 p k)) = _
  rw [emb2]
/-- Input window 3's block read at (p, k) is the region-entry array at row 1200·t + p, column k. -/
theorem blk3 (c : Dev nD) (t : Fin cfg0.N) (p : Fin 1200) (k : Fin 256) :
    iblk m c 3 t (ix2 p k) = V m c main_v65 (ix2 (rowOf (pt t) p) k) := by
  show V m c main_v65 (((cfg0.win 3).blk t).view.emb (ix2 p k)) = _
  rw [emb3]

/-- Input window 4's block read at (a, b) is the region-entry array there. -/
theorem blk4 (c : Dev nD) (t : Fin cfg0.N) (a : Fin 256) (b : Fin 1024) :
    iblk m c 4 t (ix2 a b) = V m c main_v66 (ix2 a b) := by
  show V m c main_v66 (((cfg0.win 4).blk t).view.emb (ix2 a b)) = _
  rw [emb4]
/-- Input window 5's block read at (a, b) is the region-entry array there. -/
theorem blk5 (c : Dev nD) (t : Fin cfg0.N) (a : Fin 256) (b : Fin 1024) :
    iblk m c 5 t (ix2 a b) = V m c main_v75 (ix2 a b) := by
  show V m c main_v75 (((cfg0.win 5).blk t).view.emb (ix2 a b)) = _
  rw [emb5]
/-- Input window 6's block read at (a, b) is the region-entry array there. -/
theorem blk6 (c : Dev nD) (t : Fin cfg0.N) (a : Fin 256) (b : Fin 1024) :
    iblk m c 6 t (ix2 a b) = V m c main_v84 (ix2 a b) := by
  show V m c main_v84 (((cfg0.win 6).blk t).view.emb (ix2 a b)) = _
  rw [emb6]
/-- Input window 7's block read at (a, b) is the region-entry array there. -/
theorem blk7 (c : Dev nD) (t : Fin cfg0.N) (a : Fin 1) (b : Fin 1024) :
    iblk m c 7 t (ix2 a b) = V m c main_v90 (ix2 a b) := by
  show V m c main_v90 (((cfg0.win 7).blk t).view.emb (ix2 a b)) = _
  rw [emb7]
/-- Input window 8's block read at (a, b) is the region-entry array there. -/
theorem blk8 (c : Dev nD) (t : Fin cfg0.N) (a : Fin 1) (b : Fin 256) :
    iblk m c 8 t (ix2 a b) = V m c main_v91 (ix2 a b) := by
  show V m c main_v91 (((cfg0.win 8).blk t).view.emb (ix2 a b)) = _
  rw [emb8]
/-- Input window 9's block read at (a, b) is the region-entry array there. -/
theorem blk9 (c : Dev nD) (t : Fin cfg0.N) (a : Fin 1) (b : Fin 256) :
    iblk m c 9 t (ix2 a b) = V m c main_v92 (ix2 a b) := by
  show V m c main_v92 (((cfg0.win 9).blk t).view.emb (ix2 a b)) = _
  rw [emb9]
/-- Input window 10's block read at (a, b) is the region-entry array there. -/
theorem blk10 (c : Dev nD) (t : Fin cfg0.N) (a : Fin 1) (b : Fin 256) :
    iblk m c 10 t (ix2 a b) = V m c main_v93 (ix2 a b) := by
  show V m c main_v93 (((cfg0.win 10).blk t).view.emb (ix2 a b)) = _
  rw [emb10]
/-- Input window 11's block read at (a, b) is the region-entry array there. -/
theorem blk11 (c : Dev nD) (t : Fin cfg0.N) (a : Fin 256) (b : Fin 256) :
    iblk m c 11 t (ix2 a b) = V m c main_arg26 (ix2 a b) := by
  show V m c main_arg26 (((cfg0.win 11).blk t).view.emb (ix2 a b)) = _
  rw [emb11]
/-- Input window 12's block read at (a, b) is the region-entry array there. -/
theorem blk12 (c : Dev nD) (t : Fin cfg0.N) (a : Fin 1) (b : Fin 256) :
    iblk m c 12 t (ix2 a b) = V m c main_v94 (ix2 a b) := by
  show V m c main_v94 (((cfg0.win 12).blk t).view.emb (ix2 a b)) = _
  rw [emb12]

end Cert.KernelIdeal.Blocks

end
-- ==== Proof.KernelHost.lean ====
/-
  The host part of the kernel program, as terms.

  Before it launches its one fused kernel, the program computes on the host, from the node features `x`, the
  edge list `ei` (row 0 the source ids, row 1 the destination ids), the edge weights `ew`, the hidden state `h`
  and the two neighbour id lists `snb`, `dnb`:

  * the augmented features: one scatter-add into `x` of the 960000 rows `[x[snb]; x[dnb]]` at the ids
    `[src; dst]` (negative ids wrapped by the number of nodes first);
  * the first Chebyshev term: with `deg = Σ_{src e = n} ew e`, `dinv = where(deg > 0, rsqrt(max(deg, 1e-12)), 0)`
    and `norm e = ((-dinv[src e]) * ew e) * dinv[dst e]`, the scatter-add into zeros, at the destination ids,
    of the rows `norm e * h[src e]`.

  Each definition below is one operation of that part, applied to the definitions of its operands, in program
  order; `kXa` and `kT1` are the two results the fused kernel reads.
-/
import proofs.«101913_j61426622267687_2_alg».proof.Proof.Gen.KernelIdeal

noncomputable section

namespace Cert.KernelIdeal.HostTerm

open Cert.KernelIdeal Cert.KernelIdeal.Gen Idealize.ShloMosaic Idealize.SL.Sem Idealize.ShloMosaic.StableHlo

variable {F : FTy → Type} [FloatOps F]

/-- Row 0 of the edge list, as a [1, 480000] array. -/
def v0 (ei : (⟨S2x480000, .i32⟩ : BufTy).Contents (Elt F)) : (⟨S1x480000, .i32⟩ : BufTy).Contents (Elt F) :=
  extractStridedSlice S1x480000 ![0, 0] (ei) slices_S2x480000_S1x480000_0_0

/-- The source ids `src`. -/
def v1 (ei : (⟨S2x480000, .i32⟩ : BufTy).Contents (Elt F)) : (⟨S480000, .i32⟩ : BufTy).Contents (Elt F) :=
  shapeCast _ (v0 (F := F) ei) shapeCasts_S1x480000_S480000

/-- Row 1 of the edge list, as a [1, 480000] array. -/
def v2 (ei : (⟨S2x480000, .i32⟩ : BufTy).Contents (Elt F)) : (⟨S1x480000, .i32⟩ : BufTy).Contents (Elt F) :=
  extractStridedSlice S1x480000 ![1, 0] (ei) slices_S2x480000_S1x480000_1_0

/-- The destination ids `dst`. -/
def v3 (ei : (⟨S2x480000, .i32⟩ : BufTy).Contents (Elt F)) : (⟨S480000, .i32⟩ : BufTy).Contents (Elt F) :=
  shapeCast _ (v2 (F := F) ei) shapeCasts_S1x480000_S480000

def c : (⟨S_, .i32⟩ : BufTy).Contents (Elt F) :=
  constantI S_ 32 0#32

def v4 : (⟨S480000, .i32⟩ : BufTy).Contents (Elt F) :=
  broadcastInDim S480000 ![] bcast_S_S480000 (c (F := F))

/-- Where a source-neighbour id is negative. -/
def v5 (snb : (⟨S480000, .i32⟩ : BufTy).Contents (Elt F)) : (⟨S480000, .i1⟩ : BufTy).Contents (Elt F) :=
  cmpi .slt (snb) (v4 (F := F))

def c_0 : (⟨S_, .i32⟩ : BufTy).Contents (Elt F) :=
  constantI S_ 32 30000#32

def v6 : (⟨S480000, .i32⟩ : BufTy).Contents (Elt F) :=
  broadcastInDim S480000 ![] bcast_S_S480000 (c_0 (F := F))

/-- a source-neighbour id plus the number of nodes. -/
def v7 (snb : (⟨S480000, .i32⟩ : BufTy).Contents (Elt F)) : (⟨S480000, .i32⟩ : BufTy).Contents (Elt F) :=
  addi (snb) (v6 (F := F))

/-- a source-neighbour id, a negative one wrapped. -/
def v8 (snb : (⟨S480000, .i32⟩ : BufTy).Contents (Elt F)) : (⟨S480000, .i32⟩ : BufTy).Contents (Elt F) :=
  select (v5 (F := F) snb) (v7 (F := F) snb) (snb)

/-- The wrapped ids as a [480000, 1] column of index vectors. -/
def v9 (snb : (⟨S480000, .i32⟩ : BufTy).Contents (Elt F)) : (⟨S480000x1, .i32⟩ : BufTy).Contents (Elt F) :=
  broadcastInDim S480000x1 ![0] bcast_S480000_S480000x1_0 (v8 (F := F) snb)

/-- The rows `x[snb]`. -/
def v10 (x : (⟨S30000x256, .f32⟩ : BufTy).Contents (Elt F)) (snb : (⟨S480000, .i32⟩ : BufTy).Contents (Elt F)) : (⟨S480000x256, .f32⟩ : BufTy).Contents (Elt F) :=
  Host.gather gather_S30000x256_S480000x1_S480000x256_1_0_n_n_0_1_1256 (x) (v9 (F := F) snb)

def c_1 : (⟨S_, .i32⟩ : BufTy).Contents (Elt F) :=
  constantI S_ 32 0#32

def v11 : (⟨S480000, .i32⟩ : BufTy).Contents (Elt F) :=
  broadcastInDim S480000 ![] bcast_S_S480000 (c_1 (F := F))

/-- Where a destination-neighbour id is negative. -/
def v12 (dnb : (⟨S480000, .i32⟩ : BufTy).Contents (Elt F)) : (⟨S480000, .i1⟩ : BufTy).Contents (Elt F) :=
  cmpi .slt (dnb) (v11 (F := F))

def c_2 : (⟨S_, .i32⟩ : BufTy).Contents (Elt F) :=
  constantI S_ 32 30000#32

def v13 : (⟨S480000, .i32⟩ : BufTy).Contents (Elt F) :=
  broadcastInDim S480000 ![] bcast_S_S480000 (c_2 (F := F))

/-- a destination-neighbour id plus the number of nodes. -/
def v14 (dnb : (⟨S480000, .i32⟩ : BufTy).Contents (Elt F)) : (⟨S480000, .i32⟩ : BufTy).Contents (Elt F) :=
  addi (dnb) (v13 (F := F))

/-- a destination-neighbour id, a negative one wrapped. -/
def v15 (dnb : (⟨S480000, .i32⟩ : BufTy).Contents (Elt F)) : (⟨S480000, .i32⟩ : BufTy).Contents (Elt F) :=
  select (v12 (F := F) dnb) (v14 (F := F) dnb) (dnb)

/-- The wrapped ids as a [480000, 1] column of index vectors. -/
def v16 (dnb : (⟨S480000, .i32⟩ : BufTy).Contents (Elt F)) : (⟨S480000x1, .i32⟩ : BufTy).Contents (Elt F) :=
  broadcastInDim S480000x1 ![0] bcast_S480000_S480000x1_0 (v15 (F := F) dnb)

/-- The rows `x[dnb]`. -/
def v17 (x : (⟨S30000x256, .f32⟩ : BufTy).Contents (Elt F)) (dnb : (⟨S480000, .i32⟩ : BufTy).Contents (Elt F)) : (⟨S480000x256, .f32⟩ : BufTy).Contents (Elt F) :=
  Host.gather gather_S30000x256_S480000x1_S480000x256_1_0_n_n_0_1_1256 (x) (v16 (F := F) dnb)

/-- The 960000 ids `[src; dst]`. -/
def v18 (ei : (⟨S2x480000, .i32⟩ : BufTy).Contents (Elt F)) : (⟨S960000, .i32⟩ : BufTy).Contents (Elt F) :=
  concatenate S960000 0 [⟨S480000, v1 (F := F) ei⟩, ⟨S480000, v3 (F := F) ei⟩] concatenates_S480000_S480000_S960000_d0

/-- The 960000 rows `[x[snb]; x[dnb]]`. -/
def v19 (x : (⟨S30000x256, .f32⟩ : BufTy).Contents (Elt F)) (snb : (⟨S480000, .i32⟩ : BufTy).Contents (Elt F)) (dnb : (⟨S480000, .i32⟩ : BufTy).Contents (Elt F)) : (⟨S960000x256, .f32⟩ : BufTy).Contents (Elt F) :=
  concatenate S960000x256 0 [⟨S480000x256, v10 (F := F) x snb⟩, ⟨S480000x256, v17 (F := F) x dnb⟩] concatenates_S480000x256_S480000x256_S960000x256_d0

def c_3 : (⟨S_, .i32⟩ : BufTy).Contents (Elt F) :=
  constantI S_ 32 0#32

def v20 : (⟨S960000, .i32⟩ : BufTy).Contents (Elt F) :=
  broadcastInDim S960000 ![] bcast_S_S960000 (c_3 (F := F))

def v21 (ei : (⟨S2x480000, .i32⟩ : BufTy).Contents (Elt F)) : (⟨S960000, .i1⟩ : BufTy).Contents (Elt F) :=
  cmpi .slt (v18 (F := F) ei) (v20 (F := F))

def c_4 : (⟨S_, .i32⟩ : BufTy).Contents (Elt F) :=
  constantI S_ 32 30000#32

def v22 : (⟨S960000, .i32⟩ : BufTy).Contents (Elt F) :=
  broadcastInDim S960000 ![] bcast_S_S960000 (c_4 (F := F))

def v23 (ei : (⟨S2x480000, .i32⟩ : BufTy).Contents (Elt F)) : (⟨S960000, .i32⟩ : BufTy).Contents (Elt F) :=
  addi (v18 (F := F) ei) (v22 (F := F))

/-- The ids `[src; dst]`, a negative one wrapped. -/
def v24 (ei : (⟨S2x480000, .i32⟩ : BufTy).Contents (Elt F)) : (⟨S960000, .i32⟩ : BufTy).Contents (Elt F) :=
  select (v21 (F := F) ei) (v23 (F := F) ei) (v18 (F := F) ei)

def v25 (ei : (⟨S2x480000, .i32⟩ : BufTy).Contents (Elt F)) : (⟨S960000x1, .i32⟩ : BufTy).Contents (Elt F) :=
  broadcastInDim S960000x1 ![0] bcast_S960000_S960000x1_0 (v24 (F := F) ei)

/-- The augmented features: one scatter-add of the 960000 rows into `x`. -/
def v26 (x : (⟨S30000x256, .f32⟩ : BufTy).Contents (Elt F)) (ei : (⟨S2x480000, .i32⟩ : BufTy).Contents (Elt F)) (snb : (⟨S480000, .i32⟩ : BufTy).Contents (Elt F)) (dnb : (⟨S480000, .i32⟩ : BufTy).Contents (Elt F)) : (⟨S30000x256, .f32⟩ : BufTy).Contents (Elt F) :=
  Host.scatterAdd scatter_S30000x256_S960000x1_S960000x256_1_0_0_1 (x) (v25 (F := F) ei) (v19 (F := F) x snb dnb)

/-- The augmented node features the fused kernel reads. -/
def kXa (x : (⟨S30000x256, .f32⟩ : BufTy).Contents (Elt F)) (ei : (⟨S2x480000, .i32⟩ : BufTy).Contents (Elt F)) (snb : (⟨S480000, .i32⟩ : BufTy).Contents (Elt F)) (dnb : (⟨S480000, .i32⟩ : BufTy).Contents (Elt F)) : (⟨S30000x256, .f32⟩ : BufTy).Contents (Elt F) :=
  v26 (F := F) x ei snb dnb

/-! ## The first Chebyshev term -/

def cst : (⟨S_, .f32⟩ : BufTy).Contents (Elt F) :=
  constant S_ .f32 0x00000000#32

/-- Zeros, one per node. -/
def v27 : (⟨S30000, .f32⟩ : BufTy).Contents (Elt F) :=
  broadcastInDim S30000 ![] bcast_S_S30000 (cst (F := F))

/-- The source ids as a column of index vectors (not wrapped: a segment sum drops an id out of range). -/
def v28 (ei : (⟨S2x480000, .i32⟩ : BufTy).Contents (Elt F)) : (⟨S480000x1, .i32⟩ : BufTy).Contents (Elt F) :=
  broadcastInDim S480000x1 ![0] bcast_S480000_S480000x1_0 (v1 (F := F) ei)

/-- The weighted out-degree `deg n = Σ_{src e = n} ew e`. -/
def v29 (ei : (⟨S2x480000, .i32⟩ : BufTy).Contents (Elt F)) (ew : (⟨S480000, .f32⟩ : BufTy).Contents (Elt F)) : (⟨S30000, .f32⟩ : BufTy).Contents (Elt F) :=
  Host.scatterAdd scatter_S30000_S480000x1_S480000_n_0_0_1 (v27 (F := F)) (v28 (F := F) ei) (ew)

def cst_5 : (⟨S_, .f32⟩ : BufTy).Contents (Elt F) :=
  constant S_ .f32 0x00000000#32

def v30 : (⟨S30000, .f32⟩ : BufTy).Contents (Elt F) :=
  broadcastInDim S30000 ![] bcast_S_S30000 (cst_5 (F := F))

/-- Where the degree is positive. -/
def v31 (ei : (⟨S2x480000, .i32⟩ : BufTy).Contents (Elt F)) (ew : (⟨S480000, .f32⟩ : BufTy).Contents (Elt F)) : (⟨S30000, .i1⟩ : BufTy).Contents (Elt F) :=
  cmpf .ogt (v29 (F := F) ei ew) (v30 (F := F))

def cst_6 : (⟨S_, .f32⟩ : BufTy).Contents (Elt F) :=
  constant S_ .f32 0x2B8CBCCC#32

def v32 : (⟨S30000, .f32⟩ : BufTy).Contents (Elt F) :=
  broadcastInDim S30000 ![] bcast_S_S30000 (cst_6 (F := F))

def v33 (ei : (⟨S2x480000, .i32⟩ : BufTy).Contents (Elt F)) (ew : (⟨S480000, .f32⟩ : BufTy).Contents (Elt F)) : (⟨S30000, .f32⟩ : BufTy).Contents (Elt F) :=
  maximumf (v29 (F := F) ei ew) (v32 (F := F))

def v34 (ei : (⟨S2x480000, .i32⟩ : BufTy).Contents (Elt F)) (ew : (⟨S480000, .f32⟩ : BufTy).Contents (Elt F)) : (⟨S30000, .f32⟩ : BufTy).Contents (Elt F) :=
  Host.rsqrt (v33 (F := F) ei ew)

def cst_7 : (⟨S_, .f32⟩ : BufTy).Contents (Elt F) :=
  constant S_ .f32 0x00000000#32

def call0_v0 : (⟨S_, .f32⟩ : BufTy).Contents (Elt F) :=
  id (cst_7 (F := F))

def call0_v1 : (⟨S30000, .f32⟩ : BufTy).Contents (Elt F) :=
  broadcastInDim S30000 ![] bcast_S_S30000 (call0_v0 (F := F))

/-- `dinv = where(deg > 0, rsqrt(max(deg, 1e-12)), 0)`. -/
def v35 (ei : (⟨S2x480000, .i32⟩ : BufTy).Contents (Elt F)) (ew : (⟨S480000, .f32⟩ : BufTy).Contents (Elt F)) : (⟨S30000, .f32⟩ : BufTy).Contents (Elt F) :=
  select (v31 (F := F) ei ew) (v34 (F := F) ei ew) (call0_v1 (F := F))

def c_8 : (⟨S_, .i32⟩ : BufTy).Contents (Elt F) :=
  constantI S_ 32 0#32

def v36 : (⟨S480000, .i32⟩ : BufTy).Contents (Elt F) :=
  broadcastInDim S480000 ![] bcast_S_S480000 (c_8 (F := F))

/-- Where a source id is negative. -/
def v37 (ei : (⟨S2x480000, .i32⟩ : BufTy).Contents (Elt F)) : (⟨S480000, .i1⟩ : BufTy).Contents (Elt F) :=
  cmpi .slt (v1 (F := F) ei) (v36 (F := F))

def c_9 : (⟨S_, .i32⟩ : BufTy).Contents (Elt F) :=
  constantI S_ 32 30000#32

def v38 : (⟨S480000, .i32⟩ : BufTy).Contents (Elt F) :=
  broadcastInDim S480000 ![] bcast_S_S480000 (c_9 (F := F))

/-- a source id plus the number of nodes. -/
def v39 (ei : (⟨S2x480000, .i32⟩ : BufTy).Contents (Elt F)) : (⟨S480000, .i32⟩ : BufTy).Contents (Elt F) :=
  addi (v1 (F := F) ei) (v38 (F := F))

/-- a source id, a negative one wrapped. -/
def v40 (ei : (⟨S2x480000, .i32⟩ : BufTy).Contents (Elt F)) : (⟨S480000, .i32⟩ : BufTy).Contents (Elt F) :=
  select (v37 (F := F) ei) (v39 (F := F) ei) (v1 (F := F) ei)

/-- The wrapped ids as a [480000, 1] column of index vectors. -/
def v41 (ei : (⟨S2x480000, .i32⟩ : BufTy).Contents (Elt F)) : (⟨S480000x1, .i32⟩ : BufTy).Contents (Elt F) :=
  broadcastInDim S480000x1 ![0] bcast_S480000_S480000x1_0 (v40 (F := F) ei)

/-- `dinv[src]`. -/
def v42 (ei : (⟨S2x480000, .i32⟩ : BufTy).Contents (Elt F)) (ew : (⟨S480000, .f32⟩ : BufTy).Contents (Elt F)) : (⟨S480000, .f32⟩ : BufTy).Contents (Elt F) :=
  Host.gather gather_S30000_S480000x1_S480000_n_0_n_n_0_1_1 (v35 (F := F) ei ew) (v41 (F := F) ei)

def v43 (ei : (⟨S2x480000, .i32⟩ : BufTy).Contents (Elt F)) (ew : (⟨S480000, .f32⟩ : BufTy).Contents (Elt F)) : (⟨S480000, .f32⟩ : BufTy).Contents (Elt F) :=
  Host.negf (v42 (F := F) ei ew)

def v44 (ei : (⟨S2x480000, .i32⟩ : BufTy).Contents (Elt F)) (ew : (⟨S480000, .f32⟩ : BufTy).Contents (Elt F)) : (⟨S480000, .f32⟩ : BufTy).Contents (Elt F) :=
  mulf (v43 (F := F) ei ew) (ew)

def c_10 : (⟨S_, .i32⟩ : BufTy).Contents (Elt F) :=
  constantI S_ 32 0#32

def v45 : (⟨S480000, .i32⟩ : BufTy).Contents (Elt F) :=
  broadcastInDim S480000 ![] bcast_S_S480000 (c_10 (F := F))

/-- Where a destination id is negative. -/
def v46 (ei : (⟨S2x480000, .i32⟩ : BufTy).Contents (Elt F)) : (⟨S480000, .i1⟩ : BufTy).Contents (Elt F) :=
  cmpi .slt (v3 (F := F) ei) (v45 (F := F))

def c_11 : (⟨S_, .i32⟩ : BufTy).Contents (Elt F) :=
  constantI S_ 32 30000#32

def v47 : (⟨S480000, .i32⟩ : BufTy).Contents (Elt F) :=
  broadcastInDim S480000 ![] bcast_S_S480000 (c_11 (F := F))

/-- a destination id plus the number of nodes. -/
def v48 (ei : (⟨S2x480000, .i32⟩ : BufTy).Contents (Elt F)) : (⟨S480000, .i32⟩ : BufTy).Contents (Elt F) :=
  addi (v3 (F := F) ei) (v47 (F := F))

/-- a destination id, a negative one wrapped. -/
def v49 (ei : (⟨S2x480000, .i32⟩ : BufTy).Contents (Elt F)) : (⟨S480000, .i32⟩ : BufTy).Contents (Elt F) :=
  select (v46 (F := F) ei) (v48 (F := F) ei) (v3 (F := F) ei)

/-- The wrapped ids as a [480000, 1] column of index vectors. -/
def v50 (ei : (⟨S2x480000, .i32⟩ : BufTy).Contents (Elt F)) : (⟨S480000x1, .i32⟩ : BufTy).Contents (Elt F) :=
  broadcastInDim S480000x1 ![0] bcast_S480000_S480000x1_0 (v49 (F := F) ei)

/-- `dinv[dst]`. -/
def v51 (ei : (⟨S2x480000, .i32⟩ : BufTy).Contents (Elt F)) (ew : (⟨S480000, .f32⟩ : BufTy).Contents (Elt F)) : (⟨S480000, .f32⟩ : BufTy).Contents (Elt F) :=
  Host.gather gather_S30000_S480000x1_S480000_n_0_n_n_0_1_1 (v35 (F := F) ei ew) (v50 (F := F) ei)

/-- `norm = ((-dinv[src]) * ew) * dinv[dst]`. -/
def v52 (ei : (⟨S2x480000, .i32⟩ : BufTy).Contents (Elt F)) (ew : (⟨S480000, .f32⟩ : BufTy).Contents (Elt F)) : (⟨S480000, .f32⟩ : BufTy).Contents (Elt F) :=
  mulf (v44 (F := F) ei ew) (v51 (F := F) ei ew)

def v53 (ei : (⟨S2x480000, .i32⟩ : BufTy).Contents (Elt F)) (ew : (⟨S480000, .f32⟩ : BufTy).Contents (Elt F)) : (⟨S480000x1, .f32⟩ : BufTy).Contents (Elt F) :=
  broadcastInDim S480000x1 ![0] bcast_S480000_S480000x1_0 (v52 (F := F) ei ew)

def c_12 : (⟨S_, .i32⟩ : BufTy).Contents (Elt F) :=
  constantI S_ 32 0#32

def v54 : (⟨S480000, .i32⟩ : BufTy).Contents (Elt F) :=
  broadcastInDim S480000 ![] bcast_S_S480000 (c_12 (F := F))

/-- Where a source id is negative. -/
def v55 (ei : (⟨S2x480000, .i32⟩ : BufTy).Contents (Elt F)) : (⟨S480000, .i1⟩ : BufTy).Contents (Elt F) :=
  cmpi .slt (v1 (F := F) ei) (v54 (F := F))

def c_13 : (⟨S_, .i32⟩ : BufTy).Contents (Elt F) :=
  constantI S_ 32 30000#32

def v56 : (⟨S480000, .i32⟩ : BufTy).Contents (Elt F) :=
  broadcastInDim S480000 ![] bcast_S_S480000 (c_13 (F := F))

/-- a source id plus the number of nodes. -/
def v57 (ei : (⟨S2x480000, .i32⟩ : BufTy).Contents (Elt F)) : (⟨S480000, .i32⟩ : BufTy).Contents (Elt F) :=
  addi (v1 (F := F) ei) (v56 (F := F))

/-- a source id, a negative one wrapped. -/
def v58 (ei : (⟨S2x480000, .i32⟩ : BufTy).Contents (Elt F)) : (⟨S480000, .i32⟩ : BufTy).Contents (Elt F) :=
  select (v55 (F := F) ei) (v57 (F := F) ei) (v1 (F := F) ei)

/-- The wrapped ids as a [480000, 1] column of index vectors. -/
def v59 (ei : (⟨S2x480000, .i32⟩ : BufTy).Contents (Elt F)) : (⟨S480000x1, .i32⟩ : BufTy).Contents (Elt F) :=
  broadcastInDim S480000x1 ![0] bcast_S480000_S480000x1_0 (v58 (F := F) ei)

/-- The rows `h[src]`. -/
def v60 (ei : (⟨S2x480000, .i32⟩ : BufTy).Contents (Elt F)) (h : (⟨S30000x256, .f32⟩ : BufTy).Contents (Elt F)) : (⟨S480000x256, .f32⟩ : BufTy).Contents (Elt F) :=
  Host.gather gather_S30000x256_S480000x1_S480000x256_1_0_n_n_0_1_1256 (h) (v59 (F := F) ei)

/-- `norm` repeated along each row. -/
def v61 (ei : (⟨S2x480000, .i32⟩ : BufTy).Contents (Elt F)) (ew : (⟨S480000, .f32⟩ : BufTy).Contents (Elt F)) : (⟨S480000x256, .f32⟩ : BufTy).Contents (Elt F) :=
  broadcastInDim S480000x256 ![0, 1] bcast_S480000x1_S480000x256_0_1 (v53 (F := F) ei ew)

/-- The rows `norm e * h[src e]`. -/
def v62 (ei : (⟨S2x480000, .i32⟩ : BufTy).Contents (Elt F)) (ew : (⟨S480000, .f32⟩ : BufTy).Contents (Elt F)) (h : (⟨S30000x256, .f32⟩ : BufTy).Contents (Elt F)) : (⟨S480000x256, .f32⟩ : BufTy).Contents (Elt F) :=
  mulf (v61 (F := F) ei ew) (v60 (F := F) ei h)

def cst_14 : (⟨S_, .f32⟩ : BufTy).Contents (Elt F) :=
  constant S_ .f32 0x00000000#32

/-- Zeros, one row per node. -/
def v63 : (⟨S30000x256, .f32⟩ : BufTy).Contents (Elt F) :=
  broadcastInDim S30000x256 ![] bcast_S_S30000x256 (cst_14 (F := F))

/-- The destination ids as a column of index vectors (not wrapped). -/
def v64 (ei : (⟨S2x480000, .i32⟩ : BufTy).Contents (Elt F)) : (⟨S480000x1, .i32⟩ : BufTy).Contents (Elt F) :=
  broadcastInDim S480000x1 ![0] bcast_S480000_S480000x1_0 (v3 (F := F) ei)

/-- The segment sum over the destination ids of the rows `norm e * h[src e]`. -/
def v65 (ei : (⟨S2x480000, .i32⟩ : BufTy).Contents (Elt F)) (ew : (⟨S480000, .f32⟩ : BufTy).Contents (Elt F)) (h : (⟨S30000x256, .f32⟩ : BufTy).Contents (Elt F)) : (⟨S30000x256, .f32⟩ : BufTy).Contents (Elt F) :=
  Host.scatterAdd scatter_S30000x256_S480000x1_S480000x256_1_0_0_1 (v63 (F := F)) (v64 (F := F) ei) (v62 (F := F) ei ew h)

/-- The first Chebyshev term the fused kernel reads. -/
def kT1 (ei : (⟨S2x480000, .i32⟩ : BufTy).Contents (Elt F)) (ew : (⟨S480000, .f32⟩ : BufTy).Contents (Elt F)) (h : (⟨S30000x256, .f32⟩ : BufTy).Contents (Elt F)) : (⟨S30000x256, .f32⟩ : BufTy).Contents (Elt F) :=
  v65 (F := F) ei ew h

end Cert.KernelIdeal.HostTerm

end
-- ==== Proof.IdealEntry.lean ====
/-
  What the region finds in the window arrays the host prefix computes, as the host operations' composed terms
  of the argument arrays: the three wide weight matrices (four square matrices side by side), the folded bias
  (four sums of two vectors end to end, as one row), the four row vectors, and the two edge-indexed arrays (the
  augmented features and the first Chebyshev term).
-/
import proofs.«101913_j61426622267687_2_alg».proof.Proof.IdealHost
import proofs.«101913_j61426622267687_2_alg».proof.Proof.KernelHost
import Idealize.ShloMosaic.Lib.Pipeline.FrameBody
import Idealize.ShloMosaic.Lib.Ring
import Idealize.ShloMosaic.Lib.Tactic

set_option maxRecDepth 16384

noncomputable section

namespace Cert.KernelIdeal.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.HostPrefix

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The first wide matrix is the four input-projection matrices side by side. -/
theorem wideX (c : Dev nD) : (V m c main_v66 : S256x1024.Idx → Elt F .f32)
    = concatenate S256x1024 1 [⟨S256x256, (m ((c : Thread nD τ).loc main_arg7))⟩, ⟨S256x256, (m ((c : Thread nD τ).loc main_arg8))⟩, ⟨S256x256, (m ((c : Thread nD τ).loc main_arg9))⟩, ⟨S256x256, (m ((c : Thread nD τ).loc main_arg10))⟩] concatenates_S256x256_S256x256_S256x256_S256x256_S256x1024_d1 := by
  dsimp only [V]
  simp only [hostOps0, hostOps0_1, hostOps0_2, List.flatten_cons, List.flatten_nil, List.append_nil, List.cons_append, List.nil_append,
    StableHlo.TRef.unary, StableHlo.TRef.binary, StableHlo.TRef.ternary]
  after_results_simp
  rfl

set_option maxHeartbeats 4000000 in
/-- The second wide matrix is slab 0 of the four Chebyshev weight arrays side by side. -/
theorem wideH (c : Dev nD) : (V m c main_v75 : S256x1024.Idx → Elt F .f32)
    = concatenate S256x1024 1 [⟨S256x256, (shapeCast S256x256 (extractStridedSlice S1x256x256 ![0, 0, 0] (m ((c : Thread nD τ).loc main_arg11)) slices_S2x256x256_S1x256x256_0_0_0) shapeCasts_S1x256x256_S256x256)⟩, ⟨S256x256, (shapeCast S256x256 (extractStridedSlice S1x256x256 ![0, 0, 0] (m ((c : Thread nD τ).loc main_arg12)) slices_S2x256x256_S1x256x256_0_0_0) shapeCasts_S1x256x256_S256x256)⟩, ⟨S256x256, (shapeCast S256x256 (extractStridedSlice S1x256x256 ![0, 0, 0] (m ((c : Thread nD τ).loc main_arg13)) slices_S2x256x256_S1x256x256_0_0_0) shapeCasts_S1x256x256_S256x256)⟩, ⟨S256x256, (shapeCast S256x256 (extractStridedSlice S1x256x256 ![0, 0, 0] (m ((c : Thread nD τ).loc main_arg14)) slices_S2x256x256_S1x256x256_0_0_0) shapeCasts_S1x256x256_S256x256)⟩] concatenates_S256x256_S256x256_S256x256_S256x256_S256x1024_d1 := by
  dsimp only [V]
  simp only [hostOps0, hostOps0_1, hostOps0_2, List.flatten_cons, List.flatten_nil, List.append_nil, List.cons_append, List.nil_append,
    StableHlo.TRef.unary, StableHlo.TRef.binary, StableHlo.TRef.ternary]
  after_results_simp
  rfl

set_option maxHeartbeats 4000000 in
/-- The third wide matrix is slab 1 of the four Chebyshev weight arrays side by side. -/
theorem wideT (c : Dev nD) : (V m c main_v84 : S256x1024.Idx → Elt F .f32)
    = concatenate S256x1024 1 [⟨S256x256, (shapeCast S256x256 (extractStridedSlice S1x256x256 ![1, 0, 0] (m ((c : Thread nD τ).loc main_arg11)) slices_S2x256x256_S1x256x256_1_0_0) shapeCasts_S1x256x256_S256x256)⟩, ⟨S256x256, (shapeCast S256x256 (extractStridedSlice S1x256x256 ![1, 0, 0] (m ((c : Thread nD τ).loc main_arg12)) slices_S2x256x256_S1x256x256_1_0_0) shapeCasts_S1x256x256_S256x256)⟩, ⟨S256x256, (shapeCast S256x256 (extractStridedSlice S1x256x256 ![1, 0, 0] (m ((c : Thread nD τ).loc main_arg13)) slices_S2x256x256_S1x256x256_1_0_0) shapeCasts_S1x256x256_S256x256)⟩, ⟨S256x256, (shapeCast S256x256 (extractStridedSlice S1x256x256 ![1, 0, 0] (m ((c : Thread nD τ).loc main_arg14)) slices_S2x256x256_S1x256x256_1_0_0) shapeCasts_S1x256x256_S256x256)⟩] concatenates_S256x256_S256x256_S256x256_S256x256_S256x1024_d1 := by
  dsimp only [V]
  simp only [hostOps0, hostOps0_1, hostOps0_2, List.flatten_cons, List.flatten_nil, List.append_nil, List.cons_append, List.nil_append,
    StableHlo.TRef.unary, StableHlo.TRef.binary, StableHlo.TRef.ternary]
  after_results_simp
  rfl

set_option maxHeartbeats 4000000 in
/-- The folded bias: the four sums (convolution bias + gate bias) end to end, as one row. -/
theorem foldedBias (c : Dev nD) : (V m c main_v90 : S1x1024.Idx → Elt F .f32)
    = shapeCast S1x1024 (concatenate S1024 0 [⟨S256, addf (m ((c : Thread nD τ).loc main_arg15)) (m ((c : Thread nD τ).loc main_arg22))⟩, ⟨S256, addf (m ((c : Thread nD τ).loc main_arg16)) (m ((c : Thread nD τ).loc main_arg23))⟩, ⟨S256, addf (m ((c : Thread nD τ).loc main_arg17)) (m ((c : Thread nD τ).loc main_arg24))⟩, ⟨S256, addf (m ((c : Thread nD τ).loc main_arg18)) (m ((c : Thread nD τ).loc main_arg25))⟩] concatenates_S256_S256_S256_S256_S1024_d0) shapeCasts_S1024_S1x1024 := by
  dsimp only [V]
  simp only [hostOps0, hostOps0_1, hostOps0_2, List.flatten_cons, List.flatten_nil, List.append_nil, List.cons_append, List.nil_append,
    StableHlo.TRef.unary, StableHlo.TRef.binary, StableHlo.TRef.ternary]
  after_results_simp
  rfl

set_option maxHeartbeats 4000000 in
/-- The input vector as one row. -/
theorem peepI (c : Dev nD) : (V m c main_v91 : S1x256.Idx → Elt F .f32) = shapeCast S1x256 (m ((c : Thread nD τ).loc main_arg19)) shapeCasts_S256_S1x256 := by
  dsimp only [V]
  simp only [hostOps0, hostOps0_1, hostOps0_2, List.flatten_cons, List.flatten_nil, List.append_nil, List.cons_append, List.nil_append,
    StableHlo.TRef.unary, StableHlo.TRef.binary, StableHlo.TRef.ternary]
  after_results_simp
  rfl

set_option maxHeartbeats 4000000 in
/-- The forget vector as one row. -/
theorem peepF (c : Dev nD) : (V m c main_v92 : S1x256.Idx → Elt F .f32) = shapeCast S1x256 (m ((c : Thread nD τ).loc main_arg20)) shapeCasts_S256_S1x256 := by
  dsimp only [V]
  simp only [hostOps0, hostOps0_1, hostOps0_2, List.flatten_cons, List.flatten_nil, List.append_nil, List.cons_append, List.nil_append,
    StableHlo.TRef.unary, StableHlo.TRef.binary, StableHlo.TRef.ternary]
  after_results_simp
  rfl

set_option maxHeartbeats 4000000 in
/-- The output vector as one row. -/
theorem peepO (c : Dev nD) : (V m c main_v93 : S1x256.Idx → Elt F .f32) = shapeCast S1x256 (m ((c : Thread nD τ).loc main_arg21)) shapeCasts_S256_S1x256 := by
  dsimp only [V]
  simp only [hostOps0, hostOps0_1, hostOps0_2, List.flatten_cons, List.flatten_nil, List.append_nil, List.cons_append, List.nil_append,
    StableHlo.TRef.unary, StableHlo.TRef.binary, StableHlo.TRef.ternary]
  after_results_simp
  rfl

set_option maxHeartbeats 4000000 in
/-- The readout bias vector as one row. -/
theorem readBias (c : Dev nD) : (V m c main_v94 : S1x256.Idx → Elt F .f32) = shapeCast S1x256 (m ((c : Thread nD τ).loc main_arg27)) shapeCasts_S256_S1x256 := by
  dsimp only [V]
  simp only [hostOps0, hostOps0_1, hostOps0_2, List.flatten_cons, List.flatten_nil, List.append_nil, List.cons_append, List.nil_append,
    StableHlo.TRef.unary, StableHlo.TRef.binary, StableHlo.TRef.ternary]
  after_results_simp
  rfl

set_option maxHeartbeats 8000000 in
/-- The augmented features: the host's one scatter-add of the concatenated neighbour rows into the features. -/
theorem augmented (c : Dev nD) : (V m c main_v26 : S30000x256.Idx → Elt F .f32)
    = Cert.KernelIdeal.HostTerm.kXa (F := F) (m ((c : Thread nD τ).loc main_arg0)) (m ((c : Thread nD τ).loc main_arg1)) (m ((c : Thread nD τ).loc main_arg5)) (m ((c : Thread nD τ).loc main_arg6)) := by
  dsimp only [V]
  simp only [hostOps0, hostOps0_1, hostOps0_2, List.flatten_cons, List.flatten_nil, List.append_nil, List.cons_append, List.nil_append,
    StableHlo.TRef.unary, StableHlo.TRef.binary, StableHlo.TRef.ternary]
  after_results_simp
  rfl

set_option maxHeartbeats 8000000 in
/-- The first Chebyshev term: the host's normalised neighbour sum of the hidden state. -/
theorem chebyshev (c : Dev nD) : (V m c main_v65 : S30000x256.Idx → Elt F .f32)
    = Cert.KernelIdeal.HostTerm.kT1 (F := F) (m ((c : Thread nD τ).loc main_arg1)) (m ((c : Thread nD τ).loc main_arg2)) (m ((c : Thread nD τ).loc main_arg3)) := by
  dsimp only [V]
  simp only [hostOps0, hostOps0_1, hostOps0_2, List.flatten_cons, List.flatten_nil, List.append_nil, List.cons_append, List.nil_append,
    StableHlo.TRef.unary, StableHlo.TRef.binary, StableHlo.TRef.ternary]
  after_results_simp
  rfl

end Cert.KernelIdeal.Entry

end
-- ==== Proof.LayoutConcat.lean ====
import proofs.«101913_j61426622267687_2_alg».proof.KernelIdeal
import Idealize.ShloMosaic.Lib.ValueLayout

namespace Cert.Layout

open Idealize.ShloMosaic Idealize.ShloMosaic.ValueIdx Cert.KernelIdeal

/-! # Four square matrices joined along the columns, read at an entry

The wide weight matrix is the four [256, 256] matrices `a b c d` side by side: its column `q + 256·j`
(`q < 256`, `j = 0, 1, 2, 3`) is column `q` of the `j`-th of them. Each statement comes twice: at any column `col`
whose value is `q + 256·j`, and at that column written out. -/

section
variable {α : Type}

/-- Columns 0 … 255 of the joined matrix are the first piece. -/
theorem concat4_cols_apply_0 (a b c d : S256x256.Idx → α)
    (h : Shape.Concatenates [S256x256, S256x256, S256x256, S256x256] S256x1024 1)
    (k q : Fin 256) (col : Fin 1024) (hcol : col.val = q.val + 0) :
    concatenate S256x1024 1 [⟨S256x256, a⟩, ⟨S256x256, b⟩, ⟨S256x256, c⟩, ⟨S256x256, d⟩] h (ix2 k col) = a (ix2 k q) :=
  concatenate_apply_piece (t := S256x1024) 1 [⟨S256x256, a⟩, ⟨S256x256, b⟩, ⟨S256x256, c⟩, ⟨S256x256, d⟩] h (ix2 k col)
    0 (by show 0 < 4; omega) S256x256 a rfl rfl 0 rfl (ix2 k q)
    (fun ax hax => by
      match ax with
      | ⟨0, _⟩ => rfl
      | ⟨1, _⟩ => exact absurd rfl hax)
    (by show 0 + q.val = col.val; omega)

/-- The same at the column written out, `q + 0`. -/
theorem concat4_cols_0 (a b c d : S256x256.Idx → α)
    (h : Shape.Concatenates [S256x256, S256x256, S256x256, S256x256] S256x1024 1) (k q : Fin 256) :
    concatenate S256x1024 1 [⟨S256x256, a⟩, ⟨S256x256, b⟩, ⟨S256x256, c⟩, ⟨S256x256, d⟩] h
      (ix2 k (⟨q.val + 0, by omega⟩ : Fin 1024)) = a (ix2 k q) :=
  concat4_cols_apply_0 a b c d h k q _ rfl

/-- Columns 256 … 511 of the joined matrix are the second piece. -/
theorem concat4_cols_apply_1 (a b c d : S256x256.Idx → α)
    (h : Shape.Concatenates [S256x256, S256x256, S256x256, S256x256] S256x1024 1)
    (k q : Fin 256) (col : Fin 1024) (hcol : col.val = q.val + 256) :
    concatenate S256x1024 1 [⟨S256x256, a⟩, ⟨S256x256, b⟩, ⟨S256x256, c⟩, ⟨S256x256, d⟩] h (ix2 k col) = b (ix2 k q) :=
  concatenate_apply_piece (t := S256x1024) 1 [⟨S256x256, a⟩, ⟨S256x256, b⟩, ⟨S256x256, c⟩, ⟨S256x256, d⟩] h (ix2 k col)
    1 (by show 1 < 4; omega) S256x256 b rfl rfl 256 rfl (ix2 k q)
    (fun ax hax => by
      match ax with
      | ⟨0, _⟩ => rfl
      | ⟨1, _⟩ => exact absurd rfl hax)
    (by show 256 + q.val = col.val; omega)

/-- The same at the column written out, `q + 256`. -/
theorem concat4_cols_1 (a b c d : S256x256.Idx → α)
    (h : Shape.Concatenates [S256x256, S256x256, S256x256, S256x256] S256x1024 1) (k q : Fin 256) :
    concatenate S256x1024 1 [⟨S256x256, a⟩, ⟨S256x256, b⟩, ⟨S256x256, c⟩, ⟨S256x256, d⟩] h
      (ix2 k (⟨q.val + 256, by omega⟩ : Fin 1024)) = b (ix2 k q) :=
  concat4_cols_apply_1 a b c d h k q _ rfl

/-- Columns 512 … 767 of the joined matrix are the third piece. -/
theorem concat4_cols_apply_2 (a b c d : S256x256.Idx → α)
    (h : Shape.Concatenates [S256x256, S256x256, S256x256, S256x256] S256x1024 1)
    (k q : Fin 256) (col : Fin 1024) (hcol : col.val = q.val + 512) :
    concatenate S256x1024 1 [⟨S256x256, a⟩, ⟨S256x256, b⟩, ⟨S256x256, c⟩, ⟨S256x256, d⟩] h (ix2 k col) = c (ix2 k q) :=
  concatenate_apply_piece (t := S256x1024) 1 [⟨S256x256, a⟩, ⟨S256x256, b⟩, ⟨S256x256, c⟩, ⟨S256x256, d⟩] h (ix2 k col)
    2 (by show 2 < 4; omega) S256x256 c rfl rfl 512 rfl (ix2 k q)
    (fun ax hax => by
      match ax with
      | ⟨0, _⟩ => rfl
      | ⟨1, _⟩ => exact absurd rfl hax)
    (by show 512 + q.val = col.val; omega)

/-- The same at the column written out, `q + 512`. -/
theorem concat4_cols_2 (a b c d : S256x256.Idx → α)
    (h : Shape.Concatenates [S256x256, S256x256, S256x256, S256x256] S256x1024 1) (k q : Fin 256) :
    concatenate S256x1024 1 [⟨S256x256, a⟩, ⟨S256x256, b⟩, ⟨S256x256, c⟩, ⟨S256x256, d⟩] h
      (ix2 k (⟨q.val + 512, by omega⟩ : Fin 1024)) = c (ix2 k q) :=
  concat4_cols_apply_2 a b c d h k q _ rfl

/-- Columns 768 … 1023 of the joined matrix are the fourth piece. -/
theorem concat4_cols_apply_3 (a b c d : S256x256.Idx → α)
    (h : Shape.Concatenates [S256x256, S256x256, S256x256, S256x256] S256x1024 1)
    (k q : Fin 256) (col : Fin 1024) (hcol : col.val = q.val + 768) :
    concatenate S256x1024 1 [⟨S256x256, a⟩, ⟨S256x256, b⟩, ⟨S256x256, c⟩, ⟨S256x256, d⟩] h (ix2 k col) = d (ix2 k q) :=
  concatenate_apply_piece (t := S256x1024) 1 [⟨S256x256, a⟩, ⟨S256x256, b⟩, ⟨S256x256, c⟩, ⟨S256x256, d⟩] h (ix2 k col)
    3 (by show 3 < 4; omega) S256x256 d rfl rfl 768 rfl (ix2 k q)
    (fun ax hax => by
      match ax with
      | ⟨0, _⟩ => rfl
      | ⟨1, _⟩ => exact absurd rfl hax)
    (by show 768 + q.val = col.val; omega)

/-- The same at the column written out, `q + 768`. -/
theorem concat4_cols_3 (a b c d : S256x256.Idx → α)
    (h : Shape.Concatenates [S256x256, S256x256, S256x256, S256x256] S256x1024 1) (k q : Fin 256) :
    concatenate S256x1024 1 [⟨S256x256, a⟩, ⟨S256x256, b⟩, ⟨S256x256, c⟩, ⟨S256x256, d⟩] h
      (ix2 k (⟨q.val + 768, by omega⟩ : Fin 1024)) = d (ix2 k q) :=
  concat4_cols_apply_3 a b c d h k q _ rfl

end

end Cert.Layout
-- ==== Proof.LayoutSlab.lean ====
import proofs.«101913_j61426622267687_2_alg».proof.KernelIdeal
import Idealize.ShloMosaic.Lib.ValueLayout

namespace Cert.Layout

open Idealize.ShloMosaic Idealize.ShloMosaic.ValueIdx Cert.KernelIdeal

/-! # The small layout stages read at an entry

* slab `s` of a [2, 256, 256] array made a matrix (a unit-thick slice, then the unit axis dropped);
* a [256] vector made a [1, 256] row;
* the four gates' folded biases `bc_j + b_j` laid end to end in a [1, 1024] row. -/

section
variable {α : Type}

/-- Slab 0 of `w` as a matrix: entry `(k, q)` is `w[0, k, q]`. -/
theorem slab0_apply (w : S2x256x256.Idx → α) (hs : S2x256x256.Slices ![0, 0, 0] S1x256x256)
    (hc : S1x256x256.ShapeCasts S256x256) (k q : Fin 256) :
    shapeCast S256x256 (extractStridedSlice S1x256x256 ![0, 0, 0] w hs) hc (ix2 k q) = w (ix3 (0 : Fin 2) k q) :=
  (shapeCast_1ab_ab_apply _ hc k q).trans
    (extractStridedSlice_apply ![0, 0, 0] w hs (ix3 (0 : Fin 1) k q) (ix3 (0 : Fin 2) k q) (fun ax => by
      match ax with
      | ⟨0, _⟩ => rfl
      | ⟨1, _⟩ => exact (Nat.zero_add _).symm
      | ⟨2, _⟩ => exact (Nat.zero_add _).symm))

/-- Slab 1 of `w` as a matrix: entry `(k, q)` is `w[1, k, q]`. -/
theorem slab1_apply (w : S2x256x256.Idx → α) (hs : S2x256x256.Slices ![1, 0, 0] S1x256x256)
    (hc : S1x256x256.ShapeCasts S256x256) (k q : Fin 256) :
    shapeCast S256x256 (extractStridedSlice S1x256x256 ![1, 0, 0] w hs) hc (ix2 k q) = w (ix3 (1 : Fin 2) k q) :=
  (shapeCast_1ab_ab_apply _ hc k q).trans
    (extractStridedSlice_apply ![1, 0, 0] w hs (ix3 (0 : Fin 1) k q) (ix3 (1 : Fin 2) k q) (fun ax => by
      match ax with
      | ⟨0, _⟩ => rfl
      | ⟨1, _⟩ => exact (Nat.zero_add _).symm
      | ⟨2, _⟩ => exact (Nat.zero_add _).symm))

/-- A [256] vector made a one-row matrix: entry `(0, q)` is `u[q]`. -/
theorem row_apply (u : S256.Idx → α) (hc : S256.ShapeCasts S1x256) (z : Fin 1) (q : Fin 256) :
    shapeCast S1x256 u hc (ix2 z q) = u (ix1 q) :=
  shapeCast_a_1a_apply u hc z q

end

end Cert.Layout
-- ==== Proof.LayoutBias.lean ====
import proofs.«101913_j61426622267687_2_alg».proof.KernelIdeal
import Idealize.ShloMosaic.Lib.ValueLayout

namespace Cert.Layout

open Idealize.ShloMosaic Idealize.ShloMosaic.ValueIdx Cert.KernelIdeal

/-! # The folded bias row read at an entry

Four [256] vectors laid end to end in a [1024] vector and made a [1, 1024] row: entry `(0, q + 256·j)` is entry `q`
of the `j`-th vector. With the vectors the four gates' folded biases, `bc_j + b_j` entrywise, that entry is
`bc_j[q] + b_j[q]`, a sum of extended reals. -/

section
variable {α : Type}

/-- Entries 0 … 255 of four [256] vectors laid end to end are the first of them. -/
theorem cat4_vec_apply_0 (s0 s1 s2 s3 : S256.Idx → α) (hcat : Shape.Concatenates [S256, S256, S256, S256] S1024 0)
    (q : Fin 256) (col : Fin 1024) (hcol : col.val = q.val + 0) :
    concatenate S1024 0 [⟨S256, s0⟩, ⟨S256, s1⟩, ⟨S256, s2⟩, ⟨S256, s3⟩] hcat (ix1 col) = s0 (ix1 q) :=
  concatenate_apply_piece (t := S1024) 0 [⟨S256, s0⟩, ⟨S256, s1⟩, ⟨S256, s2⟩, ⟨S256, s3⟩] hcat (ix1 col)
    0 (by show 0 < 4; omega) S256 s0 rfl rfl 0 rfl (ix1 q)
    (fun ax hax => by
      match ax with
      | ⟨0, _⟩ => exact absurd rfl hax)
    (by show 0 + q.val = col.val; omega)

/-- The same vector made a [1, 1024] row, read at `(0, col)`. -/
theorem cat4_row_apply_0 (s0 s1 s2 s3 : S256.Idx → α) (hcat : Shape.Concatenates [S256, S256, S256, S256] S1024 0)
    (hc : S1024.ShapeCasts S1x1024) (z : Fin 1) (q : Fin 256) (col : Fin 1024) (hcol : col.val = q.val + 0) :
    shapeCast S1x1024 (concatenate S1024 0 [⟨S256, s0⟩, ⟨S256, s1⟩, ⟨S256, s2⟩, ⟨S256, s3⟩] hcat) hc (ix2 z col) = s0 (ix1 q) :=
  (shapeCast_a_1a_apply _ hc z col).trans (cat4_vec_apply_0 s0 s1 s2 s3 hcat q col hcol)

/-- Entries 256 … 511 of four [256] vectors laid end to end are the second of them. -/
theorem cat4_vec_apply_1 (s0 s1 s2 s3 : S256.Idx → α) (hcat : Shape.Concatenates [S256, S256, S256, S256] S1024 0)
    (q : Fin 256) (col : Fin 1024) (hcol : col.val = q.val + 256) :
    concatenate S1024 0 [⟨S256, s0⟩, ⟨S256, s1⟩, ⟨S256, s2⟩, ⟨S256, s3⟩] hcat (ix1 col) = s1 (ix1 q) :=
  concatenate_apply_piece (t := S1024) 0 [⟨S256, s0⟩, ⟨S256, s1⟩, ⟨S256, s2⟩, ⟨S256, s3⟩] hcat (ix1 col)
    1 (by show 1 < 4; omega) S256 s1 rfl rfl 256 rfl (ix1 q)
    (fun ax hax => by
      match ax with
      | ⟨0, _⟩ => exact absurd rfl hax)
    (by show 256 + q.val = col.val; omega)

/-- The same vector made a [1, 1024] row, read at `(0, col)`. -/
theorem cat4_row_apply_1 (s0 s1 s2 s3 : S256.Idx → α) (hcat : Shape.Concatenates [S256, S256, S256, S256] S1024 0)
    (hc : S1024.ShapeCasts S1x1024) (z : Fin 1) (q : Fin 256) (col : Fin 1024) (hcol : col.val = q.val + 256) :
    shapeCast S1x1024 (concatenate S1024 0 [⟨S256, s0⟩, ⟨S256, s1⟩, ⟨S256, s2⟩, ⟨S256, s3⟩] hcat) hc (ix2 z col) = s1 (ix1 q) :=
  (shapeCast_a_1a_apply _ hc z col).trans (cat4_vec_apply_1 s0 s1 s2 s3 hcat q col hcol)

/-- Entries 512 … 767 of four [256] vectors laid end to end are the third of them. -/
theorem cat4_vec_apply_2 (s0 s1 s2 s3 : S256.Idx → α) (hcat : Shape.Concatenates [S256, S256, S256, S256] S1024 0)
    (q : Fin 256) (col : Fin 1024) (hcol : col.val = q.val + 512) :
    concatenate S1024 0 [⟨S256, s0⟩, ⟨S256, s1⟩, ⟨S256, s2⟩, ⟨S256, s3⟩] hcat (ix1 col) = s2 (ix1 q) :=
  concatenate_apply_piece (t := S1024) 0 [⟨S256, s0⟩, ⟨S256, s1⟩, ⟨S256, s2⟩, ⟨S256, s3⟩] hcat (ix1 col)
    2 (by show 2 < 4; omega) S256 s2 rfl rfl 512 rfl (ix1 q)
    (fun ax hax => by
      match ax with
      | ⟨0, _⟩ => exact absurd rfl hax)
    (by show 512 + q.val = col.val; omega)

/-- The same vector made a [1, 1024] row, read at `(0, col)`. -/
theorem cat4_row_apply_2 (s0 s1 s2 s3 : S256.Idx → α) (hcat : Shape.Concatenates [S256, S256, S256, S256] S1024 0)
    (hc : S1024.ShapeCasts S1x1024) (z : Fin 1) (q : Fin 256) (col : Fin 1024) (hcol : col.val = q.val + 512) :
    shapeCast S1x1024 (concatenate S1024 0 [⟨S256, s0⟩, ⟨S256, s1⟩, ⟨S256, s2⟩, ⟨S256, s3⟩] hcat) hc (ix2 z col) = s2 (ix1 q) :=
  (shapeCast_a_1a_apply _ hc z col).trans (cat4_vec_apply_2 s0 s1 s2 s3 hcat q col hcol)

/-- Entries 768 … 1023 of four [256] vectors laid end to end are the fourth of them. -/
theorem cat4_vec_apply_3 (s0 s1 s2 s3 : S256.Idx → α) (hcat : Shape.Concatenates [S256, S256, S256, S256] S1024 0)
    (q : Fin 256) (col : Fin 1024) (hcol : col.val = q.val + 768) :
    concatenate S1024 0 [⟨S256, s0⟩, ⟨S256, s1⟩, ⟨S256, s2⟩, ⟨S256, s3⟩] hcat (ix1 col) = s3 (ix1 q) :=
  concatenate_apply_piece (t := S1024) 0 [⟨S256, s0⟩, ⟨S256, s1⟩, ⟨S256, s2⟩, ⟨S256, s3⟩] hcat (ix1 col)
    3 (by show 3 < 4; omega) S256 s3 rfl rfl 768 rfl (ix1 q)
    (fun ax hax => by
      match ax with
      | ⟨0, _⟩ => exact absurd rfl hax)
    (by show 768 + q.val = col.val; omega)

/-- The same vector made a [1, 1024] row, read at `(0, col)`. -/
theorem cat4_row_apply_3 (s0 s1 s2 s3 : S256.Idx → α) (hcat : Shape.Concatenates [S256, S256, S256, S256] S1024 0)
    (hc : S1024.ShapeCasts S1x1024) (z : Fin 1) (q : Fin 256) (col : Fin 1024) (hcol : col.val = q.val + 768) :
    shapeCast S1x1024 (concatenate S1024 0 [⟨S256, s0⟩, ⟨S256, s1⟩, ⟨S256, s2⟩, ⟨S256, s3⟩] hcat) hc (ix2 z col) = s3 (ix1 q) :=
  (shapeCast_a_1a_apply _ hc z col).trans (cat4_vec_apply_3 s0 s1 s2 s3 hcat q col hcol)

end

/-- Entries 0 … 255 of the folded bias row are `bc0 + b0`. -/
theorem bias_row_apply_0 (bc0 b0 bc1 b1 bc2 b2 bc3 b3 : (⟨S256, .f32⟩ : BufTy).Contents (Elt Ideal))
    (hcat : Shape.Concatenates [S256, S256, S256, S256] S1024 0) (hc : S1024.ShapeCasts S1x1024)
    (z : Fin 1) (q : Fin 256) (col : Fin 1024) (hcol : col.val = q.val + 0) :
    shapeCast S1x1024 (concatenate S1024 0 [⟨S256, addf (F := Ideal) (φ := .f32) bc0 b0⟩, ⟨S256, addf (F := Ideal) (φ := .f32) bc1 b1⟩, ⟨S256, addf (F := Ideal) (φ := .f32) bc2 b2⟩, ⟨S256, addf (F := Ideal) (φ := .f32) bc3 b3⟩] hcat) hc (ix2 z col)
      = bc0 (ix1 q) + b0 (ix1 q) :=
  cat4_row_apply_0 _ _ _ _ hcat hc z q col hcol

/-- The same at the entry written out, `(0, q + 0)`. -/
theorem bias_row_0 (bc0 b0 bc1 b1 bc2 b2 bc3 b3 : (⟨S256, .f32⟩ : BufTy).Contents (Elt Ideal))
    (hcat : Shape.Concatenates [S256, S256, S256, S256] S1024 0) (hc : S1024.ShapeCasts S1x1024) (q : Fin 256) :
    shapeCast S1x1024 (concatenate S1024 0 [⟨S256, addf (F := Ideal) (φ := .f32) bc0 b0⟩, ⟨S256, addf (F := Ideal) (φ := .f32) bc1 b1⟩, ⟨S256, addf (F := Ideal) (φ := .f32) bc2 b2⟩, ⟨S256, addf (F := Ideal) (φ := .f32) bc3 b3⟩] hcat) hc (ix2 (0 : Fin 1) (⟨q.val + 0, by omega⟩ : Fin 1024))
      = bc0 (ix1 q) + b0 (ix1 q) :=
  bias_row_apply_0 bc0 b0 bc1 b1 bc2 b2 bc3 b3 hcat hc 0 q _ rfl

/-- Entries 256 … 511 of the folded bias row are `bc1 + b1`. -/
theorem bias_row_apply_1 (bc0 b0 bc1 b1 bc2 b2 bc3 b3 : (⟨S256, .f32⟩ : BufTy).Contents (Elt Ideal))
    (hcat : Shape.Concatenates [S256, S256, S256, S256] S1024 0) (hc : S1024.ShapeCasts S1x1024)
    (z : Fin 1) (q : Fin 256) (col : Fin 1024) (hcol : col.val = q.val + 256) :
    shapeCast S1x1024 (concatenate S1024 0 [⟨S256, addf (F := Ideal) (φ := .f32) bc0 b0⟩, ⟨S256, addf (F := Ideal) (φ := .f32) bc1 b1⟩, ⟨S256, addf (F := Ideal) (φ := .f32) bc2 b2⟩, ⟨S256, addf (F := Ideal) (φ := .f32) bc3 b3⟩] hcat) hc (ix2 z col)
      = bc1 (ix1 q) + b1 (ix1 q) :=
  cat4_row_apply_1 _ _ _ _ hcat hc z q col hcol

/-- The same at the entry written out, `(0, q + 256)`. -/
theorem bias_row_1 (bc0 b0 bc1 b1 bc2 b2 bc3 b3 : (⟨S256, .f32⟩ : BufTy).Contents (Elt Ideal))
    (hcat : Shape.Concatenates [S256, S256, S256, S256] S1024 0) (hc : S1024.ShapeCasts S1x1024) (q : Fin 256) :
    shapeCast S1x1024 (concatenate S1024 0 [⟨S256, addf (F := Ideal) (φ := .f32) bc0 b0⟩, ⟨S256, addf (F := Ideal) (φ := .f32) bc1 b1⟩, ⟨S256, addf (F := Ideal) (φ := .f32) bc2 b2⟩, ⟨S256, addf (F := Ideal) (φ := .f32) bc3 b3⟩] hcat) hc (ix2 (0 : Fin 1) (⟨q.val + 256, by omega⟩ : Fin 1024))
      = bc1 (ix1 q) + b1 (ix1 q) :=
  bias_row_apply_1 bc0 b0 bc1 b1 bc2 b2 bc3 b3 hcat hc 0 q _ rfl

/-- Entries 512 … 767 of the folded bias row are `bc2 + b2`. -/
theorem bias_row_apply_2 (bc0 b0 bc1 b1 bc2 b2 bc3 b3 : (⟨S256, .f32⟩ : BufTy).Contents (Elt Ideal))
    (hcat : Shape.Concatenates [S256, S256, S256, S256] S1024 0) (hc : S1024.ShapeCasts S1x1024)
    (z : Fin 1) (q : Fin 256) (col : Fin 1024) (hcol : col.val = q.val + 512) :
    shapeCast S1x1024 (concatenate S1024 0 [⟨S256, addf (F := Ideal) (φ := .f32) bc0 b0⟩, ⟨S256, addf (F := Ideal) (φ := .f32) bc1 b1⟩, ⟨S256, addf (F := Ideal) (φ := .f32) bc2 b2⟩, ⟨S256, addf (F := Ideal) (φ := .f32) bc3 b3⟩] hcat) hc (ix2 z col)
      = bc2 (ix1 q) + b2 (ix1 q) :=
  cat4_row_apply_2 _ _ _ _ hcat hc z q col hcol

/-- The same at the entry written out, `(0, q + 512)`. -/
theorem bias_row_2 (bc0 b0 bc1 b1 bc2 b2 bc3 b3 : (⟨S256, .f32⟩ : BufTy).Contents (Elt Ideal))
    (hcat : Shape.Concatenates [S256, S256, S256, S256] S1024 0) (hc : S1024.ShapeCasts S1x1024) (q : Fin 256) :
    shapeCast S1x1024 (concatenate S1024 0 [⟨S256, addf (F := Ideal) (φ := .f32) bc0 b0⟩, ⟨S256, addf (F := Ideal) (φ := .f32) bc1 b1⟩, ⟨S256, addf (F := Ideal) (φ := .f32) bc2 b2⟩, ⟨S256, addf (F := Ideal) (φ := .f32) bc3 b3⟩] hcat) hc (ix2 (0 : Fin 1) (⟨q.val + 512, by omega⟩ : Fin 1024))
      = bc2 (ix1 q) + b2 (ix1 q) :=
  bias_row_apply_2 bc0 b0 bc1 b1 bc2 b2 bc3 b3 hcat hc 0 q _ rfl

/-- Entries 768 … 1023 of the folded bias row are `bc3 + b3`. -/
theorem bias_row_apply_3 (bc0 b0 bc1 b1 bc2 b2 bc3 b3 : (⟨S256, .f32⟩ : BufTy).Contents (Elt Ideal))
    (hcat : Shape.Concatenates [S256, S256, S256, S256] S1024 0) (hc : S1024.ShapeCasts S1x1024)
    (z : Fin 1) (q : Fin 256) (col : Fin 1024) (hcol : col.val = q.val + 768) :
    shapeCast S1x1024 (concatenate S1024 0 [⟨S256, addf (F := Ideal) (φ := .f32) bc0 b0⟩, ⟨S256, addf (F := Ideal) (φ := .f32) bc1 b1⟩, ⟨S256, addf (F := Ideal) (φ := .f32) bc2 b2⟩, ⟨S256, addf (F := Ideal) (φ := .f32) bc3 b3⟩] hcat) hc (ix2 z col)
      = bc3 (ix1 q) + b3 (ix1 q) :=
  cat4_row_apply_3 _ _ _ _ hcat hc z q col hcol

/-- The same at the entry written out, `(0, q + 768)`. -/
theorem bias_row_3 (bc0 b0 bc1 b1 bc2 b2 bc3 b3 : (⟨S256, .f32⟩ : BufTy).Contents (Elt Ideal))
    (hcat : Shape.Concatenates [S256, S256, S256, S256] S1024 0) (hc : S1024.ShapeCasts S1x1024) (q : Fin 256) :
    shapeCast S1x1024 (concatenate S1024 0 [⟨S256, addf (F := Ideal) (φ := .f32) bc0 b0⟩, ⟨S256, addf (F := Ideal) (φ := .f32) bc1 b1⟩, ⟨S256, addf (F := Ideal) (φ := .f32) bc2 b2⟩, ⟨S256, addf (F := Ideal) (φ := .f32) bc3 b3⟩] hcat) hc (ix2 (0 : Fin 1) (⟨q.val + 768, by omega⟩ : Fin 1024))
      = bc3 (ix1 q) + b3 (ix1 q) :=
  bias_row_apply_3 bc0 b0 bc1 b1 bc2 b2 bc3 b3 hcat hc 0 q _ rfl

end Cert.Layout
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.PayloadMatmul.lean ====
/-
  The body's two kinds of matrix product, read at an entry.

  Both contract the left operand's second axis with the right operand's first and accumulate into zero, so at the
  ideal values entry (p, c) is the plain sum over the 256 inner coordinates of left[p, k] * right[k, c]: once for the
  wide product of a [1200, 256] block with a [256, 1024] weight, once for the readout's [1200, 256] by [256, 256].
  The four facts about each dimension record say which coordinate of an operand index comes from the output index
  and which from the contraction index.
-/
import proofs.«101913_j61426622267687_2_alg».proof.Proof.Gen.KernelIdeal.Skeleton
import proofs.«101913_j61426622267687_2_alg».proof.Proof.LibMatmulSum

noncomputable section

namespace Cert.Payload

open Idealize.ShloMosaic Idealize.ShloMosaic.ValueIdx Cert.KernelIdeal

/-! ## The wide product's dimension record -/

/-- The left operand's row coordinate is the output's row. -/
theorem wide_lhs0 (i : S1200x1024.Idx) (q : dot_S1200x256_S256x1024_S1200x1024_1_0_0_1_n_n.contr.Idx) : (dot_S1200x256_S256x1024_S1200x1024_1_0_0_1_n_n.lhsIdx i q 0).val = (i 0).val := by
  unfold DotDims.lhsIdx
  rw [dif_neg (show ¬(0 : Fin S1200x256.rank) ∈ dot_S1200x256_S256x1024_S1200x1024_1_0_0_1_n_n.lhsBatch by decide),
    dif_pos (show (0 : Fin S1200x256.rank) ∈ dot_S1200x256_S256x1024_S1200x1024_1_0_0_1_n_n.lhsNonContracting by decide)]
  rfl
/-- The left operand's column coordinate is the contraction coordinate. -/
theorem wide_lhs1 (i : S1200x1024.Idx) (q : dot_S1200x256_S256x1024_S1200x1024_1_0_0_1_n_n.contr.Idx) : (dot_S1200x256_S256x1024_S1200x1024_1_0_0_1_n_n.lhsIdx i q 1).val = (q ⟨0, by decide⟩).val :=
  dot_S1200x256_S256x1024_S1200x1024_1_0_0_1_n_n.lhsIdx_val_of_single rfl i q
/-- The right operand's row coordinate is the contraction coordinate. -/
theorem wide_rhs0 (i : S1200x1024.Idx) (q : dot_S1200x256_S256x1024_S1200x1024_1_0_0_1_n_n.contr.Idx) : (dot_S1200x256_S256x1024_S1200x1024_1_0_0_1_n_n.rhsIdx i q 0).val = (q ⟨0, by decide⟩).val :=
  dot_S1200x256_S256x1024_S1200x1024_1_0_0_1_n_n.rhsIdx_val_of_single rfl i q
/-- The right operand's column coordinate is the output's column. -/
theorem wide_rhs1 (i : S1200x1024.Idx) (q : dot_S1200x256_S256x1024_S1200x1024_1_0_0_1_n_n.contr.Idx) : (dot_S1200x256_S256x1024_S1200x1024_1_0_0_1_n_n.rhsIdx i q 1).val = (i 1).val := by
  unfold DotDims.rhsIdx
  rw [dif_neg (show ¬(1 : Fin S256x1024.rank) ∈ dot_S1200x256_S256x1024_S1200x1024_1_0_0_1_n_n.rhsBatch by decide),
    dif_pos (show (1 : Fin S256x1024.rank) ∈ dot_S1200x256_S256x1024_S1200x1024_1_0_0_1_n_n.rhsNonContracting by decide)]
  rfl

/-- The wide product of a block of rows with a concatenated weight, into zero, at entry (p, c): the sum over k of
    left[p, k] * right[k, c]. -/
theorem wide_matmul_apply (l : FVec Ideal S1200x256 .f32) (r : FVec Ideal S256x1024 .f32) (p : Fin 1200) (c : Fin 1024) :
    matmul dot_S1200x256_S256x1024_S1200x1024_1_0_0_1_n_n (some .fp32) l r (constant (F := Ideal) S1200x1024 .f32 0x00000000#32) (ix2 p c)
      = ∑ k : Fin 256, l (ix2 p k) * r (ix2 k c) :=
  Cert.GraphConv.matmul_zero_sum (R := 1200) (K := 256) (N := 1024) dot_S1200x256_S256x1024_S1200x1024_1_0_0_1_n_n (some .fp32) rfl rfl
    wide_lhs0 wide_lhs1 wide_rhs0 wide_rhs1 l r (ix2 p c)

/-! ## The readout product's dimension record -/

/-- The left operand's row coordinate is the output's row. -/
theorem square_lhs0 (i : S1200x256.Idx) (q : dot_S1200x256_S256x256_S1200x256_1_0_0_1_n_n.contr.Idx) : (dot_S1200x256_S256x256_S1200x256_1_0_0_1_n_n.lhsIdx i q 0).val = (i 0).val := by
  unfold DotDims.lhsIdx
  rw [dif_neg (show ¬(0 : Fin S1200x256.rank) ∈ dot_S1200x256_S256x256_S1200x256_1_0_0_1_n_n.lhsBatch by decide),
    dif_pos (show (0 : Fin S1200x256.rank) ∈ dot_S1200x256_S256x256_S1200x256_1_0_0_1_n_n.lhsNonContracting by decide)]
  rfl
/-- The left operand's column coordinate is the contraction coordinate. -/
theorem square_lhs1 (i : S1200x256.Idx) (q : dot_S1200x256_S256x256_S1200x256_1_0_0_1_n_n.contr.Idx) : (dot_S1200x256_S256x256_S1200x256_1_0_0_1_n_n.lhsIdx i q 1).val = (q ⟨0, by decide⟩).val :=
  dot_S1200x256_S256x256_S1200x256_1_0_0_1_n_n.lhsIdx_val_of_single rfl i q
/-- The right operand's row coordinate is the contraction coordinate. -/
theorem square_rhs0 (i : S1200x256.Idx) (q : dot_S1200x256_S256x256_S1200x256_1_0_0_1_n_n.contr.Idx) : (dot_S1200x256_S256x256_S1200x256_1_0_0_1_n_n.rhsIdx i q 0).val = (q ⟨0, by decide⟩).val :=
  dot_S1200x256_S256x256_S1200x256_1_0_0_1_n_n.rhsIdx_val_of_single rfl i q
/-- The right operand's column coordinate is the output's column. -/
theorem square_rhs1 (i : S1200x256.Idx) (q : dot_S1200x256_S256x256_S1200x256_1_0_0_1_n_n.contr.Idx) : (dot_S1200x256_S256x256_S1200x256_1_0_0_1_n_n.rhsIdx i q 1).val = (i 1).val := by
  unfold DotDims.rhsIdx
  rw [dif_neg (show ¬(1 : Fin S256x256.rank) ∈ dot_S1200x256_S256x256_S1200x256_1_0_0_1_n_n.rhsBatch by decide),
    dif_pos (show (1 : Fin S256x256.rank) ∈ dot_S1200x256_S256x256_S1200x256_1_0_0_1_n_n.rhsNonContracting by decide)]
  rfl

/-- The readout's product of a block of rows with the square weight, into zero, at entry (p, c). -/
theorem square_matmul_apply (l : FVec Ideal S1200x256 .f32) (r : FVec Ideal S256x256 .f32) (p : Fin 1200) (c : Fin 256) :
    matmul dot_S1200x256_S256x256_S1200x256_1_0_0_1_n_n (some .fp32) l r (constant (F := Ideal) S1200x256 .f32 0x00000000#32) (ix2 p c)
      = ∑ k : Fin 256, l (ix2 p k) * r (ix2 k c) :=
  Cert.GraphConv.matmul_zero_sum (R := 1200) (K := 256) (N := 256) dot_S1200x256_S256x256_S1200x256_1_0_0_1_n_n (some .fp32) rfl rfl
    square_lhs0 square_lhs1 square_rhs0 square_rhs1 l r (ix2 p c)

end Cert.Payload

end
-- ==== Proof.PayloadPre.lean ====
/-
  The body's wide pre-activation and its four gate streams, read at an entry.

  The body multiplies the block of features, the block of hidden states and the block of the Chebyshev term with
  three [256, 1024] weights, adds the three products as (X + H) + T and then the [1, 1024] bias row broadcast over
  the rows. Entry (p, c) of the result is therefore

      ((Σ_k x[p,k]·wx[k,c] + Σ_k h[p,k]·wh0[k,c]) + Σ_k t[p,k]·wh1[k,c]) + bias[0,c].

  Gate stream j (0 the input gate, 1 the forget gate, 2 the candidate, 3 the output gate) is the slice of columns
  256·j … 256·j + 255: its entry (p, q) is the wide pre-activation at (p, q + 256·j).
-/
import proofs.«101913_j61426622267687_2_alg».proof.Proof.Gen.KernelIdeal.Skeleton
import proofs.«101913_j61426622267687_2_alg».proof.Proof.PayloadMatmul
import Idealize.ShloMosaic.Lib.ValueLayout

noncomputable section

namespace Cert.Payload

open Idealize.ShloMosaic Idealize.ShloMosaic.ValueIdx Cert.KernelIdeal Cert.KernelIdeal.Gen

/-- Column q of the input gate's stream in a 1024-wide operand. -/
abbrev colI (q : Fin 256) : Fin 1024 := ⟨q.val, by omega⟩
/-- Column q of the forget gate's stream. -/
abbrev colF (q : Fin 256) : Fin 1024 := ⟨q.val + 256, by omega⟩
/-- Column q of the candidate's stream. -/
abbrev colG (q : Fin 256) : Fin 1024 := ⟨q.val + 512, by omega⟩
/-- Column q of the output gate's stream. -/
abbrev colO (q : Fin 256) : Fin 1024 := ⟨q.val + 768, by omega⟩

variable (x0 h0 t0 : Vec Ideal S1200x256 .f32) (wx wh0 wh1 : Vec Ideal S256x1024 .f32) (bias : Vec Ideal S1x1024 .f32)

/-- The wide pre-activation at entry (p, c), as a function of the operands' entries. -/
def preAt (p : Fin 1200) (c : Fin 1024) : EReal :=
  ((∑ k : Fin 256, x0 (ix2 p k) * wx (ix2 k c) + ∑ k : Fin 256, h0 (ix2 p k) * wh0 (ix2 k c))
    + ∑ k : Fin 256, t0 (ix2 p k) * wh1 (ix2 k c)) + bias (ix2 (0 : Fin 1) c)

/-- The wide pre-activation read at (p, c): three sums over the inner coordinate, grouped (X + H) + T, plus the
    bias row at c. -/
theorem pre_apply (p : Fin 1200) (c : Fin 1024) :
    k0_pay4 x0 h0 t0 wx wh0 wh1 bias (ix2 p c) = preAt x0 h0 t0 wx wh0 wh1 bias p c := by
  unfold k0_pay4 preAt
  simp only [shapeCast_self]
  rw [addf_apply, addf_apply, addf_apply, wide_matmul_apply, wide_matmul_apply, wide_matmul_apply,
    broadcastTo_1b_ab_apply]

/-- The input gate's stream (columns from 0) at (p, q). -/
theorem streamI_apply (p : Fin 1200) (q : Fin 256) :
    extractStridedSlice S1200x256 ![0, 0] (k0_pay4 x0 h0 t0 wx wh0 wh1 bias) slices_S1200x1024_o0_0_S1200x256 (ix2 p q)
      = preAt x0 h0 t0 wx wh0 wh1 bias p (colI q) :=
  (slice2_axis1_apply 0 _ slices_S1200x1024_o0_0_S1200x256 p q (colI q) (Nat.zero_add _).symm).trans (pre_apply x0 h0 t0 wx wh0 wh1 bias p (colI q))

/-- The forget gate's stream (columns from 256) at (p, q). -/
theorem streamF_apply (p : Fin 1200) (q : Fin 256) :
    extractStridedSlice S1200x256 ![0, 256] (k0_pay4 x0 h0 t0 wx wh0 wh1 bias) slices_S1200x1024_o0_256_S1200x256 (ix2 p q)
      = preAt x0 h0 t0 wx wh0 wh1 bias p (colF q) :=
  (slice2_axis1_apply 256 _ slices_S1200x1024_o0_256_S1200x256 p q (colF q) (Nat.add_comm _ _)).trans (pre_apply x0 h0 t0 wx wh0 wh1 bias p (colF q))

/-- The candidate's stream (columns from 512) at (p, q): the body carries it on as a value of its own. -/
theorem streamG_apply (p : Fin 1200) (q : Fin 256) :
    k0_pay5 x0 h0 t0 wx wh0 wh1 bias (ix2 p q) = preAt x0 h0 t0 wx wh0 wh1 bias p (colG q) :=
  (slice2_axis1_apply 512 _ slices_S1200x1024_o0_512_S1200x256 p q (colG q) (Nat.add_comm _ _)).trans (pre_apply x0 h0 t0 wx wh0 wh1 bias p (colG q))

/-- The output gate's stream (columns from 768) at (p, q). -/
theorem streamO_apply (p : Fin 1200) (q : Fin 256) :
    k0_pay6 x0 h0 t0 wx wh0 wh1 bias (ix2 p q) = preAt x0 h0 t0 wx wh0 wh1 bias p (colO q) :=
  (slice2_axis1_apply 768 _ slices_S1200x1024_o0_768_S1200x256 p q (colO q) (Nat.add_comm _ _)).trans (pre_apply x0 h0 t0 wx wh0 wh1 bias p (colO q))

end Cert.Payload

end
-- ==== Proof.Cell.lean ====
/-
  The cell this certificate is about, as mathematics, on the extended reals.

  A graph-convolutional LSTM cell over N = 30000 nodes with D = 256 features. Given the augmented node
  features `xa`, the hidden state `h`, the cell state `cc` and the first Chebyshev term `t1` (one copy per gate,
  since the reference recomputes it for each), the four gates are

    conv W W0 W1 bc t1 = xa·W + ((h·W0 + t1·W1) + bc)
    i = σ((conv_i + w_ci ∘ cc) + b_i)        f = σ((conv_f + w_cf ∘ cc) + b_f)
    g = tanh(conv_g + b_g)                    c' = f ∘ cc + i ∘ g
    o = σ((conv_o + w_co ∘ c') + b_o)         h0 = o ∘ tanh c'
    h_out = max(h0, 0)·W_lin + b_lin

  with `·` the matrix product (a sum over the 256 inner coordinates), `∘` the entrywise product and `σ` the logistic
  function. Everything is grouped exactly as the reference groups it; the kernel's grouping differs only by
  associativity and commutativity of `+`, which hold on all of the extended reals, so no finiteness is needed.
-/
import Idealize.ShloMosaic.PureOps.Ideal
import Idealize.ShloMosaic.Lib.ValueIdx

noncomputable section

namespace Cert.Cell

open Idealize.ShloMosaic

/-- A matrix of extended reals read at a row and a column. -/
abbrev Mx (R C : ℕ) := Fin R → Fin C → EReal

/-- A 2-D array of the printed programs (a function of its index) as a matrix: row `r`, column `c`. -/
def toMx {R C : ℕ} (a : (⟨2, ![R, C]⟩ : Shape).Idx → EReal) : Mx R C := fun r c => a (ValueIdx.ix2 r c)

/-- A 1-D array as a function of its one coordinate. -/
def toVec {C : ℕ} (a : (⟨1, ![C]⟩ : Shape).Idx → EReal) : Fin C → EReal := fun c => a (ValueIdx.ix1 c)

/-- Slab `s` of a [2, R, C] array as a matrix. -/
def slab {R C : ℕ} (a : (⟨3, ![2, R, C]⟩ : Shape).Idx → EReal) (s : Fin 2) : Mx R C := fun r c => a (ValueIdx.ix3 s r c)

/-- The matrix product: entry (r, c) is the sum over the inner coordinate. -/
def mm {R K C : ℕ} (a : Mx R K) (b : Mx K C) : Mx R C := fun r c => ∑ k : Fin K, a r k * b k c

variable {N D : ℕ}

/-- One gate's convolution term, grouped as the reference groups it. -/
def conv (xa h t1 : Mx N D) (W W0 W1 : Mx D D) (bc : Fin D → EReal) : Mx N D :=
  fun r c => mm xa W r c + ((mm h W0 r c + mm t1 W1 r c) + bc c)

/-- A gate with a peephole term `w ∘ p`: σ((conv + w ∘ p) + b). -/
def peepGate (cv : Mx N D) (w : Fin D → EReal) (p : Mx N D) (b : Fin D → EReal) : Mx N D :=
  fun r c => Ideal.logistic ((cv r c + w c * p r c) + b c)

/-- The candidate gate: tanh(conv + b). -/
def candGate (cv : Mx N D) (b : Fin D → EReal) : Mx N D := fun r c => Ideal.tanh (cv r c + b c)

/-- The new cell state f ∘ cc + i ∘ g. -/
def cellNew (f cc i g : Mx N D) : Mx N D := fun r c => f r c * cc r c + i r c * g r c

/-- The hidden output o ∘ tanh c'. -/
def hidden (o cn : Mx N D) : Mx N D := fun r c => o r c * Ideal.tanh (cn r c)

/-- The readout max(h0, 0)·W_lin + b_lin. -/
def readout (h0 : Mx N D) (Wl : Mx D D) (bl : Fin D → EReal) : Mx N D :=
  fun r c => mm (fun r k => max (h0 r k) 0) Wl r c + bl c

/-- Everything the cell takes besides the augmented features and the Chebyshev term. -/
structure Params (N D : ℕ) where
  h : Mx N D
  cc : Mx N D
  Wi : Mx D D
  Wf : Mx D D
  Wg : Mx D D
  Wo : Mx D D
  Wci : Fin 2 → Mx D D
  Wcf : Fin 2 → Mx D D
  Wcg : Fin 2 → Mx D D
  Wco : Fin 2 → Mx D D
  bci : Fin D → EReal
  bcf : Fin D → EReal
  bcg : Fin D → EReal
  bco : Fin D → EReal
  wci : Fin D → EReal
  wcf : Fin D → EReal
  wco : Fin D → EReal
  bi : Fin D → EReal
  bf : Fin D → EReal
  bg : Fin D → EReal
  bo : Fin D → EReal
  Wl : Mx D D
  bl : Fin D → EReal

variable (P : Params N D) (xa t1i t1f t1g t1o : Mx N D)

def gI : Mx N D := peepGate (conv xa P.h t1i P.Wi (P.Wci 0) (P.Wci 1) P.bci) P.wci P.cc P.bi
def gF : Mx N D := peepGate (conv xa P.h t1f P.Wf (P.Wcf 0) (P.Wcf 1) P.bcf) P.wcf P.cc P.bf
def gG : Mx N D := candGate (conv xa P.h t1g P.Wg (P.Wcg 0) (P.Wcg 1) P.bcg) P.bg
/-- The new cell state (the third result). -/
def cNew : Mx N D := cellNew (gF P xa t1f) P.cc (gI P xa t1i) (gG P xa t1g)
def gO : Mx N D := peepGate (conv xa P.h t1o P.Wo (P.Wco 0) (P.Wco 1) P.bco) P.wco (cNew P xa t1i t1f t1g) P.bo
/-- The hidden output before the readout (the second result). -/
def h0 : Mx N D := hidden (gO P xa t1i t1f t1g t1o) (cNew P xa t1i t1f t1g)
/-- The readout (the first result). -/
def hOut : Mx N D := readout (h0 P xa t1i t1f t1g t1o) P.Wl P.bl

/-! ## The cell's parameters from the programs' argument arrays -/

/-- The parameters read off the argument arrays, each over its literal shape: the states [30000, 256], the
    square weights [256, 256], the two-slab Chebyshev weights [2, 256, 256] and the vectors [256]. -/
def params
    (h cc : (⟨2, ![30000, 256]⟩ : Shape).Idx → EReal)
    (Wi Wf Wg Wo : (⟨2, ![256, 256]⟩ : Shape).Idx → EReal)
    (Wci Wcf Wcg Wco : (⟨3, ![2, 256, 256]⟩ : Shape).Idx → EReal)
    (bci bcf bcg bco wci wcf wco bi bf bg bo : (⟨1, ![256]⟩ : Shape).Idx → EReal)
    (Wl : (⟨2, ![256, 256]⟩ : Shape).Idx → EReal) (bl : (⟨1, ![256]⟩ : Shape).Idx → EReal) : Params 30000 256 where
  h := toMx h
  cc := toMx cc
  Wi := toMx Wi
  Wf := toMx Wf
  Wg := toMx Wg
  Wo := toMx Wo
  Wci := slab Wci
  Wcf := slab Wcf
  Wcg := slab Wcg
  Wco := slab Wco
  bci := toVec bci
  bcf := toVec bcf
  bcg := toVec bcg
  bco := toVec bco
  wci := toVec wci
  wcf := toVec wcf
  wco := toVec wco
  bi := toVec bi
  bf := toVec bf
  bg := toVec bg
  bo := toVec bo
  Wl := toMx Wl
  bl := toVec bl

end Cert.Cell

end
-- ==== Proof.PayloadAlgebra.lean ====
/-
  Two facts about the cell that need no program.

  First, the two groupings of a gate's pre-activation. Writing X, H, T for the three matrix products at an entry,
  bc for the convolution's bias, b for the gate's bias and wc for the peephole product, one arrangement adds the
  three products first, then the sum of the two biases, then the peephole product,

      (((X + H) + T) + (bc + b)) + wc,

  and the other nests the hidden and Chebyshev products with the convolution's bias and adds the gate's bias last,

      ((X + ((H + T) + bc)) + wc) + b.

  They are equal by associativity and commutativity of addition alone, which hold on all of the extended reals
  (the sum of ⊤ and ⊥ is ⊥ whatever the order), so nothing has to be finite.

  Second, row locality. Entry (r, c) of every gate, of the new cell state, of the hidden output and of the readout
  depends on the states, the features and the Chebyshev terms only through their row r (the matrix products sum over
  the inner coordinate of that row; everything else is entrywise). Hence a cell over N rows and a cell over N' rows
  with the same weights agree at rows r and r' whenever those rows of their row-indexed data agree: a cell
  evaluated on a block of rows is the whole cell restricted to that block.
-/
import proofs.«101913_j61426622267687_2_alg».proof.Proof.Cell

noncomputable section

namespace Cert.Payload

open Idealize.ShloMosaic Cert.Cell

/-! ## The two groupings of a pre-activation -/

/-- A peephole gate's pre-activation: products first, then both biases, then the peephole product, equals the
    nested grouping with the gate's bias added last. Associativity and commutativity of `+` only. -/
theorem regroup_peephole (X H T bc b wc : EReal) :
    (((X + H) + T) + (bc + b)) + wc = ((X + ((H + T) + bc)) + wc) + b := by
  rw [← add_assoc (X + H + T) bc b, add_right_comm (X + H + T + bc) b wc, add_assoc X H T, add_assoc X (H + T) bc]

/-- The candidate gate's pre-activation (no peephole product): the same regrouping. -/
theorem regroup_candidate (X H T bc b : EReal) :
    ((X + H) + T) + (bc + b) = (X + ((H + T) + bc)) + b := by
  rw [← add_assoc (X + H + T) bc b, add_assoc X H T, add_assoc X (H + T) bc]

/-! ## Row locality -/

variable {N N' D : ℕ}

/-- Two parameter records, over possibly different numbers of rows, have the same weights and vectors: every
    field except the two states. -/
structure SameWeights (P : Params N D) (P' : Params N' D) : Prop where
  Wi : P.Wi = P'.Wi
  Wf : P.Wf = P'.Wf
  Wg : P.Wg = P'.Wg
  Wo : P.Wo = P'.Wo
  Wci : P.Wci = P'.Wci
  Wcf : P.Wcf = P'.Wcf
  Wcg : P.Wcg = P'.Wcg
  Wco : P.Wco = P'.Wco
  bci : P.bci = P'.bci
  bcf : P.bcf = P'.bcf
  bcg : P.bcg = P'.bcg
  bco : P.bco = P'.bco
  wci : P.wci = P'.wci
  wcf : P.wcf = P'.wcf
  wco : P.wco = P'.wco
  bi : P.bi = P'.bi
  bf : P.bf = P'.bf
  bg : P.bg = P'.bg
  bo : P.bo = P'.bo
  Wl : P.Wl = P'.Wl
  bl : P.bl = P'.bl

/-- A matrix product's entry (r, c) depends on the left factor only through its row r. -/
theorem mm_row_local {K C : ℕ} (a : Mx N K) (a' : Mx N' K) (b : Mx K C) (r : Fin N) (r' : Fin N')
    (h : a r = a' r') (c : Fin C) : mm a b r c = mm a' b r' c := by
  show ∑ k : Fin K, a r k * b k c = ∑ k : Fin K, a' r' k * b k c
  rw [h]

/-- A gate's convolution term at (r, c) depends on the features, the hidden state and the Chebyshev term only
    through their rows r. -/
theorem conv_row_local (xa h t : Mx N D) (xa' h' t' : Mx N' D) (W W0 W1 : Mx D D) (bc : Fin D → EReal)
    (r : Fin N) (r' : Fin N') (hx : xa r = xa' r') (hh : h r = h' r') (ht : t r = t' r') (c : Fin D) :
    conv xa h t W W0 W1 bc r c = conv xa' h' t' W W0 W1 bc r' c := by
  show mm xa W r c + ((mm h W0 r c + mm t W1 r c) + bc c) = mm xa' W r' c + ((mm h' W0 r' c + mm t' W1 r' c) + bc c)
  rw [mm_row_local xa xa' W r r' hx c, mm_row_local h h' W0 r r' hh c, mm_row_local t t' W1 r r' ht c]

section
variable (P : Params N D) (P' : Params N' D) (hW : SameWeights P P')
  (xa t1i t1f t1g t1o : Mx N D) (xa' t1i' t1f' t1g' t1o' : Mx N' D) (r : Fin N) (r' : Fin N')
  (hx : xa r = xa' r') (hh : P.h r = P'.h r') (hc : P.cc r = P'.cc r')
include hW hx hh hc

/-- The input gate at row r of one cell is the input gate at row r' of the other. -/
theorem gI_row_local (hi : t1i r = t1i' r') (c : Fin D) : gI P xa t1i r c = gI P' xa' t1i' r' c := by
  show Ideal.logistic ((conv xa P.h t1i P.Wi (P.Wci 0) (P.Wci 1) P.bci r c + P.wci c * P.cc r c) + P.bi c)
     = Ideal.logistic ((conv xa' P'.h t1i' P'.Wi (P'.Wci 0) (P'.Wci 1) P'.bci r' c + P'.wci c * P'.cc r' c) + P'.bi c)
  rw [hW.Wi, hW.Wci, hW.bci, hW.wci, hW.bi, hc,
    conv_row_local xa P.h t1i xa' P'.h t1i' P'.Wi (P'.Wci 0) (P'.Wci 1) P'.bci r r' hx hh hi c]

/-- The forget gate likewise. -/
theorem gF_row_local (hf : t1f r = t1f' r') (c : Fin D) : gF P xa t1f r c = gF P' xa' t1f' r' c := by
  show Ideal.logistic ((conv xa P.h t1f P.Wf (P.Wcf 0) (P.Wcf 1) P.bcf r c + P.wcf c * P.cc r c) + P.bf c)
     = Ideal.logistic ((conv xa' P'.h t1f' P'.Wf (P'.Wcf 0) (P'.Wcf 1) P'.bcf r' c + P'.wcf c * P'.cc r' c) + P'.bf c)
  rw [hW.Wf, hW.Wcf, hW.bcf, hW.wcf, hW.bf, hc,
    conv_row_local xa P.h t1f xa' P'.h t1f' P'.Wf (P'.Wcf 0) (P'.Wcf 1) P'.bcf r r' hx hh hf c]

omit hc in
/-- The candidate gate likewise (it does not read the cell state). -/
theorem gG_row_local (hg : t1g r = t1g' r') (c : Fin D) : gG P xa t1g r c = gG P' xa' t1g' r' c := by
  show Ideal.tanh (conv xa P.h t1g P.Wg (P.Wcg 0) (P.Wcg 1) P.bcg r c + P.bg c)
     = Ideal.tanh (conv xa' P'.h t1g' P'.Wg (P'.Wcg 0) (P'.Wcg 1) P'.bcg r' c + P'.bg c)
  rw [hW.Wg, hW.Wcg, hW.bcg, hW.bg,
    conv_row_local xa P.h t1g xa' P'.h t1g' P'.Wg (P'.Wcg 0) (P'.Wcg 1) P'.bcg r r' hx hh hg c]

/-- Row locality of the new cell state: equal rows of the data give equal entries. -/
theorem cNew_row_local (hi : t1i r = t1i' r') (hf : t1f r = t1f' r') (hg : t1g r = t1g' r') (c : Fin D) :
    cNew P xa t1i t1f t1g r c = cNew P' xa' t1i' t1f' t1g' r' c := by
  show gF P xa t1f r c * P.cc r c + gI P xa t1i r c * gG P xa t1g r c
     = gF P' xa' t1f' r' c * P'.cc r' c + gI P' xa' t1i' r' c * gG P' xa' t1g' r' c
  rw [gF_row_local P P' hW xa t1f xa' t1f' r r' hx hh hc hf c, gI_row_local P P' hW xa t1i xa' t1i' r r' hx hh hc hi c,
    gG_row_local P P' hW xa t1g xa' t1g' r r' hx hh hg c, hc]

/-- Row locality of the hidden output. -/
theorem h0_row_local (hi : t1i r = t1i' r') (hf : t1f r = t1f' r') (hg : t1g r = t1g' r') (ho : t1o r = t1o' r')
    (c : Fin D) : h0 P xa t1i t1f t1g t1o r c = h0 P' xa' t1i' t1f' t1g' t1o' r' c := by
  have hcn := cNew_row_local P P' hW xa t1i t1f t1g xa' t1i' t1f' t1g' r r' hx hh hc hi hf hg c
  show Ideal.logistic ((conv xa P.h t1o P.Wo (P.Wco 0) (P.Wco 1) P.bco r c + P.wco c * cNew P xa t1i t1f t1g r c) + P.bo c)
        * Ideal.tanh (cNew P xa t1i t1f t1g r c)
     = Ideal.logistic ((conv xa' P'.h t1o' P'.Wo (P'.Wco 0) (P'.Wco 1) P'.bco r' c + P'.wco c * cNew P' xa' t1i' t1f' t1g' r' c) + P'.bo c)
        * Ideal.tanh (cNew P' xa' t1i' t1f' t1g' r' c)
  rw [hcn, hW.Wo, hW.Wco, hW.bco, hW.wco, hW.bo,
    conv_row_local xa P.h t1o xa' P'.h t1o' P'.Wo (P'.Wco 0) (P'.Wco 1) P'.bco r r' hx hh ho c]

/-- Row locality of the readout: its matrix product sums over row r of the hidden output, which is row r' of the
    other cell's. -/
theorem hOut_row_local (hi : t1i r = t1i' r') (hf : t1f r = t1f' r') (hg : t1g r = t1g' r') (ho : t1o r = t1o' r')
    (c : Fin D) : hOut P xa t1i t1f t1g t1o r c = hOut P' xa' t1i' t1f' t1g' t1o' r' c := by
  show (∑ k : Fin D, max (h0 P xa t1i t1f t1g t1o r k) 0 * P.Wl k c) + P.bl c
     = (∑ k : Fin D, max (h0 P' xa' t1i' t1f' t1g' t1o' r' k) 0 * P'.Wl k c) + P'.bl c
  rw [hW.Wl, hW.bl]
  refine congrArg (· + P'.bl c) (Finset.sum_congr rfl fun k _ => ?_)
  rw [h0_row_local P P' hW xa t1i t1f t1g t1o xa' t1i' t1f' t1g' t1o' r r' hx hh hc hi hf hg ho k]

end

end Cert.Payload

end
-- ==== Proof.PayloadCell.lean ====
/-
  The body's three stored values, read at an entry, are the cell on one block of rows.

  The body works on a block of 1200 rows. Its operands are the block's features, hidden state, cell state and
  Chebyshev term, three [256, 1024] weights whose four groups of 256 columns are the four gates' weights side by
  side, a [1, 1024] row holding for each gate the sum of the convolution's bias and the gate's bias, the three
  peephole rows, and the readout's weight and bias. Under hypotheses saying exactly that (`Holds`), the value the
  body stores third is the cell's new state on the block, the value it stores second is the hidden output, and the
  value it stores first is the readout, entry by entry.

  A gate's pre-activation comes out of the body grouped (((X + H) + T) + (bc + b)) + w·c, where the cell groups it
  ((X + ((H + T) + bc)) + w·c) + b; the two are equal by associativity and commutativity of addition, so each gate is
  one regrouping under the logistic function or the hyperbolic tangent. Nothing has to be finite.
-/
import proofs.«101913_j61426622267687_2_alg».proof.Proof.PayloadPre
import proofs.«101913_j61426622267687_2_alg».proof.Proof.PayloadAlgebra

noncomputable section

namespace Cert.Payload

open Idealize.ShloMosaic Idealize.ShloMosaic.ValueIdx Cert.KernelIdeal Cert.KernelIdeal.Gen Cert.Cell

/-! ## The payloads' entrywise shells -/

section Shells
variable (v3 : Vec Ideal S1200x256 .f32) (v23 v24 v30 v35 : FVec Ideal S1200x256 .f32) (v41 v53 : Vec Ideal S1x256 .f32)
  (v51 : Vec Ideal S256x256 .f32) (i : S1200x256.Idx)

/-- The third stored value at an entry: σ(forget pre-activation) · c + input gate · tanh(candidate pre-activation). -/
theorem stored3_shell : k0_pay1 v3 v23 v30 v35 i = Ideal.logistic (v35 i) * v3 i + v30 i * Ideal.tanh (v23 i) := rfl

/-- The second stored value at an entry: σ(output stream + peephole row · c') · tanh c', c' the third stored value. -/
theorem stored2_shell :
    k0_pay2 v3 v23 v24 v30 v35 v41 i
      = Ideal.logistic (v24 i + broadcastTo S1200x256 v41 broadcasts_S1x256_S1200x256 i * k0_pay1 v3 v23 v30 v35 i)
          * Ideal.tanh (k0_pay1 v3 v23 v30 v35 i) := by
  unfold k0_pay2
  simp only [shapeCast_self]
  rfl

/-- The first stored value at an entry: the sum over k of max(second stored value at (p, k), 0) · weight[k, q], plus
    the bias row at q. The zero the body compares with is the word 0 read as an extended real. -/
theorem stored1_shell (p : Fin 1200) (q : Fin 256) :
    k0_pay3 v3 v23 v24 v30 v35 v41 v51 v53 (ix2 p q)
      = (∑ k : Fin 256, max (k0_pay2 v3 v23 v24 v30 v35 v41 (ix2 p k) : EReal) (0 : EReal) * v51 (ix2 k q))
          + v53 (ix2 (0 : Fin 1) q) := by
  unfold k0_pay3
  simp only [shapeCast_self]
  rw [addf_apply, square_matmul_apply, broadcastTo_1b_ab_apply]
  refine congrArg (· + v53 (ix2 (0 : Fin 1) q)) (Finset.sum_congr rfl fun k _ => ?_)
  show max (k0_pay2 v3 v23 v24 v30 v35 v41 (ix2 p k)) (Ideal.ofBits .f32 0x00000000#32) * v51 (ix2 k q) = _
  rw [Ideal.ofBits_zero_f32]

end Shells

/-! ## What the operands hold -/

/-- The body's operands hold a block of the cell's data: the four row blocks are the features, the two states and
    the Chebyshev term; the wide weights hold the four gates' weights in their four groups of 256 columns; the wide
    bias row holds, per gate, the convolution's bias plus the gate's bias; the remaining rows and the square weight
    are the peephole vectors and the readout's parameters. -/
structure Holds (vx vh vc vt : Vec Ideal S1200x256 .f32) (wx wh0 wh1 : Vec Ideal S256x1024 .f32)
    (bias : Vec Ideal S1x1024 .f32) (pI pF pO blin : Vec Ideal S1x256 .f32) (wlin : Vec Ideal S256x256 .f32)
    (Pb : Params 1200 256) (xb tb : Mx 1200 256) : Prop where
  x : ∀ (p : Fin 1200) (k : Fin 256), vx (ix2 p k) = xb p k
  h : ∀ (p : Fin 1200) (k : Fin 256), vh (ix2 p k) = Pb.h p k
  c : ∀ (p : Fin 1200) (k : Fin 256), vc (ix2 p k) = Pb.cc p k
  t : ∀ (p : Fin 1200) (k : Fin 256), vt (ix2 p k) = tb p k
  wxI : ∀ (k q : Fin 256), wx (ix2 k (colI q)) = Pb.Wi k q
  wxF : ∀ (k q : Fin 256), wx (ix2 k (colF q)) = Pb.Wf k q
  wxG : ∀ (k q : Fin 256), wx (ix2 k (colG q)) = Pb.Wg k q
  wxO : ∀ (k q : Fin 256), wx (ix2 k (colO q)) = Pb.Wo k q
  wh0I : ∀ (k q : Fin 256), wh0 (ix2 k (colI q)) = Pb.Wci 0 k q
  wh0F : ∀ (k q : Fin 256), wh0 (ix2 k (colF q)) = Pb.Wcf 0 k q
  wh0G : ∀ (k q : Fin 256), wh0 (ix2 k (colG q)) = Pb.Wcg 0 k q
  wh0O : ∀ (k q : Fin 256), wh0 (ix2 k (colO q)) = Pb.Wco 0 k q
  wh1I : ∀ (k q : Fin 256), wh1 (ix2 k (colI q)) = Pb.Wci 1 k q
  wh1F : ∀ (k q : Fin 256), wh1 (ix2 k (colF q)) = Pb.Wcf 1 k q
  wh1G : ∀ (k q : Fin 256), wh1 (ix2 k (colG q)) = Pb.Wcg 1 k q
  wh1O : ∀ (k q : Fin 256), wh1 (ix2 k (colO q)) = Pb.Wco 1 k q
  biasI : ∀ q : Fin 256, bias (ix2 (0 : Fin 1) (colI q)) = Pb.bci q + Pb.bi q
  biasF : ∀ q : Fin 256, bias (ix2 (0 : Fin 1) (colF q)) = Pb.bcf q + Pb.bf q
  biasG : ∀ q : Fin 256, bias (ix2 (0 : Fin 1) (colG q)) = Pb.bcg q + Pb.bg q
  biasO : ∀ q : Fin 256, bias (ix2 (0 : Fin 1) (colO q)) = Pb.bco q + Pb.bo q
  peepI : ∀ q : Fin 256, pI (ix2 (0 : Fin 1) q) = Pb.wci q
  peepF : ∀ q : Fin 256, pF (ix2 (0 : Fin 1) q) = Pb.wcf q
  peepO : ∀ q : Fin 256, pO (ix2 (0 : Fin 1) q) = Pb.wco q
  wl : ∀ (k q : Fin 256), wlin (ix2 k q) = Pb.Wl k q
  bl : ∀ q : Fin 256, blin (ix2 (0 : Fin 1) q) = Pb.bl q

variable {vx vh vc vt : Vec Ideal S1200x256 .f32} {wx wh0 wh1 : Vec Ideal S256x1024 .f32}
  {bias : Vec Ideal S1x1024 .f32} {pI pF pO blin : Vec Ideal S1x256 .f32} {wlin : Vec Ideal S256x256 .f32}
  {Pb : Params 1200 256} {xb tb : Mx 1200 256}

/-! ## The four streams in the cell's terms -/

section Streams
variable (H : Holds vx vh vc vt wx wh0 wh1 bias pI pF pO blin wlin Pb xb tb) (p : Fin 1200) (q : Fin 256)
include H

/-- The input gate's stream: the three products against the input gate's weights, plus both of its biases. -/
theorem preI_eq : preAt vx vh vt wx wh0 wh1 bias p (colI q)
    = ((mm xb Pb.Wi p q + mm Pb.h (Pb.Wci 0) p q) + mm tb (Pb.Wci 1) p q) + (Pb.bci q + Pb.bi q) := by
  unfold preAt mm
  simp only [H.x, H.h, H.t, H.wxI, H.wh0I, H.wh1I, H.biasI]

/-- The forget gate's stream. -/
theorem preF_eq : preAt vx vh vt wx wh0 wh1 bias p (colF q)
    = ((mm xb Pb.Wf p q + mm Pb.h (Pb.Wcf 0) p q) + mm tb (Pb.Wcf 1) p q) + (Pb.bcf q + Pb.bf q) := by
  unfold preAt mm
  simp only [H.x, H.h, H.t, H.wxF, H.wh0F, H.wh1F, H.biasF]

/-- The candidate's stream. -/
theorem preG_eq : preAt vx vh vt wx wh0 wh1 bias p (colG q)
    = ((mm xb Pb.Wg p q + mm Pb.h (Pb.Wcg 0) p q) + mm tb (Pb.Wcg 1) p q) + (Pb.bcg q + Pb.bg q) := by
  unfold preAt mm
  simp only [H.x, H.h, H.t, H.wxG, H.wh0G, H.wh1G, H.biasG]

/-- The output gate's stream. -/
theorem preO_eq : preAt vx vh vt wx wh0 wh1 bias p (colO q)
    = ((mm xb Pb.Wo p q + mm Pb.h (Pb.Wco 0) p q) + mm tb (Pb.Wco 1) p q) + (Pb.bco q + Pb.bo q) := by
  unfold preAt mm
  simp only [H.x, H.h, H.t, H.wxO, H.wh0O, H.wh1O, H.biasO]

/-! ## The gates -/

/-- The body's input gate at (p, q) is the cell's: one regrouping under the logistic function. -/
theorem gateI_apply : k0_pay7 vx vh vc vt wx wh0 wh1 bias pI (ix2 p q) = gI Pb xb tb p q := by
  unfold k0_pay7
  simp only [shapeCast_self]
  show Ideal.logistic (extractStridedSlice S1200x256 ![0, 0] (k0_pay4 vx vh vt wx wh0 wh1 bias) slices_S1200x1024_o0_0_S1200x256 (ix2 p q)
      + broadcastTo S1200x256 pI broadcasts_S1x256_S1200x256 (ix2 p q) * vc (ix2 p q)) = _
  rw [streamI_apply, broadcastTo_1b_ab_apply, preI_eq H, H.peepI, H.c]
  exact congrArg Ideal.logistic (regroup_peephole _ _ _ _ _ _)

/-- The body's forget gate (the logistic function of the value it carries) at (p, q) is the cell's. -/
theorem gateF_apply : Ideal.logistic (k0_pay8 vx vh vc vt wx wh0 wh1 bias pF (ix2 p q)) = gF Pb xb tb p q := by
  unfold k0_pay8
  simp only [shapeCast_self]
  show Ideal.logistic (extractStridedSlice S1200x256 ![0, 256] (k0_pay4 vx vh vt wx wh0 wh1 bias) slices_S1200x1024_o0_256_S1200x256 (ix2 p q)
      + broadcastTo S1200x256 pF broadcasts_S1x256_S1200x256 (ix2 p q) * vc (ix2 p q)) = _
  rw [streamF_apply, broadcastTo_1b_ab_apply, preF_eq H, H.peepF, H.c]
  exact congrArg Ideal.logistic (regroup_peephole _ _ _ _ _ _)

/-- The body's candidate (the hyperbolic tangent of its stream) at (p, q) is the cell's. -/
theorem gateG_apply : Ideal.tanh (k0_pay5 vx vh vt wx wh0 wh1 bias (ix2 p q)) = gG Pb xb tb p q := by
  rw [streamG_apply, preG_eq H]
  exact congrArg Ideal.tanh (regroup_candidate _ _ _ _ _)

/-! ## The three stored values -/

/-- The value the body stores third, at entry (p, q), is the cell's new state on the block. -/
theorem stored3_apply :
    k0_pay1 vc (k0_pay5 vx vh vt wx wh0 wh1 bias) (k0_pay7 vx vh vc vt wx wh0 wh1 bias pI)
        (k0_pay8 vx vh vc vt wx wh0 wh1 bias pF) (ix2 p q)
      = cNew Pb xb tb tb tb p q := by
  rw [stored3_shell, gateF_apply H, gateG_apply H, gateI_apply H, H.c]
  rfl

/-- The value the body stores second, at entry (p, q), is the cell's hidden output on the block. -/
theorem stored2_apply :
    k0_pay2 vc (k0_pay5 vx vh vt wx wh0 wh1 bias) (k0_pay6 vx vh vt wx wh0 wh1 bias)
        (k0_pay7 vx vh vc vt wx wh0 wh1 bias pI) (k0_pay8 vx vh vc vt wx wh0 wh1 bias pF) pO (ix2 p q)
      = Cert.Cell.h0 Pb xb tb tb tb tb p q := by
  rw [stored2_shell, stored3_apply H, streamO_apply, broadcastTo_1b_ab_apply, preO_eq H, H.peepO]
  exact congrArg (· * Ideal.tanh (cNew Pb xb tb tb tb p q)) (congrArg Ideal.logistic (regroup_peephole _ _ _ _ _ _))

/-- The value the body stores first, at entry (p, q), is the cell's readout on the block: the sum over the row of
    the hidden output, entry by entry the second stored value, against the readout's weight, plus its bias. -/
theorem stored1_apply :
    k0_pay3 vc (k0_pay5 vx vh vt wx wh0 wh1 bias) (k0_pay6 vx vh vt wx wh0 wh1 bias)
        (k0_pay7 vx vh vc vt wx wh0 wh1 bias pI) (k0_pay8 vx vh vc vt wx wh0 wh1 bias pF) pO wlin blin (ix2 p q)
      = hOut Pb xb tb tb tb tb p q := by
  rw [stored1_shell, H.bl]
  show _ = (∑ k : Fin 256, max (Cert.Cell.h0 Pb xb tb tb tb tb p k) 0 * Pb.Wl k q) + Pb.bl q
  refine congrArg (· + Pb.bl q) (Finset.sum_congr rfl fun k _ => ?_)
  rw [stored2_apply H, H.wl]

end Streams

end Cert.Payload

end
-- ==== Proof.IdealFinal.lean ====
/-
  The kernel program's three result arrays at the ideal instance, as the cell's three functions of the argument
  arrays.

  At a grid point the thirteen operand blocks hold a block of the cell's data (rows 1200·t … 1200·t + 1199 of
  the features, the states and the Chebyshev term; the weights whole), so the three stored values are the cell's
  new state, hidden output and readout on that block; a row of the cell depends only on that row of the data, so
  these are rows of the cell on the whole arrays; and the twenty-five blocks cover each result array.
-/
import proofs.«101913_j61426622267687_2_alg».proof.Proof.IdealBlocks
import proofs.«101913_j61426622267687_2_alg».proof.Proof.IdealEntry
import proofs.«101913_j61426622267687_2_alg».proof.Proof.LayoutConcat
import proofs.«101913_j61426622267687_2_alg».proof.Proof.LayoutSlab
import proofs.«101913_j61426622267687_2_alg».proof.Proof.LayoutBias
import proofs.«101913_j61426622267687_2_alg».proof.Proof.PayloadCell
import proofs.«101913_j61426622267687_2_alg».proof.Proof.Cell
import Idealize.ShloMosaic.Lib.Pipeline.FrameBody
import Idealize.ShloMosaic.Lib.Ring
import Idealize.ShloMosaic.Lib.Tactic

set_option maxRecDepth 16384

noncomputable section

namespace Cert.KernelIdeal.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.HostPrefix Cert.KernelIdeal.Body Cert.KernelIdeal.Frame Cert.KernelIdeal.Blocks Cert.Layout Cert.Payload Cert.Cell Idealize.ShloMosaic.ValueIdx

variable (m : (ℓ : Loc nD τ sig) → Buf (Elt Ideal) ℓ) (ρ : Dev nD → PrngReg)

/-! ## The cell's data read off the memory -/

/-- The cell's parameters: the argument arrays as launched. -/
def P (c : Dev nD) : Params 30000 256 :=
  Cell.params (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27))

/-- The augmented features the region finds. -/
def XA (c : Dev nD) : Mx 30000 256 := toMx (V m c main_v26)
/-- The first Chebyshev term the region finds. -/
def T1 (c : Dev nD) : Mx 30000 256 := toMx (V m c main_v65)

/-- The parameters restricted to block `t` of the rows: the two states' rows 1200·t + p, the weights as they are. -/
def Pblk (c : Dev nD) (t : Fin 25) : Params 1200 256 where
  h := fun p k => (P m c).h (rowOf t p) k
  cc := fun p k => (P m c).cc (rowOf t p) k
  Wi := (P m c).Wi
  Wf := (P m c).Wf
  Wg := (P m c).Wg
  Wo := (P m c).Wo
  Wci := (P m c).Wci
  Wcf := (P m c).Wcf
  Wcg := (P m c).Wcg
  Wco := (P m c).Wco
  bci := (P m c).bci
  bcf := (P m c).bcf
  bcg := (P m c).bcg
  bco := (P m c).bco
  wci := (P m c).wci
  wcf := (P m c).wcf
  wco := (P m c).wco
  bi := (P m c).bi
  bf := (P m c).bf
  bg := (P m c).bg
  bo := (P m c).bo
  Wl := (P m c).Wl
  bl := (P m c).bl

theorem sameWeights (c : Dev nD) (t : Fin 25) : SameWeights (Pblk m c t) (P m c) :=
  ⟨rfl, rfl, rfl, rfl, rfl, rfl, rfl, rfl, rfl, rfl, rfl, rfl, rfl, rfl, rfl, rfl, rfl, rfl, rfl, rfl, rfl⟩

/-! ## The operand blocks at a grid point hold a block of the cell's data -/

set_option maxHeartbeats 4000000 in
theorem holds (c : Dev nD) (t : Fin cfg0.N) :
    Holds (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 12 t) (iblk m c 11 t) (Pblk m c (pt t)) (fun p k => XA m c (rowOf (pt t) p) k) (fun p k => T1 m c (rowOf (pt t) p) k) where
  x := fun p k => blk0 m c t p k
  h := fun p k => (blk1 m c t p k).trans (congrFun (V_main_arg3 m c) _)
  c := fun p k => (blk2 m c t p k).trans (congrFun (V_main_arg4 m c) _)
  t := fun p k => blk3 m c t p k
  wxI := fun k q => (blk4 m c t k (colI q)).trans ((congrFun (Entry.wideX m c) _).trans (concat4_cols_apply_0 _ _ _ _ concatenates_S256x256_S256x256_S256x256_S256x256_S256x1024_d1 k q (colI q) rfl))
  wh0I := fun k q => (blk5 m c t k (colI q)).trans ((congrFun (Entry.wideH m c) _).trans ((concat4_cols_apply_0 _ _ _ _ concatenates_S256x256_S256x256_S256x256_S256x256_S256x1024_d1 k q (colI q) rfl).trans (slab0_apply (m ((c : Thread nD τ).loc main_arg11)) slices_S2x256x256_S1x256x256_0_0_0 shapeCasts_S1x256x256_S256x256 k q)))
  wh1I := fun k q => (blk6 m c t k (colI q)).trans ((congrFun (Entry.wideT m c) _).trans ((concat4_cols_apply_0 _ _ _ _ concatenates_S256x256_S256x256_S256x256_S256x256_S256x1024_d1 k q (colI q) rfl).trans (slab1_apply (m ((c : Thread nD τ).loc main_arg11)) slices_S2x256x256_S1x256x256_1_0_0 shapeCasts_S1x256x256_S256x256 k q)))
  biasI := fun q => (blk7 m c t 0 (colI q)).trans ((congrFun (Entry.foldedBias m c) _).trans (bias_row_apply_0 _ _ _ _ _ _ _ _ concatenates_S256_S256_S256_S256_S1024_d0 shapeCasts_S1024_S1x1024 0 q (colI q) rfl))
  wxF := fun k q => (blk4 m c t k (colF q)).trans ((congrFun (Entry.wideX m c) _).trans (concat4_cols_apply_1 _ _ _ _ concatenates_S256x256_S256x256_S256x256_S256x256_S256x1024_d1 k q (colF q) rfl))
  wh0F := fun k q => (blk5 m c t k (colF q)).trans ((congrFun (Entry.wideH m c) _).trans ((concat4_cols_apply_1 _ _ _ _ concatenates_S256x256_S256x256_S256x256_S256x256_S256x1024_d1 k q (colF q) rfl).trans (slab0_apply (m ((c : Thread nD τ).loc main_arg12)) slices_S2x256x256_S1x256x256_0_0_0 shapeCasts_S1x256x256_S256x256 k q)))
  wh1F := fun k q => (blk6 m c t k (colF q)).trans ((congrFun (Entry.wideT m c) _).trans ((concat4_cols_apply_1 _ _ _ _ concatenates_S256x256_S256x256_S256x256_S256x256_S256x1024_d1 k q (colF q) rfl).trans (slab1_apply (m ((c : Thread nD τ).loc main_arg12)) slices_S2x256x256_S1x256x256_1_0_0 shapeCasts_S1x256x256_S256x256 k q)))
  biasF := fun q => (blk7 m c t 0 (colF q)).trans ((congrFun (Entry.foldedBias m c) _).trans (bias_row_apply_1 _ _ _ _ _ _ _ _ concatenates_S256_S256_S256_S256_S1024_d0 shapeCasts_S1024_S1x1024 0 q (colF q) rfl))
  wxG := fun k q => (blk4 m c t k (colG q)).trans ((congrFun (Entry.wideX m c) _).trans (concat4_cols_apply_2 _ _ _ _ concatenates_S256x256_S256x256_S256x256_S256x256_S256x1024_d1 k q (colG q) rfl))
  wh0G := fun k q => (blk5 m c t k (colG q)).trans ((congrFun (Entry.wideH m c) _).trans ((concat4_cols_apply_2 _ _ _ _ concatenates_S256x256_S256x256_S256x256_S256x256_S256x1024_d1 k q (colG q) rfl).trans (slab0_apply (m ((c : Thread nD τ).loc main_arg13)) slices_S2x256x256_S1x256x256_0_0_0 shapeCasts_S1x256x256_S256x256 k q)))
  wh1G := fun k q => (blk6 m c t k (colG q)).trans ((congrFun (Entry.wideT m c) _).trans ((concat4_cols_apply_2 _ _ _ _ concatenates_S256x256_S256x256_S256x256_S256x256_S256x1024_d1 k q (colG q) rfl).trans (slab1_apply (m ((c : Thread nD τ).loc main_arg13)) slices_S2x256x256_S1x256x256_1_0_0 shapeCasts_S1x256x256_S256x256 k q)))
  biasG := fun q => (blk7 m c t 0 (colG q)).trans ((congrFun (Entry.foldedBias m c) _).trans (bias_row_apply_2 _ _ _ _ _ _ _ _ concatenates_S256_S256_S256_S256_S1024_d0 shapeCasts_S1024_S1x1024 0 q (colG q) rfl))
  wxO := fun k q => (blk4 m c t k (colO q)).trans ((congrFun (Entry.wideX m c) _).trans (concat4_cols_apply_3 _ _ _ _ concatenates_S256x256_S256x256_S256x256_S256x256_S256x1024_d1 k q (colO q) rfl))
  wh0O := fun k q => (blk5 m c t k (colO q)).trans ((congrFun (Entry.wideH m c) _).trans ((concat4_cols_apply_3 _ _ _ _ concatenates_S256x256_S256x256_S256x256_S256x256_S256x1024_d1 k q (colO q) rfl).trans (slab0_apply (m ((c : Thread nD τ).loc main_arg14)) slices_S2x256x256_S1x256x256_0_0_0 shapeCasts_S1x256x256_S256x256 k q)))
  wh1O := fun k q => (blk6 m c t k (colO q)).trans ((congrFun (Entry.wideT m c) _).trans ((concat4_cols_apply_3 _ _ _ _ concatenates_S256x256_S256x256_S256x256_S256x256_S256x1024_d1 k q (colO q) rfl).trans (slab1_apply (m ((c : Thread nD τ).loc main_arg14)) slices_S2x256x256_S1x256x256_1_0_0 shapeCasts_S1x256x256_S256x256 k q)))
  biasO := fun q => (blk7 m c t 0 (colO q)).trans ((congrFun (Entry.foldedBias m c) _).trans (bias_row_apply_3 _ _ _ _ _ _ _ _ concatenates_S256_S256_S256_S256_S1024_d0 shapeCasts_S1024_S1x1024 0 q (colO q) rfl))
  peepI := fun q => (blk8 m c t 0 q).trans ((congrFun (Entry.peepI m c) _).trans (row_apply (m ((c : Thread nD τ).loc main_arg19)) shapeCasts_S256_S1x256 0 q))
  peepF := fun q => (blk9 m c t 0 q).trans ((congrFun (Entry.peepF m c) _).trans (row_apply (m ((c : Thread nD τ).loc main_arg20)) shapeCasts_S256_S1x256 0 q))
  peepO := fun q => (blk10 m c t 0 q).trans ((congrFun (Entry.peepO m c) _).trans (row_apply (m ((c : Thread nD τ).loc main_arg21)) shapeCasts_S256_S1x256 0 q))
  wl := fun k q => (blk11 m c t k q).trans (congrFun (V_main_arg26 m c) _)
  bl := fun q => (blk12 m c t 0 q).trans ((congrFun (Entry.readBias m c) _).trans (row_apply (m ((c : Thread nD τ).loc main_arg27)) shapeCasts_S256_S1x256 0 q))

/-! ## The three result arrays as functions of the data -/

/-- The first result: the readout. -/
abbrev Gout (c : Dev nD) : S30000x256.Idx → Elt Ideal .f32 :=
  fun i => Cell.hOut (P m c) (XA m c) (T1 m c) (T1 m c) (T1 m c) (T1 m c) (i 0) (i 1)
/-- The second result: the hidden output. -/
abbrev Ghid (c : Dev nD) : S30000x256.Idx → Elt Ideal .f32 :=
  fun i => Cell.h0 (P m c) (XA m c) (T1 m c) (T1 m c) (T1 m c) (T1 m c) (i 0) (i 1)
/-- The third result: the new cell state. -/
abbrev Gcell (c : Dev nD) : S30000x256.Idx → Elt Ideal .f32 :=
  fun i => Cell.cNew (P m c) (XA m c) (T1 m c) (T1 m c) (T1 m c) (i 0) (i 1)

theorem hz : (![0, 0] : Fin 2 → Nat) = fun _ => 0 := funext fun a => by fin_cases a <;> rfl

set_option maxHeartbeats 4000000 in
/-- What point `t` writes back to the third result is block `t` of the new cell state. -/
theorem flushed15_eq (c : Dev nD) (t : Fin cfg0.N) :
    (dats m 0 c).flushed 15 t = ((cfg0.win 15).blk t).view.read (Elt Ideal) (Gcell m c) := by
  show (cfg0.win 15).cut (grid0.coords t) ((dats m 0 c).after 15 t) = _
  rw [after15]
  unfold out15
  rw [View.canon_unit_zero hz]
  funext j
  obtain ⟨p, q, rfl⟩ : ∃ (p : Fin 1200) (q : Fin 256), j = ix2 p q := ⟨j 0, j 1, eq_ix2 j⟩
  show Body.cellOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p q) = Gcell m c (((cfg0.win 15).blk t).view.emb (ix2 p q))
  rw [emb15]
  unfold Body.cellOf candPre inGate forgetArg
  simp only [View.ld_unit_zero (S := S1200x256) hz, View.ld_unit_zero (S := S256x1024) hz, View.ld_unit_zero (S := S1x1024) hz, View.ld_unit_zero (S := S1x256) hz, View.ld_unit_zero (S := S256x256) hz]
  refine (stored3_apply (holds m c t) p q).trans ?_
  exact cNew_row_local (Pblk m c (pt t)) (P m c) (sameWeights m c (pt t)) _ _ _ _ (XA m c) (T1 m c) (T1 m c) (T1 m c) p (rowOf (pt t) p) rfl rfl rfl rfl rfl rfl q

set_option maxHeartbeats 4000000 in
/-- What point `t` writes back to the second result is block `t` of the hidden output. -/
theorem flushed14_eq (c : Dev nD) (t : Fin cfg0.N) :
    (dats m 0 c).flushed 14 t = ((cfg0.win 14).blk t).view.read (Elt Ideal) (Ghid m c) := by
  show (cfg0.win 14).cut (grid0.coords t) ((dats m 0 c).after 14 t) = _
  rw [after14]
  unfold out14
  rw [View.canon_unit_zero hz]
  funext j
  obtain ⟨p, q, rfl⟩ : ∃ (p : Fin 1200) (q : Fin 256), j = ix2 p q := ⟨j 0, j 1, eq_ix2 j⟩
  show hiddenOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p q) = Ghid m c (((cfg0.win 14).blk t).view.emb (ix2 p q))
  rw [emb14]
  unfold hiddenOf candPre outPre inGate forgetArg
  simp only [View.ld_unit_zero (S := S1200x256) hz, View.ld_unit_zero (S := S256x1024) hz, View.ld_unit_zero (S := S1x1024) hz, View.ld_unit_zero (S := S1x256) hz, View.ld_unit_zero (S := S256x256) hz]
  refine (stored2_apply (holds m c t) p q).trans ?_
  exact h0_row_local (Pblk m c (pt t)) (P m c) (sameWeights m c (pt t)) _ _ _ _ _ (XA m c) (T1 m c) (T1 m c) (T1 m c) (T1 m c) p (rowOf (pt t) p) rfl rfl rfl rfl rfl rfl rfl q

set_option maxHeartbeats 4000000 in
/-- What point `t` writes back to the first result is block `t` of the readout. -/
theorem flushed13_eq (c : Dev nD) (t : Fin cfg0.N) :
    (dats m 0 c).flushed 13 t = ((cfg0.win 13).blk t).view.read (Elt Ideal) (Gout m c) := by
  show (cfg0.win 13).cut (grid0.coords t) ((dats m 0 c).after 13 t) = _
  rw [after13]
  unfold out13
  rw [View.canon_unit_zero hz]
  funext j
  obtain ⟨p, q, rfl⟩ : ∃ (p : Fin 1200) (q : Fin 256), j = ix2 p q := ⟨j 0, j 1, eq_ix2 j⟩
  show readoutOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p q) = Gout m c (((cfg0.win 13).blk t).view.emb (ix2 p q))
  rw [emb13]
  unfold readoutOf candPre outPre inGate forgetArg
  simp only [View.ld_unit_zero (S := S1200x256) hz, View.ld_unit_zero (S := S256x1024) hz, View.ld_unit_zero (S := S1x1024) hz, View.ld_unit_zero (S := S1x256) hz, View.ld_unit_zero (S := S256x256) hz]
  refine (stored1_apply (holds m c t) p q).trans ?_
  exact hOut_row_local (Pblk m c (pt t)) (P m c) (sameWeights m c (pt t)) _ _ _ _ _ (XA m c) (T1 m c) (T1 m c) (T1 m c) (T1 m c) p (rowOf (pt t) p) rfl rfl rfl rfl rfl rfl rfl q

/-! ## The blocks cover the result arrays -/

/-- An index of the array lies in point `t`'s block of result window 13 iff each coordinate lies in the block's range. -/
theorem mem_blk13 (t : Fin cfg0.N) (i : S30000x256.Idx) :
    i ∈ ((cfg0.win 13).blk t).view.set ↔ ∀ a : Fin 2, win0_13.index t a * S1200x256.size a ≤ (i a).val ∧ (i a).val < win0_13.index t a * S1200x256.size a + S1200x256.size a := by
  show i ∈ ((View.whole main_v95_0).slice (win0_13.rect t)).set ↔ _
  rw [View.set_slice_whole, Rect.mem_set_unit]
  exact Iff.rfl

/-- Every index of result window 13's array lies in the block of the point its row falls in. -/
theorem cover13 (i : S30000x256.Idx) : ∃ t : Fin cfg0.N, (cfg0.win 13).flush t = true ∧ i ∈ ((cfg0.win 13).blk t).view.set := by
  have hi0 : (i 0).val < 30000 := (i 0).isLt
  have hi1 : (i 1).val < 256 := (i 1).isLt
  have hN : cfg0.N = 25 := N_0
  obtain ⟨t, ht⟩ : ∃ t : Fin cfg0.N, t.val = (i 0).val / 1200 := ⟨⟨(i 0).val / 1200, by omega⟩, rfl⟩
  refine ⟨t, flush0_13 t, ?_⟩
  rw [mem_blk13]
  have hf := index_facts t
  intro a
  match a with
  | ⟨0, _⟩ => show win0_13.index t (0 : Fin 2) * 1200 ≤ (i 0).val ∧ (i 0).val < win0_13.index t (0 : Fin 2) * 1200 + 1200; omega
  | ⟨1, _⟩ => show win0_13.index t (1 : Fin 2) * 256 ≤ (i 1).val ∧ (i 1).val < win0_13.index t (1 : Fin 2) * 256 + 256; omega

/-- An index of the array lies in point `t`'s block of result window 14 iff each coordinate lies in the block's range. -/
theorem mem_blk14 (t : Fin cfg0.N) (i : S30000x256.Idx) :
    i ∈ ((cfg0.win 14).blk t).view.set ↔ ∀ a : Fin 2, win0_14.index t a * S1200x256.size a ≤ (i a).val ∧ (i a).val < win0_14.index t a * S1200x256.size a + S1200x256.size a := by
  show i ∈ ((View.whole main_v95_1).slice (win0_14.rect t)).set ↔ _
  rw [View.set_slice_whole, Rect.mem_set_unit]
  exact Iff.rfl

/-- Every index of result window 14's array lies in the block of the point its row falls in. -/
theorem cover14 (i : S30000x256.Idx) : ∃ t : Fin cfg0.N, (cfg0.win 14).flush t = true ∧ i ∈ ((cfg0.win 14).blk t).view.set := by
  have hi0 : (i 0).val < 30000 := (i 0).isLt
  have hi1 : (i 1).val < 256 := (i 1).isLt
  have hN : cfg0.N = 25 := N_0
  obtain ⟨t, ht⟩ : ∃ t : Fin cfg0.N, t.val = (i 0).val / 1200 := ⟨⟨(i 0).val / 1200, by omega⟩, rfl⟩
  refine ⟨t, flush0_14 t, ?_⟩
  rw [mem_blk14]
  have hf := index_facts t
  intro a
  match a with
  | ⟨0, _⟩ => show win0_14.index t (0 : Fin 2) * 1200 ≤ (i 0).val ∧ (i 0).val < win0_14.index t (0 : Fin 2) * 1200 + 1200; omega
  | ⟨1, _⟩ => show win0_14.index t (1 : Fin 2) * 256 ≤ (i 1).val ∧ (i 1).val < win0_14.index t (1 : Fin 2) * 256 + 256; omega

/-- An index of the array lies in point `t`'s block of result window 15 iff each coordinate lies in the block's range. -/
theorem mem_blk15 (t : Fin cfg0.N) (i : S30000x256.Idx) :
    i ∈ ((cfg0.win 15).blk t).view.set ↔ ∀ a : Fin 2, win0_15.index t a * S1200x256.size a ≤ (i a).val ∧ (i a).val < win0_15.index t a * S1200x256.size a + S1200x256.size a := by
  show i ∈ ((View.whole main_v95_2).slice (win0_15.rect t)).set ↔ _
  rw [View.set_slice_whole, Rect.mem_set_unit]
  exact Iff.rfl

/-- Every index of result window 15's array lies in the block of the point its row falls in. -/
theorem cover15 (i : S30000x256.Idx) : ∃ t : Fin cfg0.N, (cfg0.win 15).flush t = true ∧ i ∈ ((cfg0.win 15).blk t).view.set := by
  have hi0 : (i 0).val < 30000 := (i 0).isLt
  have hi1 : (i 1).val < 256 := (i 1).isLt
  have hN : cfg0.N = 25 := N_0
  obtain ⟨t, ht⟩ : ∃ t : Fin cfg0.N, t.val = (i 0).val / 1200 := ⟨⟨(i 0).val / 1200, by omega⟩, rfl⟩
  refine ⟨t, flush0_15 t, ?_⟩
  rw [mem_blk15]
  have hf := index_facts t
  intro a
  match a with
  | ⟨0, _⟩ => show win0_15.index t (0 : Fin 2) * 1200 ≤ (i 0).val ∧ (i 0).val < win0_15.index t (0 : Fin 2) * 1200 + 1200; omega
  | ⟨1, _⟩ => show win0_15.index t (1 : Fin 2) * 256 ≤ (i 1).val ∧ (i 1).val < win0_15.index t (1 : Fin 2) * 256 + 256; omega

/-! ## The result arrays after the run -/

theorem final13 (c : Dev nD) : (dats m 0 c).arrAt 13 cfg0.N = Gout m c :=
  (dats m 0 c).arrAt_eq_of_cover 13 (Gout m c) (fun t _ => flushed13_eq m c t) (cover13)
theorem final14 (c : Dev nD) : (dats m 0 c).arrAt 14 cfg0.N = Ghid m c :=
  (dats m 0 c).arrAt_eq_of_cover 14 (Ghid m c) (fun t _ => flushed14_eq m c t) (cover14)
theorem final15 (c : Dev nD) : (dats m 0 c).arrAt 15 cfg0.N = Gcell m c :=
  (dats m 0 c).arrAt_eq_of_cover 15 (Gcell m c) (fun t _ => flushed15_eq m c t) (cover15)

set_option maxHeartbeats 4000000 in
/-- The library's frame post read at the argument arrays: each ends as launched. -/
theorem args_kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)
    ∧ r.2.mem ((c.tc : Thread nD τ).loc main_arg27) = m ((c.tc : Thread nD τ).loc main_arg27) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 1).trans (((dats m 0 c).arrAt_in 1 rfl _).trans ((A_eq m c 1).trans (V_main_arg3 m c))),
    ((h c).1 2).trans (((dats m 0 c).arrAt_in 2 rfl _).trans ((A_eq m c 2).trans (V_main_arg4 m c))),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c),
    ((h c).2 main_arg17 (Pipeline.mem_restRefs_of main_arg17 (by decide) (by decide))).trans (V_main_arg17 m c),
    ((h c).2 main_arg18 (Pipeline.mem_restRefs_of main_arg18 (by decide) (by decide))).trans (V_main_arg18 m c),
    ((h c).2 main_arg19 (Pipeline.mem_restRefs_of main_arg19 (by decide) (by decide))).trans (V_main_arg19 m c),
    ((h c).2 main_arg20 (Pipeline.mem_restRefs_of main_arg20 (by decide) (by decide))).trans (V_main_arg20 m c),
    ((h c).2 main_arg21 (Pipeline.mem_restRefs_of main_arg21 (by decide) (by decide))).trans (V_main_arg21 m c),
    ((h c).2 main_arg22 (Pipeline.mem_restRefs_of main_arg22 (by decide) (by decide))).trans (V_main_arg22 m c),
    ((h c).2 main_arg23 (Pipeline.mem_restRefs_of main_arg23 (by decide) (by decide))).trans (V_main_arg23 m c),
    ((h c).2 main_arg24 (Pipeline.mem_restRefs_of main_arg24 (by decide) (by decide))).trans (V_main_arg24 m c),
    ((h c).2 main_arg25 (Pipeline.mem_restRefs_of main_arg25 (by decide) (by decide))).trans (V_main_arg25 m c),
    ((h c).1 11).trans (((dats m 0 c).arrAt_in 11 rfl _).trans ((A_eq m c 11).trans (V_main_arg26 m c))),
    ((h c).2 main_arg27 (Pipeline.mem_restRefs_of main_arg27 (by decide) (by decide))).trans (V_main_arg27 m c)⟩

/-- The kernel program's run at the ideal instance: the three results at the cell's three functions of the data,
    and (from the frame) every argument as launched. -/
theorem run : θ_run defs (onTc (τ := τ) (main (F := Ideal))) ⟨m, fun _ => 0, ρ⟩ fun r => ∀ c : Dev nD,
      r.2.mem ((c : Thread nD τ).loc main_v95_0) = Gout m c
      ∧ r.2.mem ((c : Thread nD τ).loc main_v95_1) = Ghid m c
      ∧ r.2.mem ((c : Thread nD τ).loc main_v95_2) = Gcell m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun r h c => ⟨((h c).1 13).trans (final13 m c), ((h c).1 14).trans (final14 m c), ((h c).1 15).trans (final15 m c), args_kept m r h c⟩)
    (run_main m ρ)

end Cert.KernelIdeal.Final

end
-- ==== Proof.RefCellBase.lean ====
/-
  Shared facts for reading the reference's dense stages as the cell's matrices.

  A stage that is a matrix product is read, at row r and column c, as a sum over the inner coordinate k of the
  left operand at (r, k) times the right operand at (k, c); once the stage's two index functions are recognised
  as exactly these, the sum is the cell's matrix product. The constant word of the f32 number one is the
  extended real one.
-/
import proofs.«101913_j61426622267687_2_alg».proof.Proof.Gen.ReferenceIdeal.Read
import proofs.«101913_j61426622267687_2_alg».proof.Proof.Cell
import Idealize.ShloMosaic.Lib.IdealHost

noncomputable section

namespace Cert.RefCell

open Cert.ReferenceIdeal Cert.ReferenceIdeal.Gen Cert.ReferenceIdeal.Read Idealize.ShloMosaic Idealize.ShloMosaic.StableHlo

/-- Two indices of the same literal shape are equal when each coordinate is, coordinate by coordinate, by
    definition: used for rank one, two and three. -/
macro "idx_rfl1" : tactic => `(tactic| (funext a; match a with | ⟨0, _⟩ => rfl))
macro "idx_rfl2" : tactic => `(tactic| (funext a; match a with | ⟨0, _⟩ => rfl | ⟨1, _⟩ => rfl))

/-- A sum over the inner coordinate whose left factor is read at (r, k) and whose right factor is read at (k, c)
    is the matrix product's entry (r, c). -/
theorem sum_eq_mm {R K C : ℕ} (A : (⟨2, ![R, K]⟩ : Shape).Idx → EReal) (B : (⟨2, ![K, C]⟩ : Shape).Idx → EReal)
    (l : Fin K → (⟨2, ![R, K]⟩ : Shape).Idx) (ρ : Fin K → (⟨2, ![K, C]⟩ : Shape).Idx) (r : Fin R) (c : Fin C)
    (hl : ∀ k, l k = ValueIdx.ix2 r k) (hr : ∀ k, ρ k = ValueIdx.ix2 k c) :
    ∑ k : Fin K, A (l k) * B (ρ k) = Cell.mm (Cell.toMx A) (Cell.toMx B) r c := by
  unfold Cell.mm Cell.toMx
  exact Finset.sum_congr rfl fun k _ => by rw [hl k, hr k]

/-- The f32 word of the number one, as the instance's constant, is the extended real one. -/
theorem one_word : (FloatOps.ofBits (F := Ideal) .f32 0x3F800000#32) = (1 : EReal) := by
  rw [Ideal.ofBits_def, Ideal.ofBits_one_f32]

/-- The f32 word of zero, as the instance's constant, is the extended real zero. -/
theorem zero_word : (FloatOps.ofBits (F := Ideal) .f32 0x00000000#32) = (0 : EReal) := by
  rw [Ideal.ofBits_def, Ideal.ofBits_zero_f32]

end Cert.RefCell

end
-- ==== Proof.RefCellConvI.lean ====
/-
  The reference's input gate, first half: its convolution term is the cell's.

  The term is x_aug·W_i + ((h·Wc_i[0] + t1·Wc_i[1]) + bc_i): three matrix products, two of them against the two slabs
  of the Chebyshev weight (a slice followed by a reshape), and a bias broadcast along the rows.
-/
import proofs.«101913_j61426622267687_2_alg».proof.Proof.RefCellBase

noncomputable section

namespace Cert.RefCell

open Cert.ReferenceIdeal Cert.ReferenceIdeal.Gen Cert.ReferenceIdeal.Read Idealize.ShloMosaic Idealize.ShloMosaic.StableHlo

variable (x0 : (⟨S30000x256, .f32⟩ : BufTy).Contents (Elt Ideal))
variable (x1 : (⟨S2x480000, .i32⟩ : BufTy).Contents (Elt Ideal))
variable (x2 : (⟨S480000, .f32⟩ : BufTy).Contents (Elt Ideal))
variable (x3 : (⟨S30000x256, .f32⟩ : BufTy).Contents (Elt Ideal))
variable (x4 : (⟨S30000x256, .f32⟩ : BufTy).Contents (Elt Ideal))
variable (x5 : (⟨S480000, .i32⟩ : BufTy).Contents (Elt Ideal))
variable (x6 : (⟨S480000, .i32⟩ : BufTy).Contents (Elt Ideal))
variable (x7 : (⟨S256x256, .f32⟩ : BufTy).Contents (Elt Ideal))
variable (x8 : (⟨S256x256, .f32⟩ : BufTy).Contents (Elt Ideal))
variable (x9 : (⟨S256x256, .f32⟩ : BufTy).Contents (Elt Ideal))
variable (x10 : (⟨S256x256, .f32⟩ : BufTy).Contents (Elt Ideal))
variable (x11 : (⟨S2x256x256, .f32⟩ : BufTy).Contents (Elt Ideal))
variable (x12 : (⟨S2x256x256, .f32⟩ : BufTy).Contents (Elt Ideal))
variable (x13 : (⟨S2x256x256, .f32⟩ : BufTy).Contents (Elt Ideal))
variable (x14 : (⟨S2x256x256, .f32⟩ : BufTy).Contents (Elt Ideal))
variable (x15 : (⟨S256, .f32⟩ : BufTy).Contents (Elt Ideal))
variable (x16 : (⟨S256, .f32⟩ : BufTy).Contents (Elt Ideal))
variable (x17 : (⟨S256, .f32⟩ : BufTy).Contents (Elt Ideal))
variable (x18 : (⟨S256, .f32⟩ : BufTy).Contents (Elt Ideal))
variable (x19 : (⟨S256, .f32⟩ : BufTy).Contents (Elt Ideal))
variable (x20 : (⟨S256, .f32⟩ : BufTy).Contents (Elt Ideal))
variable (x21 : (⟨S256, .f32⟩ : BufTy).Contents (Elt Ideal))
variable (x22 : (⟨S256, .f32⟩ : BufTy).Contents (Elt Ideal))
variable (x23 : (⟨S256, .f32⟩ : BufTy).Contents (Elt Ideal))
variable (x24 : (⟨S256, .f32⟩ : BufTy).Contents (Elt Ideal))
variable (x25 : (⟨S256, .f32⟩ : BufTy).Contents (Elt Ideal))
variable (x26 : (⟨S256x256, .f32⟩ : BufTy).Contents (Elt Ideal))
variable (x27 : (⟨S256, .f32⟩ : BufTy).Contents (Elt Ideal))

/-! ## Gate I: the convolution term -/

/-- The product of the augmented features with the gate's square weight. -/
theorem v58_eq (r : Fin 30000) (c : Fin 256) :
    val_main_v58 (F := Ideal) x0 x1 x5 x6 x7 (ValueIdx.ix2 r c) = Cell.mm (Cell.toMx (val_main_v31 (F := Ideal) x0 x1 x5 x6)) (Cell.toMx x7) r c := by
  rw [val_main_v58_apply]
  exact sum_eq_mm _ _ _ _ r c (fun k => by idx_rfl2) (fun k => by idx_rfl2)

/-- The reshaped slice of the two-slab weight is its slab 0: entry (k, c) of the stage is the weight at (0, k, c). -/
theorem v60_eq (k c : Fin 256) : val_main_v60 (F := Ideal) x11 (ValueIdx.ix2 k c) = x11 (ValueIdx.ix3 0 k c) := by
  rw [val_main_v60_apply, val_main_v59_apply]
  refine congrArg x11 (funext fun a => Fin.ext ?_)
  have hk := k.isLt
  have hc := c.isLt
  match a with
  | ⟨0, _⟩ => rfl
  | ⟨1, _⟩ => show (k.val * 256 + c.val) / 256 % 256 = k.val; omega
  | ⟨2, _⟩ => show (k.val * 256 + c.val) % 256 = c.val; omega

/-- As a matrix, that stage is slab 0 of the weight. -/
theorem v60_mx : Cell.toMx (val_main_v60 (F := Ideal) x11) = Cell.slab x11 0 :=
  funext fun k => funext fun c => v60_eq x11 k c

/-- The reshaped slice of the two-slab weight is its slab 1: entry (k, c) of the stage is the weight at (1, k, c). -/
theorem v76_eq (k c : Fin 256) : val_main_v76 (F := Ideal) x11 (ValueIdx.ix2 k c) = x11 (ValueIdx.ix3 1 k c) := by
  rw [val_main_v76_apply, val_main_v75_apply]
  refine congrArg x11 (funext fun a => Fin.ext ?_)
  have hk := k.isLt
  have hc := c.isLt
  match a with
  | ⟨0, _⟩ => rfl
  | ⟨1, _⟩ => show (k.val * 256 + c.val) / 256 % 256 = k.val; omega
  | ⟨2, _⟩ => show (k.val * 256 + c.val) % 256 = c.val; omega

/-- As a matrix, that stage is slab 1 of the weight. -/
theorem v76_mx : Cell.toMx (val_main_v76 (F := Ideal) x11) = Cell.slab x11 1 :=
  funext fun k => funext fun c => v76_eq x11 k c

/-- The product of the hidden state with slab 0 of the Chebyshev weight. -/
theorem v61_eq (r : Fin 30000) (c : Fin 256) :
    val_main_v61 (F := Ideal) x3 x11 (ValueIdx.ix2 r c) = Cell.mm (Cell.toMx x3) (Cell.slab x11 0) r c := by
  rw [val_main_v61_apply, ← v60_mx]
  exact sum_eq_mm _ _ _ _ r c (fun k => by idx_rfl2) (fun k => by idx_rfl2)

/-- The product of the first Chebyshev term with slab 1 of the Chebyshev weight. -/
theorem v77_eq (r : Fin 30000) (c : Fin 256) :
    val_main_v77 (F := Ideal) x1 x2 x3 x11 (ValueIdx.ix2 r c) = Cell.mm (Cell.toMx (val_main_v74 (F := Ideal) x1 x2 x3)) (Cell.slab x11 1) r c := by
  rw [val_main_v77_apply, ← v76_mx]
  exact sum_eq_mm _ _ _ _ r c (fun k => by idx_rfl2) (fun k => by idx_rfl2)

/-- The convolution bias broadcast along the rows: entry (r, c) is the bias at c. -/
theorem v80_eq (r : Fin 30000) (c : Fin 256) : val_main_v80 (F := Ideal) x15 (ValueIdx.ix2 r c) = Cell.toVec x15 c := by
  rw [val_main_v80_apply, val_main_v79_apply]
  exact congrArg x15 (by idx_rfl1)

/-- The gate's convolution term is the cell's, with the same grouping of the four summands. -/
theorem convI_eq (r : Fin 30000) (c : Fin 256) :
    val_main_v82 (F := Ideal) x0 x1 x2 x3 x5 x6 x7 x11 x15 (ValueIdx.ix2 r c)
      = Cell.conv (Cell.toMx (val_main_v31 (F := Ideal) x0 x1 x5 x6)) (Cell.toMx x3) (Cell.toMx (val_main_v74 (F := Ideal) x1 x2 x3)) (Cell.toMx x7) (Cell.slab x11 0) (Cell.slab x11 1) (Cell.toVec x15) r c := by
  rw [val_main_v82_apply, val_main_v81_apply, val_main_v78_apply, v58_eq, v61_eq, v77_eq, v80_eq]
  rfl

end Cert.RefCell

end
-- ==== Proof.RefCellGateI.lean ====
/-
  The reference's input gate: i = σ((conv_i + w_ci ∘ c) + b_i), as the cell writes it.
-/
import proofs.«101913_j61426622267687_2_alg».proof.Proof.RefCellConvI

noncomputable section

namespace Cert.RefCell

open Cert.ReferenceIdeal Cert.ReferenceIdeal.Gen Cert.ReferenceIdeal.Read Idealize.ShloMosaic Idealize.ShloMosaic.StableHlo

variable (x0 : (⟨S30000x256, .f32⟩ : BufTy).Contents (Elt Ideal))
variable (x1 : (⟨S2x480000, .i32⟩ : BufTy).Contents (Elt Ideal))
variable (x2 : (⟨S480000, .f32⟩ : BufTy).Contents (Elt Ideal))
variable (x3 : (⟨S30000x256, .f32⟩ : BufTy).Contents (Elt Ideal))
variable (x4 : (⟨S30000x256, .f32⟩ : BufTy).Contents (Elt Ideal))
variable (x5 : (⟨S480000, .i32⟩ : BufTy).Contents (Elt Ideal))
variable (x6 : (⟨S480000, .i32⟩ : BufTy).Contents (Elt Ideal))
variable (x7 : (⟨S256x256, .f32⟩ : BufTy).Contents (Elt Ideal))
variable (x8 : (⟨S256x256, .f32⟩ : BufTy).Contents (Elt Ideal))
variable (x9 : (⟨S256x256, .f32⟩ : BufTy).Contents (Elt Ideal))
variable (x10 : (⟨S256x256, .f32⟩ : BufTy).Contents (Elt Ideal))
variable (x11 : (⟨S2x256x256, .f32⟩ : BufTy).Contents (Elt Ideal))
variable (x12 : (⟨S2x256x256, .f32⟩ : BufTy).Contents (Elt Ideal))
variable (x13 : (⟨S2x256x256, .f32⟩ : BufTy).Contents (Elt Ideal))
variable (x14 : (⟨S2x256x256, .f32⟩ : BufTy).Contents (Elt Ideal))
variable (x15 : (⟨S256, .f32⟩ : BufTy).Contents (Elt Ideal))
variable (x16 : (⟨S256, .f32⟩ : BufTy).Contents (Elt Ideal))
variable (x17 : (⟨S256, .f32⟩ : BufTy).Contents (Elt Ideal))
variable (x18 : (⟨S256, .f32⟩ : BufTy).Contents (Elt Ideal))
variable (x19 : (⟨S256, .f32⟩ : BufTy).Contents (Elt Ideal))
variable (x20 : (⟨S256, .f32⟩ : BufTy).Contents (Elt Ideal))
variable (x21 : (⟨S256, .f32⟩ : BufTy).Contents (Elt Ideal))
variable (x22 : (⟨S256, .f32⟩ : BufTy).Contents (Elt Ideal))
variable (x23 : (⟨S256, .f32⟩ : BufTy).Contents (Elt Ideal))
variable (x24 : (⟨S256, .f32⟩ : BufTy).Contents (Elt Ideal))
variable (x25 : (⟨S256, .f32⟩ : BufTy).Contents (Elt Ideal))
variable (x26 : (⟨S256x256, .f32⟩ : BufTy).Contents (Elt Ideal))
variable (x27 : (⟨S256, .f32⟩ : BufTy).Contents (Elt Ideal))

/-! ## Gate I: peephole, bias and the logistic function -/

/-- The peephole weight broadcast along the rows: entry (r, c) is the vector at c. -/
theorem v84_eq (r : Fin 30000) (c : Fin 256) : val_main_v84 (F := Ideal) x19 (ValueIdx.ix2 r c) = Cell.toVec x19 c := by
  rw [val_main_v84_apply, val_main_v83_apply]
  exact congrArg x19 (by idx_rfl1)

/-- The gate bias broadcast along the rows: entry (r, c) is the vector at c. -/
theorem v88_eq (r : Fin 30000) (c : Fin 256) : val_main_v88 (F := Ideal) x22 (ValueIdx.ix2 r c) = Cell.toVec x22 c := by
  rw [val_main_v88_apply, val_main_v87_apply]
  exact congrArg x22 (by idx_rfl1)

/-- The gate is the logistic function of (convolution + peephole weight ∘ cell state) + bias; the reference writes the
    logistic function as 1 / (1 + exp (-z)), which is its definition. -/
theorem gateI_eq (r : Fin 30000) (c : Fin 256) :
    val_main_v95 (F := Ideal) x0 x1 x2 x3 x4 x5 x6 x7 x11 x15 x19 x22 (ValueIdx.ix2 r c)
      = Cell.peepGate (Cell.conv (Cell.toMx (val_main_v31 (F := Ideal) x0 x1 x5 x6)) (Cell.toMx x3) (Cell.toMx (val_main_v74 (F := Ideal) x1 x2 x3)) (Cell.toMx x7) (Cell.slab x11 0) (Cell.slab x11 1) (Cell.toVec x15)) (Cell.toVec x19) (Cell.toMx x4) (Cell.toVec x22) r c := by
  rw [val_main_v95_apply, val_main_v94_apply, val_main_cst_18_apply, val_main_v93_apply, val_main_v92_apply,
    val_main_cst_17_apply, val_main_v91_apply, val_main_v90_apply, val_main_v89_apply, val_main_v86_apply,
    val_main_v85_apply, convI_eq, v84_eq, v88_eq, one_word]
  rfl

end Cert.RefCell

end
-- ==== Proof.RefCellConvF.lean ====
/-
  The reference's forget gate, first half: its convolution term is the cell's.

  The term is x_aug·W_f + ((h·Wc_f[0] + t1·Wc_f[1]) + bc_f): three matrix products, two of them against the
  two slabs of the Chebyshev weight (a slice followed by a reshape), and a bias broadcast along the rows.
-/
import proofs.«101913_j61426622267687_2_alg».proof.Proof.RefCellBase

noncomputable section

namespace Cert.RefCell

open Cert.ReferenceIdeal Cert.ReferenceIdeal.Gen Cert.ReferenceIdeal.Read Idealize.ShloMosaic Idealize.ShloMosaic.StableHlo

variable (x0 : (⟨S30000x256, .f32⟩ : BufTy).Contents (Elt Ideal))
variable (x1 : (⟨S2x480000, .i32⟩ : BufTy).Contents (Elt Ideal))
variable (x2 : (⟨S480000, .f32⟩ : BufTy).Contents (Elt Ideal))
variable (x3 : (⟨S30000x256, .f32⟩ : BufTy).Contents (Elt Ideal))
variable (x4 : (⟨S30000x256, .f32⟩ : BufTy).Contents (Elt Ideal))
variable (x5 : (⟨S480000, .i32⟩ : BufTy).Contents (Elt Ideal))
variable (x6 : (⟨S480000, .i32⟩ : BufTy).Contents (Elt Ideal))
variable (x7 : (⟨S256x256, .f32⟩ : BufTy).Contents (Elt Ideal))
variable (x8 : (⟨S256x256, .f32⟩ : BufTy).Contents (Elt Ideal))
variable (x9 : (⟨S256x256, .f32⟩ : BufTy).Contents (Elt Ideal))
variable (x10 : (⟨S256x256, .f32⟩ : BufTy).Contents (Elt Ideal))
variable (x11 : (⟨S2x256x256, .f32⟩ : BufTy).Contents (Elt Ideal))
variable (x12 : (⟨S2x256x256, .f32⟩ : BufTy).Contents (Elt Ideal))
variable (x13 : (⟨S2x256x256, .f32⟩ : BufTy).Contents (Elt Ideal))
variable (x14 : (⟨S2x256x256, .f32⟩ : BufTy).Contents (Elt Ideal))
variable (x15 : (⟨S256, .f32⟩ : BufTy).Contents (Elt Ideal))
variable (x16 : (⟨S256, .f32⟩ : BufTy).Contents (Elt Ideal))
variable (x17 : (⟨S256, .f32⟩ : BufTy).Contents (Elt Ideal))
variable (x18 : (⟨S256, .f32⟩ : BufTy).Contents (Elt Ideal))
variable (x19 : (⟨S256, .f32⟩ : BufTy).Contents (Elt Ideal))
variable (x20 : (⟨S256, .f32⟩ : BufTy).Contents (Elt Ideal))
variable (x21 : (⟨S256, .f32⟩ : BufTy).Contents (Elt Ideal))
variable (x22 : (⟨S256, .f32⟩ : BufTy).Contents (Elt Ideal))
variable (x23 : (⟨S256, .f32⟩ : BufTy).Contents (Elt Ideal))
variable (x24 : (⟨S256, .f32⟩ : BufTy).Contents (Elt Ideal))
variable (x25 : (⟨S256, .f32⟩ : BufTy).Contents (Elt Ideal))
variable (x26 : (⟨S256x256, .f32⟩ : BufTy).Contents (Elt Ideal))
variable (x27 : (⟨S256, .f32⟩ : BufTy).Contents (Elt Ideal))

/-! ## Gate F: the convolution term -/

/-- The product of the augmented features with the gate's square weight. -/
theorem v96_eq (r : Fin 30000) (c : Fin 256) :
    val_main_v96 (F := Ideal) x0 x1 x5 x6 x8 (ValueIdx.ix2 r c) = Cell.mm (Cell.toMx (val_main_v31 (F := Ideal) x0 x1 x5 x6)) (Cell.toMx x8) r c := by
  rw [val_main_v96_apply]
  exact sum_eq_mm _ _ _ _ r c (fun k => by idx_rfl2) (fun k => by idx_rfl2)

/-- The reshaped slice of the two-slab weight is its slab 0: entry (k, c) of the stage is the weight at (0, k, c). -/
theorem v98_eq (k c : Fin 256) : val_main_v98 (F := Ideal) x12 (ValueIdx.ix2 k c) = x12 (ValueIdx.ix3 0 k c) := by
  rw [val_main_v98_apply, val_main_v97_apply]
  refine congrArg x12 (funext fun a => Fin.ext ?_)
  have hk := k.isLt
  have hc := c.isLt
  match a with
  | ⟨0, _⟩ => rfl
  | ⟨1, _⟩ => show (k.val * 256 + c.val) / 256 % 256 = k.val; omega
  | ⟨2, _⟩ => show (k.val * 256 + c.val) % 256 = c.val; omega

/-- As a matrix, that stage is slab 0 of the weight. -/
theorem v98_mx : Cell.toMx (val_main_v98 (F := Ideal) x12) = Cell.slab x12 0 :=
  funext fun k => funext fun c => v98_eq x12 k c

/-- The reshaped slice of the two-slab weight is its slab 1: entry (k, c) of the stage is the weight at (1, k, c). -/
theorem v114_eq (k c : Fin 256) : val_main_v114 (F := Ideal) x12 (ValueIdx.ix2 k c) = x12 (ValueIdx.ix3 1 k c) := by
  rw [val_main_v114_apply, val_main_v113_apply]
  refine congrArg x12 (funext fun a => Fin.ext ?_)
  have hk := k.isLt
  have hc := c.isLt
  match a with
  | ⟨0, _⟩ => rfl
  | ⟨1, _⟩ => show (k.val * 256 + c.val) / 256 % 256 = k.val; omega
  | ⟨2, _⟩ => show (k.val * 256 + c.val) % 256 = c.val; omega

/-- As a matrix, that stage is slab 1 of the weight. -/
theorem v114_mx : Cell.toMx (val_main_v114 (F := Ideal) x12) = Cell.slab x12 1 :=
  funext fun k => funext fun c => v114_eq x12 k c

/-- The product of the hidden state with slab 0 of the Chebyshev weight. -/
theorem v99_eq (r : Fin 30000) (c : Fin 256) :
    val_main_v99 (F := Ideal) x3 x12 (ValueIdx.ix2 r c) = Cell.mm (Cell.toMx x3) (Cell.slab x12 0) r c := by
  rw [val_main_v99_apply, ← v98_mx]
  exact sum_eq_mm _ _ _ _ r c (fun k => by idx_rfl2) (fun k => by idx_rfl2)

/-- The product of the first Chebyshev term with slab 1 of the Chebyshev weight. -/
theorem v115_eq (r : Fin 30000) (c : Fin 256) :
    val_main_v115 (F := Ideal) x1 x2 x3 x12 (ValueIdx.ix2 r c) = Cell.mm (Cell.toMx (val_main_v112 (F := Ideal) x1 x2 x3)) (Cell.slab x12 1) r c := by
  rw [val_main_v115_apply, ← v114_mx]
  exact sum_eq_mm _ _ _ _ r c (fun k => by idx_rfl2) (fun k => by idx_rfl2)

/-- The convolution bias broadcast along the rows: entry (r, c) is the bias at c. -/
theorem v118_eq (r : Fin 30000) (c : Fin 256) : val_main_v118 (F := Ideal) x16 (ValueIdx.ix2 r c) = Cell.toVec x16 c := by
  rw [val_main_v118_apply, val_main_v117_apply]
  exact congrArg x16 (by idx_rfl1)

/-- The gate's convolution term is the cell's, with the same grouping of the four summands. -/
theorem convF_eq (r : Fin 30000) (c : Fin 256) :
    val_main_v120 (F := Ideal) x0 x1 x2 x3 x5 x6 x8 x12 x16 (ValueIdx.ix2 r c)
      = Cell.conv (Cell.toMx (val_main_v31 (F := Ideal) x0 x1 x5 x6)) (Cell.toMx x3) (Cell.toMx (val_main_v112 (F := Ideal) x1 x2 x3)) (Cell.toMx x8) (Cell.slab x12 0) (Cell.slab x12 1) (Cell.toVec x16) r c := by
  rw [val_main_v120_apply, val_main_v119_apply, val_main_v116_apply, v96_eq, v99_eq, v115_eq, v118_eq]
  rfl

end Cert.RefCell

end
-- ==== Proof.RefCellGateF.lean ====
/-
  The reference's forget gate: f = σ((conv_f + w_cf ∘ c) + b_f), as the cell writes it.
-/
import proofs.«101913_j61426622267687_2_alg».proof.Proof.RefCellConvF

noncomputable section

namespace Cert.RefCell

open Cert.ReferenceIdeal Cert.ReferenceIdeal.Gen Cert.ReferenceIdeal.Read Idealize.ShloMosaic Idealize.ShloMosaic.StableHlo

variable (x0 : (⟨S30000x256, .f32⟩ : BufTy).Contents (Elt Ideal))
variable (x1 : (⟨S2x480000, .i32⟩ : BufTy).Contents (Elt Ideal))
variable (x2 : (⟨S480000, .f32⟩ : BufTy).Contents (Elt Ideal))
variable (x3 : (⟨S30000x256, .f32⟩ : BufTy).Contents (Elt Ideal))
variable (x4 : (⟨S30000x256, .f32⟩ : BufTy).Contents (Elt Ideal))
variable (x5 : (⟨S480000, .i32⟩ : BufTy).Contents (Elt Ideal))
variable (x6 : (⟨S480000, .i32⟩ : BufTy).Contents (Elt Ideal))
variable (x7 : (⟨S256x256, .f32⟩ : BufTy).Contents (Elt Ideal))
variable (x8 : (⟨S256x256, .f32⟩ : BufTy).Contents (Elt Ideal))
variable (x9 : (⟨S256x256, .f32⟩ : BufTy).Contents (Elt Ideal))
variable (x10 : (⟨S256x256, .f32⟩ : BufTy).Contents (Elt Ideal))
variable (x11 : (⟨S2x256x256, .f32⟩ : BufTy).Contents (Elt Ideal))
variable (x12 : (⟨S2x256x256, .f32⟩ : BufTy).Contents (Elt Ideal))
variable (x13 : (⟨S2x256x256, .f32⟩ : BufTy).Contents (Elt Ideal))
variable (x14 : (⟨S2x256x256, .f32⟩ : BufTy).Contents (Elt Ideal))
variable (x15 : (⟨S256, .f32⟩ : BufTy).Contents (Elt Ideal))
variable (x16 : (⟨S256, .f32⟩ : BufTy).Contents (Elt Ideal))
variable (x17 : (⟨S256, .f32⟩ : BufTy).Contents (Elt Ideal))
variable (x18 : (⟨S256, .f32⟩ : BufTy).Contents (Elt Ideal))
variable (x19 : (⟨S256, .f32⟩ : BufTy).Contents (Elt Ideal))
variable (x20 : (⟨S256, .f32⟩ : BufTy).Contents (Elt Ideal))
variable (x21 : (⟨S256, .f32⟩ : BufTy).Contents (Elt Ideal))
variable (x22 : (⟨S256, .f32⟩ : BufTy).Contents (Elt Ideal))
variable (x23 : (⟨S256, .f32⟩ : BufTy).Contents (Elt Ideal))
variable (x24 : (⟨S256, .f32⟩ : BufTy).Contents (Elt Ideal))
variable (x25 : (⟨S256, .f32⟩ : BufTy).Contents (Elt Ideal))
variable (x26 : (⟨S256x256, .f32⟩ : BufTy).Contents (Elt Ideal))
variable (x27 : (⟨S256, .f32⟩ : BufTy).Contents (Elt Ideal))

/-! ## Gate F: peephole, bias and the logistic function -/

/-- The peephole weight broadcast along the rows: entry (r, c) is the vector at c. -/
theorem v122_eq (r : Fin 30000) (c : Fin 256) : val_main_v122 (F := Ideal) x20 (ValueIdx.ix2 r c) = Cell.toVec x20 c := by
  rw [val_main_v122_apply, val_main_v121_apply]
  exact congrArg x20 (by idx_rfl1)

/-- The gate bias broadcast along the rows: entry (r, c) is the vector at c. -/
theorem v126_eq (r : Fin 30000) (c : Fin 256) : val_main_v126 (F := Ideal) x23 (ValueIdx.ix2 r c) = Cell.toVec x23 c := by
  rw [val_main_v126_apply, val_main_v125_apply]
  exact congrArg x23 (by idx_rfl1)

/-- The gate is the logistic function of (convolution + peephole weight ∘ cell state) + bias; the reference writes the
    logistic function as 1 / (1 + exp (-z)), which is its definition. -/
theorem gateF_eq (r : Fin 30000) (c : Fin 256) :
    val_main_v133 (F := Ideal) x0 x1 x2 x3 x4 x5 x6 x8 x12 x16 x20 x23 (ValueIdx.ix2 r c)
      = Cell.peepGate (Cell.conv (Cell.toMx (val_main_v31 (F := Ideal) x0 x1 x5 x6)) (Cell.toMx x3) (Cell.toMx (val_main_v112 (F := Ideal) x1 x2 x3)) (Cell.toMx x8) (Cell.slab x12 0) (Cell.slab x12 1) (Cell.toVec x16)) (Cell.toVec x20) (Cell.toMx x4) (Cell.toVec x23) r c := by
  rw [val_main_v133_apply, val_main_v132_apply, val_main_cst_23_apply, val_main_v131_apply, val_main_v130_apply,
    val_main_cst_22_apply, val_main_v129_apply, val_main_v128_apply, val_main_v127_apply, val_main_v124_apply,
    val_main_v123_apply, convF_eq, v122_eq, v126_eq, one_word]
  rfl

end Cert.RefCell

end
-- ==== Proof.RefCellConvG.lean ====
/-
  The reference's candidate gate, first half: its convolution term is the cell's.

  The term is x_aug·W_g + ((h·Wc_g[0] + t1·Wc_g[1]) + bc_g): three matrix products, two of them against the
  two slabs of the Chebyshev weight (a slice followed by a reshape), and a bias broadcast along the rows.
-/
import proofs.«101913_j61426622267687_2_alg».proof.Proof.RefCellBase

noncomputable section

namespace Cert.RefCell

open Cert.ReferenceIdeal Cert.ReferenceIdeal.Gen Cert.ReferenceIdeal.Read Idealize.ShloMosaic Idealize.ShloMosaic.StableHlo

variable (x0 : (⟨S30000x256, .f32⟩ : BufTy).Contents (Elt Ideal))
variable (x1 : (⟨S2x480000, .i32⟩ : BufTy).Contents (Elt Ideal))
variable (x2 : (⟨S480000, .f32⟩ : BufTy).Contents (Elt Ideal))
variable (x3 : (⟨S30000x256, .f32⟩ : BufTy).Contents (Elt Ideal))
variable (x4 : (⟨S30000x256, .f32⟩ : BufTy).Contents (Elt Ideal))
variable (x5 : (⟨S480000, .i32⟩ : BufTy).Contents (Elt Ideal))
variable (x6 : (⟨S480000, .i32⟩ : BufTy).Contents (Elt Ideal))
variable (x7 : (⟨S256x256, .f32⟩ : BufTy).Contents (Elt Ideal))
variable (x8 : (⟨S256x256, .f32⟩ : BufTy).Contents (Elt Ideal))
variable (x9 : (⟨S256x256, .f32⟩ : BufTy).Contents (Elt Ideal))
variable (x10 : (⟨S256x256, .f32⟩ : BufTy).Contents (Elt Ideal))
variable (x11 : (⟨S2x256x256, .f32⟩ : BufTy).Contents (Elt Ideal))
variable (x12 : (⟨S2x256x256, .f32⟩ : BufTy).Contents (Elt Ideal))
variable (x13 : (⟨S2x256x256, .f32⟩ : BufTy).Contents (Elt Ideal))
variable (x14 : (⟨S2x256x256, .f32⟩ : BufTy).Contents (Elt Ideal))
variable (x15 : (⟨S256, .f32⟩ : BufTy).Contents (Elt Ideal))
variable (x16 : (⟨S256, .f32⟩ : BufTy).Contents (Elt Ideal))
variable (x17 : (⟨S256, .f32⟩ : BufTy).Contents (Elt Ideal))
variable (x18 : (⟨S256, .f32⟩ : BufTy).Contents (Elt Ideal))
variable (x19 : (⟨S256, .f32⟩ : BufTy).Contents (Elt Ideal))
variable (x20 : (⟨S256, .f32⟩ : BufTy).Contents (Elt Ideal))
variable (x21 : (⟨S256, .f32⟩ : BufTy).Contents (Elt Ideal))
variable (x22 : (⟨S256, .f32⟩ : BufTy).Contents (Elt Ideal))
variable (x23 : (⟨S256, .f32⟩ : BufTy).Contents (Elt Ideal))
variable (x24 : (⟨S256, .f32⟩ : BufTy).Contents (Elt Ideal))
variable (x25 : (⟨S256, .f32⟩ : BufTy).Contents (Elt Ideal))
variable (x26 : (⟨S256x256, .f32⟩ : BufTy).Contents (Elt Ideal))
variable (x27 : (⟨S256, .f32⟩ : BufTy).Contents (Elt Ideal))

/-! ## Gate G: the convolution term -/

/-- The product of the augmented features with the gate's square weight. -/
theorem v134_eq (r : Fin 30000) (c : Fin 256) :
    val_main_v134 (F := Ideal) x0 x1 x5 x6 x9 (ValueIdx.ix2 r c) = Cell.mm (Cell.toMx (val_main_v31 (F := Ideal) x0 x1 x5 x6)) (Cell.toMx x9) r c := by
  rw [val_main_v134_apply]
  exact sum_eq_mm _ _ _ _ r c (fun k => by idx_rfl2) (fun k => by idx_rfl2)

/-- The reshaped slice of the two-slab weight is its slab 0: entry (k, c) of the stage is the weight at (0, k, c). -/
theorem v136_eq (k c : Fin 256) : val_main_v136 (F := Ideal) x13 (ValueIdx.ix2 k c) = x13 (ValueIdx.ix3 0 k c) := by
  rw [val_main_v136_apply, val_main_v135_apply]
  refine congrArg x13 (funext fun a => Fin.ext ?_)
  have hk := k.isLt
  have hc := c.isLt
  match a with
  | ⟨0, _⟩ => rfl
  | ⟨1, _⟩ => show (k.val * 256 + c.val) / 256 % 256 = k.val; omega
  | ⟨2, _⟩ => show (k.val * 256 + c.val) % 256 = c.val; omega

/-- As a matrix, that stage is slab 0 of the weight. -/
theorem v136_mx : Cell.toMx (val_main_v136 (F := Ideal) x13) = Cell.slab x13 0 :=
  funext fun k => funext fun c => v136_eq x13 k c

/-- The reshaped slice of the two-slab weight is its slab 1: entry (k, c) of the stage is the weight at (1, k, c). -/
theorem v152_eq (k c : Fin 256) : val_main_v152 (F := Ideal) x13 (ValueIdx.ix2 k c) = x13 (ValueIdx.ix3 1 k c) := by
  rw [val_main_v152_apply, val_main_v151_apply]
  refine congrArg x13 (funext fun a => Fin.ext ?_)
  have hk := k.isLt
  have hc := c.isLt
  match a with
  | ⟨0, _⟩ => rfl
  | ⟨1, _⟩ => show (k.val * 256 + c.val) / 256 % 256 = k.val; omega
  | ⟨2, _⟩ => show (k.val * 256 + c.val) % 256 = c.val; omega

/-- As a matrix, that stage is slab 1 of the weight. -/
theorem v152_mx : Cell.toMx (val_main_v152 (F := Ideal) x13) = Cell.slab x13 1 :=
  funext fun k => funext fun c => v152_eq x13 k c

/-- The product of the hidden state with slab 0 of the Chebyshev weight. -/
theorem v137_eq (r : Fin 30000) (c : Fin 256) :
    val_main_v137 (F := Ideal) x3 x13 (ValueIdx.ix2 r c) = Cell.mm (Cell.toMx x3) (Cell.slab x13 0) r c := by
  rw [val_main_v137_apply, ← v136_mx]
  exact sum_eq_mm _ _ _ _ r c (fun k => by idx_rfl2) (fun k => by idx_rfl2)

/-- The product of the first Chebyshev term with slab 1 of the Chebyshev weight. -/
theorem v153_eq (r : Fin 30000) (c : Fin 256) :
    val_main_v153 (F := Ideal) x1 x2 x3 x13 (ValueIdx.ix2 r c) = Cell.mm (Cell.toMx (val_main_v150 (F := Ideal) x1 x2 x3)) (Cell.slab x13 1) r c := by
  rw [val_main_v153_apply, ← v152_mx]
  exact sum_eq_mm _ _ _ _ r c (fun k => by idx_rfl2) (fun k => by idx_rfl2)

/-- The convolution bias broadcast along the rows: entry (r, c) is the bias at c. -/
theorem v156_eq (r : Fin 30000) (c : Fin 256) : val_main_v156 (F := Ideal) x17 (ValueIdx.ix2 r c) = Cell.toVec x17 c := by
  rw [val_main_v156_apply, val_main_v155_apply]
  exact congrArg x17 (by idx_rfl1)

/-- The gate's convolution term is the cell's, with the same grouping of the four summands. -/
theorem convG_eq (r : Fin 30000) (c : Fin 256) :
    val_main_v158 (F := Ideal) x0 x1 x2 x3 x5 x6 x9 x13 x17 (ValueIdx.ix2 r c)
      = Cell.conv (Cell.toMx (val_main_v31 (F := Ideal) x0 x1 x5 x6)) (Cell.toMx x3) (Cell.toMx (val_main_v150 (F := Ideal) x1 x2 x3)) (Cell.toMx x9) (Cell.slab x13 0) (Cell.slab x13 1) (Cell.toVec x17) r c := by
  rw [val_main_v158_apply, val_main_v157_apply, val_main_v154_apply, v134_eq, v137_eq, v153_eq, v156_eq]
  rfl

end Cert.RefCell

end
-- ==== Proof.RefCellGateG.lean ====
/-
  The reference's candidate gate: g = tanh(conv_g + b_g), as the cell writes it.
-/
import proofs.«101913_j61426622267687_2_alg».proof.Proof.RefCellConvG

noncomputable section

namespace Cert.RefCell

open Cert.ReferenceIdeal Cert.ReferenceIdeal.Gen Cert.ReferenceIdeal.Read Idealize.ShloMosaic Idealize.ShloMosaic.StableHlo

variable (x0 : (⟨S30000x256, .f32⟩ : BufTy).Contents (Elt Ideal))
variable (x1 : (⟨S2x480000, .i32⟩ : BufTy).Contents (Elt Ideal))
variable (x2 : (⟨S480000, .f32⟩ : BufTy).Contents (Elt Ideal))
variable (x3 : (⟨S30000x256, .f32⟩ : BufTy).Contents (Elt Ideal))
variable (x4 : (⟨S30000x256, .f32⟩ : BufTy).Contents (Elt Ideal))
variable (x5 : (⟨S480000, .i32⟩ : BufTy).Contents (Elt Ideal))
variable (x6 : (⟨S480000, .i32⟩ : BufTy).Contents (Elt Ideal))
variable (x7 : (⟨S256x256, .f32⟩ : BufTy).Contents (Elt Ideal))
variable (x8 : (⟨S256x256, .f32⟩ : BufTy).Contents (Elt Ideal))
variable (x9 : (⟨S256x256, .f32⟩ : BufTy).Contents (Elt Ideal))
variable (x10 : (⟨S256x256, .f32⟩ : BufTy).Contents (Elt Ideal))
variable (x11 : (⟨S2x256x256, .f32⟩ : BufTy).Contents (Elt Ideal))
variable (x12 : (⟨S2x256x256, .f32⟩ : BufTy).Contents (Elt Ideal))
variable (x13 : (⟨S2x256x256, .f32⟩ : BufTy).Contents (Elt Ideal))
variable (x14 : (⟨S2x256x256, .f32⟩ : BufTy).Contents (Elt Ideal))
variable (x15 : (⟨S256, .f32⟩ : BufTy).Contents (Elt Ideal))
variable (x16 : (⟨S256, .f32⟩ : BufTy).Contents (Elt Ideal))
variable (x17 : (⟨S256, .f32⟩ : BufTy).Contents (Elt Ideal))
variable (x18 : (⟨S256, .f32⟩ : BufTy).Contents (Elt Ideal))
variable (x19 : (⟨S256, .f32⟩ : BufTy).Contents (Elt Ideal))
variable (x20 : (⟨S256, .f32⟩ : BufTy).Contents (Elt Ideal))
variable (x21 : (⟨S256, .f32⟩ : BufTy).Contents (Elt Ideal))
variable (x22 : (⟨S256, .f32⟩ : BufTy).Contents (Elt Ideal))
variable (x23 : (⟨S256, .f32⟩ : BufTy).Contents (Elt Ideal))
variable (x24 : (⟨S256, .f32⟩ : BufTy).Contents (Elt Ideal))
variable (x25 : (⟨S256, .f32⟩ : BufTy).Contents (Elt Ideal))
variable (x26 : (⟨S256x256, .f32⟩ : BufTy).Contents (Elt Ideal))
variable (x27 : (⟨S256, .f32⟩ : BufTy).Contents (Elt Ideal))

/-! ## Gate G: bias and the hyperbolic tangent -/

/-- The gate bias broadcast along the rows: entry (r, c) is the vector at c. -/
theorem v160_eq (r : Fin 30000) (c : Fin 256) : val_main_v160 (F := Ideal) x24 (ValueIdx.ix2 r c) = Cell.toVec x24 c := by
  rw [val_main_v160_apply, val_main_v159_apply]
  exact congrArg x24 (by idx_rfl1)

/-- The candidate gate is tanh (convolution + bias). -/
theorem gateG_eq (r : Fin 30000) (c : Fin 256) :
    val_main_v162 (F := Ideal) x0 x1 x2 x3 x5 x6 x9 x13 x17 x24 (ValueIdx.ix2 r c)
      = Cell.candGate (Cell.conv (Cell.toMx (val_main_v31 (F := Ideal) x0 x1 x5 x6)) (Cell.toMx x3) (Cell.toMx (val_main_v150 (F := Ideal) x1 x2 x3)) (Cell.toMx x9) (Cell.slab x13 0) (Cell.slab x13 1) (Cell.toVec x17)) (Cell.toVec x24) r c := by
  rw [val_main_v162_apply, val_main_v161_apply, convG_eq, v160_eq]
  rfl

end Cert.RefCell

end
-- ==== Proof.RefCellConvO.lean ====
/-
  The reference's output gate, first half: its convolution term is the cell's.

  The term is x_aug·W_o + ((h·Wc_o[0] + t1·Wc_o[1]) + bc_o): three matrix products, two of them against the
  two slabs of the Chebyshev weight (a slice followed by a reshape), and a bias broadcast along the rows.
-/
import proofs.«101913_j61426622267687_2_alg».proof.Proof.RefCellBase

noncomputable section

namespace Cert.RefCell

open Cert.ReferenceIdeal Cert.ReferenceIdeal.Gen Cert.ReferenceIdeal.Read Idealize.ShloMosaic Idealize.ShloMosaic.StableHlo

variable (x0 : (⟨S30000x256, .f32⟩ : BufTy).Contents (Elt Ideal))
variable (x1 : (⟨S2x480000, .i32⟩ : BufTy).Contents (Elt Ideal))
variable (x2 : (⟨S480000, .f32⟩ : BufTy).Contents (Elt Ideal))
variable (x3 : (⟨S30000x256, .f32⟩ : BufTy).Contents (Elt Ideal))
variable (x4 : (⟨S30000x256, .f32⟩ : BufTy).Contents (Elt Ideal))
variable (x5 : (⟨S480000, .i32⟩ : BufTy).Contents (Elt Ideal))
variable (x6 : (⟨S480000, .i32⟩ : BufTy).Contents (Elt Ideal))
variable (x7 : (⟨S256x256, .f32⟩ : BufTy).Contents (Elt Ideal))
variable (x8 : (⟨S256x256, .f32⟩ : BufTy).Contents (Elt Ideal))
variable (x9 : (⟨S256x256, .f32⟩ : BufTy).Contents (Elt Ideal))
variable (x10 : (⟨S256x256, .f32⟩ : BufTy).Contents (Elt Ideal))
variable (x11 : (⟨S2x256x256, .f32⟩ : BufTy).Contents (Elt Ideal))
variable (x12 : (⟨S2x256x256, .f32⟩ : BufTy).Contents (Elt Ideal))
variable (x13 : (⟨S2x256x256, .f32⟩ : BufTy).Contents (Elt Ideal))
variable (x14 : (⟨S2x256x256, .f32⟩ : BufTy).Contents (Elt Ideal))
variable (x15 : (⟨S256, .f32⟩ : BufTy).Contents (Elt Ideal))
variable (x16 : (⟨S256, .f32⟩ : BufTy).Contents (Elt Ideal))
variable (x17 : (⟨S256, .f32⟩ : BufTy).Contents (Elt Ideal))
variable (x18 : (⟨S256, .f32⟩ : BufTy).Contents (Elt Ideal))
variable (x19 : (⟨S256, .f32⟩ : BufTy).Contents (Elt Ideal))
variable (x20 : (⟨S256, .f32⟩ : BufTy).Contents (Elt Ideal))
variable (x21 : (⟨S256, .f32⟩ : BufTy).Contents (Elt Ideal))
variable (x22 : (⟨S256, .f32⟩ : BufTy).Contents (Elt Ideal))
variable (x23 : (⟨S256, .f32⟩ : BufTy).Contents (Elt Ideal))
variable (x24 : (⟨S256, .f32⟩ : BufTy).Contents (Elt Ideal))
variable (x25 : (⟨S256, .f32⟩ : BufTy).Contents (Elt Ideal))
variable (x26 : (⟨S256x256, .f32⟩ : BufTy).Contents (Elt Ideal))
variable (x27 : (⟨S256, .f32⟩ : BufTy).Contents (Elt Ideal))

/-! ## Gate O: the convolution term -/

/-- The product of the augmented features with the gate's square weight. -/
theorem v166_eq (r : Fin 30000) (c : Fin 256) :
    val_main_v166 (F := Ideal) x0 x1 x5 x6 x10 (ValueIdx.ix2 r c) = Cell.mm (Cell.toMx (val_main_v31 (F := Ideal) x0 x1 x5 x6)) (Cell.toMx x10) r c := by
  rw [val_main_v166_apply]
  exact sum_eq_mm _ _ _ _ r c (fun k => by idx_rfl2) (fun k => by idx_rfl2)

/-- The reshaped slice of the two-slab weight is its slab 0: entry (k, c) of the stage is the weight at (0, k, c). -/
theorem v168_eq (k c : Fin 256) : val_main_v168 (F := Ideal) x14 (ValueIdx.ix2 k c) = x14 (ValueIdx.ix3 0 k c) := by
  rw [val_main_v168_apply, val_main_v167_apply]
  refine congrArg x14 (funext fun a => Fin.ext ?_)
  have hk := k.isLt
  have hc := c.isLt
  match a with
  | ⟨0, _⟩ => rfl
  | ⟨1, _⟩ => show (k.val * 256 + c.val) / 256 % 256 = k.val; omega
  | ⟨2, _⟩ => show (k.val * 256 + c.val) % 256 = c.val; omega

/-- As a matrix, that stage is slab 0 of the weight. -/
theorem v168_mx : Cell.toMx (val_main_v168 (F := Ideal) x14) = Cell.slab x14 0 :=
  funext fun k => funext fun c => v168_eq x14 k c

/-- The reshaped slice of the two-slab weight is its slab 1: entry (k, c) of the stage is the weight at (1, k, c). -/
theorem v184_eq (k c : Fin 256) : val_main_v184 (F := Ideal) x14 (ValueIdx.ix2 k c) = x14 (ValueIdx.ix3 1 k c) := by
  rw [val_main_v184_apply, val_main_v183_apply]
  refine congrArg x14 (funext fun a => Fin.ext ?_)
  have hk := k.isLt
  have hc := c.isLt
  match a with
  | ⟨0, _⟩ => rfl
  | ⟨1, _⟩ => show (k.val * 256 + c.val) / 256 % 256 = k.val; omega
  | ⟨2, _⟩ => show (k.val * 256 + c.val) % 256 = c.val; omega

/-- As a matrix, that stage is slab 1 of the weight. -/
theorem v184_mx : Cell.toMx (val_main_v184 (F := Ideal) x14) = Cell.slab x14 1 :=
  funext fun k => funext fun c => v184_eq x14 k c

/-- The product of the hidden state with slab 0 of the Chebyshev weight. -/
theorem v169_eq (r : Fin 30000) (c : Fin 256) :
    val_main_v169 (F := Ideal) x3 x14 (ValueIdx.ix2 r c) = Cell.mm (Cell.toMx x3) (Cell.slab x14 0) r c := by
  rw [val_main_v169_apply, ← v168_mx]
  exact sum_eq_mm _ _ _ _ r c (fun k => by idx_rfl2) (fun k => by idx_rfl2)

/-- The product of the first Chebyshev term with slab 1 of the Chebyshev weight. -/
theorem v185_eq (r : Fin 30000) (c : Fin 256) :
    val_main_v185 (F := Ideal) x1 x2 x3 x14 (ValueIdx.ix2 r c) = Cell.mm (Cell.toMx (val_main_v182 (F := Ideal) x1 x2 x3)) (Cell.slab x14 1) r c := by
  rw [val_main_v185_apply, ← v184_mx]
  exact sum_eq_mm _ _ _ _ r c (fun k => by idx_rfl2) (fun k => by idx_rfl2)

/-- The convolution bias broadcast along the rows: entry (r, c) is the bias at c. -/
theorem v188_eq (r : Fin 30000) (c : Fin 256) : val_main_v188 (F := Ideal) x18 (ValueIdx.ix2 r c) = Cell.toVec x18 c := by
  rw [val_main_v188_apply, val_main_v187_apply]
  exact congrArg x18 (by idx_rfl1)

/-- The gate's convolution term is the cell's, with the same grouping of the four summands. -/
theorem convO_eq (r : Fin 30000) (c : Fin 256) :
    val_main_v190 (F := Ideal) x0 x1 x2 x3 x5 x6 x10 x14 x18 (ValueIdx.ix2 r c)
      = Cell.conv (Cell.toMx (val_main_v31 (F := Ideal) x0 x1 x5 x6)) (Cell.toMx x3) (Cell.toMx (val_main_v182 (F := Ideal) x1 x2 x3)) (Cell.toMx x10) (Cell.slab x14 0) (Cell.slab x14 1) (Cell.toVec x18) r c := by
  rw [val_main_v190_apply, val_main_v189_apply, val_main_v186_apply, v166_eq, v169_eq, v185_eq, v188_eq]
  rfl

end Cert.RefCell

end
-- ==== Proof.RefCellGateO.lean ====
/-
  The reference's output gate: o = σ((conv_o + w_co ∘ c') + b_o) with c' the reference's own new cell state,
  as the cell writes it.
-/
import proofs.«101913_j61426622267687_2_alg».proof.Proof.RefCellConvO

noncomputable section

namespace Cert.RefCell

open Cert.ReferenceIdeal Cert.ReferenceIdeal.Gen Cert.ReferenceIdeal.Read Idealize.ShloMosaic Idealize.ShloMosaic.StableHlo

variable (x0 : (⟨S30000x256, .f32⟩ : BufTy).Contents (Elt Ideal))
variable (x1 : (⟨S2x480000, .i32⟩ : BufTy).Contents (Elt Ideal))
variable (x2 : (⟨S480000, .f32⟩ : BufTy).Contents (Elt Ideal))
variable (x3 : (⟨S30000x256, .f32⟩ : BufTy).Contents (Elt Ideal))
variable (x4 : (⟨S30000x256, .f32⟩ : BufTy).Contents (Elt Ideal))
variable (x5 : (⟨S480000, .i32⟩ : BufTy).Contents (Elt Ideal))
variable (x6 : (⟨S480000, .i32⟩ : BufTy).Contents (Elt Ideal))
variable (x7 : (⟨S256x256, .f32⟩ : BufTy).Contents (Elt Ideal))
variable (x8 : (⟨S256x256, .f32⟩ : BufTy).Contents (Elt Ideal))
variable (x9 : (⟨S256x256, .f32⟩ : BufTy).Contents (Elt Ideal))
variable (x10 : (⟨S256x256, .f32⟩ : BufTy).Contents (Elt Ideal))
variable (x11 : (⟨S2x256x256, .f32⟩ : BufTy).Contents (Elt Ideal))
variable (x12 : (⟨S2x256x256, .f32⟩ : BufTy).Contents (Elt Ideal))
variable (x13 : (⟨S2x256x256, .f32⟩ : BufTy).Contents (Elt Ideal))
variable (x14 : (⟨S2x256x256, .f32⟩ : BufTy).Contents (Elt Ideal))
variable (x15 : (⟨S256, .f32⟩ : BufTy).Contents (Elt Ideal))
variable (x16 : (⟨S256, .f32⟩ : BufTy).Contents (Elt Ideal))
variable (x17 : (⟨S256, .f32⟩ : BufTy).Contents (Elt Ideal))
variable (x18 : (⟨S256, .f32⟩ : BufTy).Contents (Elt Ideal))
variable (x19 : (⟨S256, .f32⟩ : BufTy).Contents (Elt Ideal))
variable (x20 : (⟨S256, .f32⟩ : BufTy).Contents (Elt Ideal))
variable (x21 : (⟨S256, .f32⟩ : BufTy).Contents (Elt Ideal))
variable (x22 : (⟨S256, .f32⟩ : BufTy).Contents (Elt Ideal))
variable (x23 : (⟨S256, .f32⟩ : BufTy).Contents (Elt Ideal))
variable (x24 : (⟨S256, .f32⟩ : BufTy).Contents (Elt Ideal))
variable (x25 : (⟨S256, .f32⟩ : BufTy).Contents (Elt Ideal))
variable (x26 : (⟨S256x256, .f32⟩ : BufTy).Contents (Elt Ideal))
variable (x27 : (⟨S256, .f32⟩ : BufTy).Contents (Elt Ideal))

/-! ## Gate O: peephole, bias and the logistic function -/

/-- The peephole weight broadcast along the rows: entry (r, c) is the vector at c. -/
theorem v192_eq (r : Fin 30000) (c : Fin 256) : val_main_v192 (F := Ideal) x21 (ValueIdx.ix2 r c) = Cell.toVec x21 c := by
  rw [val_main_v192_apply, val_main_v191_apply]
  exact congrArg x21 (by idx_rfl1)

/-- The gate bias broadcast along the rows: entry (r, c) is the vector at c. -/
theorem v196_eq (r : Fin 30000) (c : Fin 256) : val_main_v196 (F := Ideal) x25 (ValueIdx.ix2 r c) = Cell.toVec x25 c := by
  rw [val_main_v196_apply, val_main_v195_apply]
  exact congrArg x25 (by idx_rfl1)

/-- The gate is the logistic function of (convolution + peephole weight ∘ new cell state) + bias; the reference writes the
    logistic function as 1 / (1 + exp (-z)), which is its definition. -/
theorem gateO_eq (r : Fin 30000) (c : Fin 256) :
    val_main_v203 (F := Ideal) x0 x1 x2 x3 x4 x5 x6 x7 x8 x9 x10 x11 x12 x13 x14 x15 x16 x17 x18 x19 x20 x21 x22 x23 x24 x25 (ValueIdx.ix2 r c)
      = Cell.peepGate (Cell.conv (Cell.toMx (val_main_v31 (F := Ideal) x0 x1 x5 x6)) (Cell.toMx x3) (Cell.toMx (val_main_v182 (F := Ideal) x1 x2 x3)) (Cell.toMx x10) (Cell.slab x14 0) (Cell.slab x14 1) (Cell.toVec x18)) (Cell.toVec x21) (Cell.toMx (val_main_v165 (F := Ideal) x0 x1 x2 x3 x4 x5 x6 x7 x8 x9 x11 x12 x13 x15 x16 x17 x19 x20 x22 x23 x24)) (Cell.toVec x25) r c := by
  rw [val_main_v203_apply, val_main_v202_apply, val_main_cst_31_apply, val_main_v201_apply, val_main_v200_apply,
    val_main_cst_30_apply, val_main_v199_apply, val_main_v198_apply, val_main_v197_apply, val_main_v194_apply,
    val_main_v193_apply, convO_eq, v192_eq, v196_eq, one_word]
  rfl

end Cert.RefCell

end
-- ==== Proof.RefCell.lean ====
/-
  The reference's dense stages are the cell.

  With the augmented features and the four copies of the first Chebyshev term taken as given matrices, the
  reference's three results are the cell's new cell state, hidden output and readout, entry by entry:
    c' = f ∘ c + i ∘ g,   h0 = o ∘ tanh c',   h_out = max(h0, 0)·W_lin + b_lin.
-/
import proofs.«101913_j61426622267687_2_alg».proof.Proof.RefCellGateI
import proofs.«101913_j61426622267687_2_alg».proof.Proof.RefCellGateF
import proofs.«101913_j61426622267687_2_alg».proof.Proof.RefCellGateG
import proofs.«101913_j61426622267687_2_alg».proof.Proof.RefCellGateO

noncomputable section

namespace Cert.RefCell

open Cert.ReferenceIdeal Cert.ReferenceIdeal.Gen Cert.ReferenceIdeal.Read Idealize.ShloMosaic Idealize.ShloMosaic.StableHlo

variable (x0 : (⟨S30000x256, .f32⟩ : BufTy).Contents (Elt Ideal))
variable (x1 : (⟨S2x480000, .i32⟩ : BufTy).Contents (Elt Ideal))
variable (x2 : (⟨S480000, .f32⟩ : BufTy).Contents (Elt Ideal))
variable (x3 : (⟨S30000x256, .f32⟩ : BufTy).Contents (Elt Ideal))
variable (x4 : (⟨S30000x256, .f32⟩ : BufTy).Contents (Elt Ideal))
variable (x5 : (⟨S480000, .i32⟩ : BufTy).Contents (Elt Ideal))
variable (x6 : (⟨S480000, .i32⟩ : BufTy).Contents (Elt Ideal))
variable (x7 : (⟨S256x256, .f32⟩ : BufTy).Contents (Elt Ideal))
variable (x8 : (⟨S256x256, .f32⟩ : BufTy).Contents (Elt Ideal))
variable (x9 : (⟨S256x256, .f32⟩ : BufTy).Contents (Elt Ideal))
variable (x10 : (⟨S256x256, .f32⟩ : BufTy).Contents (Elt Ideal))
variable (x11 : (⟨S2x256x256, .f32⟩ : BufTy).Contents (Elt Ideal))
variable (x12 : (⟨S2x256x256, .f32⟩ : BufTy).Contents (Elt Ideal))
variable (x13 : (⟨S2x256x256, .f32⟩ : BufTy).Contents (Elt Ideal))
variable (x14 : (⟨S2x256x256, .f32⟩ : BufTy).Contents (Elt Ideal))
variable (x15 : (⟨S256, .f32⟩ : BufTy).Contents (Elt Ideal))
variable (x16 : (⟨S256, .f32⟩ : BufTy).Contents (Elt Ideal))
variable (x17 : (⟨S256, .f32⟩ : BufTy).Contents (Elt Ideal))
variable (x18 : (⟨S256, .f32⟩ : BufTy).Contents (Elt Ideal))
variable (x19 : (⟨S256, .f32⟩ : BufTy).Contents (Elt Ideal))
variable (x20 : (⟨S256, .f32⟩ : BufTy).Contents (Elt Ideal))
variable (x21 : (⟨S256, .f32⟩ : BufTy).Contents (Elt Ideal))
variable (x22 : (⟨S256, .f32⟩ : BufTy).Contents (Elt Ideal))
variable (x23 : (⟨S256, .f32⟩ : BufTy).Contents (Elt Ideal))
variable (x24 : (⟨S256, .f32⟩ : BufTy).Contents (Elt Ideal))
variable (x25 : (⟨S256, .f32⟩ : BufTy).Contents (Elt Ideal))
variable (x26 : (⟨S256x256, .f32⟩ : BufTy).Contents (Elt Ideal))
variable (x27 : (⟨S256, .f32⟩ : BufTy).Contents (Elt Ideal))

/-- The new cell state (the third result): f ∘ c + i ∘ g. -/
theorem ref_cNew (r : Fin 30000) (c : Fin 256) :
    val_main_v165 (F := Ideal) x0 x1 x2 x3 x4 x5 x6 x7 x8 x9 x11 x12 x13 x15 x16 x17 x19 x20 x22 x23 x24 (ValueIdx.ix2 r c)
      = Cell.cNew (Cell.params x3 x4 x7 x8 x9 x10 x11 x12 x13 x14 x15 x16 x17 x18 x19 x20 x21 x22 x23 x24 x25 x26 x27) (Cell.toMx (val_main_v31 (F := Ideal) x0 x1 x5 x6)) (Cell.toMx (val_main_v74 (F := Ideal) x1 x2 x3)) (Cell.toMx (val_main_v112 (F := Ideal) x1 x2 x3)) (Cell.toMx (val_main_v150 (F := Ideal) x1 x2 x3)) r c := by
  rw [val_main_v165_apply, val_main_v163_apply, val_main_v164_apply, gateF_eq, gateI_eq, gateG_eq]
  rfl

/-- The new cell state as a matrix. -/
theorem ref_cNew_mx :
    (Cell.toMx (val_main_v165 (F := Ideal) x0 x1 x2 x3 x4 x5 x6 x7 x8 x9 x11 x12 x13 x15 x16 x17 x19 x20 x22 x23 x24)) = Cell.cNew (Cell.params x3 x4 x7 x8 x9 x10 x11 x12 x13 x14 x15 x16 x17 x18 x19 x20 x21 x22 x23 x24 x25 x26 x27) (Cell.toMx (val_main_v31 (F := Ideal) x0 x1 x5 x6)) (Cell.toMx (val_main_v74 (F := Ideal) x1 x2 x3)) (Cell.toMx (val_main_v112 (F := Ideal) x1 x2 x3)) (Cell.toMx (val_main_v150 (F := Ideal) x1 x2 x3)) :=
  funext fun r => funext fun c => ref_cNew x0 x1 x2 x3 x4 x5 x6 x7 x8 x9 x10 x11 x12 x13 x14 x15 x16 x17 x18 x19 x20 x21 x22 x23 x24 x25 x26 x27 r c

/-- The hidden output before the readout (the second result): o ∘ tanh c'. -/
theorem ref_h0 (r : Fin 30000) (c : Fin 256) :
    val_main_v205 (F := Ideal) x0 x1 x2 x3 x4 x5 x6 x7 x8 x9 x10 x11 x12 x13 x14 x15 x16 x17 x18 x19 x20 x21 x22 x23 x24 x25 (ValueIdx.ix2 r c)
      = Cell.h0 (Cell.params x3 x4 x7 x8 x9 x10 x11 x12 x13 x14 x15 x16 x17 x18 x19 x20 x21 x22 x23 x24 x25 x26 x27) (Cell.toMx (val_main_v31 (F := Ideal) x0 x1 x5 x6)) (Cell.toMx (val_main_v74 (F := Ideal) x1 x2 x3)) (Cell.toMx (val_main_v112 (F := Ideal) x1 x2 x3)) (Cell.toMx (val_main_v150 (F := Ideal) x1 x2 x3)) (Cell.toMx (val_main_v182 (F := Ideal) x1 x2 x3)) r c := by
  rw [val_main_v205_apply, val_main_v204_apply, gateO_eq, ref_cNew_mx x0 x1 x2 x3 x4 x5 x6 x7 x8 x9 x10 x11 x12 x13 x14 x15 x16 x17 x18 x19 x20 x21 x22 x23 x24 x25 x26 x27,
    ref_cNew x0 x1 x2 x3 x4 x5 x6 x7 x8 x9 x10 x11 x12 x13 x14 x15 x16 x17 x18 x19 x20 x21 x22 x23 x24 x25 x26 x27]
  rfl

/-- The rectified hidden output, entry (r, k): max(h0, 0). -/
theorem v206_eq (r : Fin 30000) (k : Fin 256) :
    val_main_v206 (F := Ideal) x0 x1 x2 x3 x4 x5 x6 x7 x8 x9 x10 x11 x12 x13 x14 x15 x16 x17 x18 x19 x20 x21 x22 x23 x24 x25 (ValueIdx.ix2 r k)
      = max (Cell.h0 (Cell.params x3 x4 x7 x8 x9 x10 x11 x12 x13 x14 x15 x16 x17 x18 x19 x20 x21 x22 x23 x24 x25 x26 x27) (Cell.toMx (val_main_v31 (F := Ideal) x0 x1 x5 x6)) (Cell.toMx (val_main_v74 (F := Ideal) x1 x2 x3)) (Cell.toMx (val_main_v112 (F := Ideal) x1 x2 x3)) (Cell.toMx (val_main_v150 (F := Ideal) x1 x2 x3)) (Cell.toMx (val_main_v182 (F := Ideal) x1 x2 x3)) r k) 0 := by
  rw [val_main_v206_apply, val_main_call1_v0_apply, val_main_call1_cst_apply, zero_word,
    ref_h0 x0 x1 x2 x3 x4 x5 x6 x7 x8 x9 x10 x11 x12 x13 x14 x15 x16 x17 x18 x19 x20 x21 x22 x23 x24 x25 x26 x27]
  rfl

/-- The rectified hidden output as a matrix. -/
theorem v206_mx :
    (Cell.toMx (val_main_v206 (F := Ideal) x0 x1 x2 x3 x4 x5 x6 x7 x8 x9 x10 x11 x12 x13 x14 x15 x16 x17 x18 x19 x20 x21 x22 x23 x24 x25))
      = fun r k => max (Cell.h0 (Cell.params x3 x4 x7 x8 x9 x10 x11 x12 x13 x14 x15 x16 x17 x18 x19 x20 x21 x22 x23 x24 x25 x26 x27) (Cell.toMx (val_main_v31 (F := Ideal) x0 x1 x5 x6)) (Cell.toMx (val_main_v74 (F := Ideal) x1 x2 x3)) (Cell.toMx (val_main_v112 (F := Ideal) x1 x2 x3)) (Cell.toMx (val_main_v150 (F := Ideal) x1 x2 x3)) (Cell.toMx (val_main_v182 (F := Ideal) x1 x2 x3)) r k) 0 :=
  funext fun r => funext fun k => v206_eq x0 x1 x2 x3 x4 x5 x6 x7 x8 x9 x10 x11 x12 x13 x14 x15 x16 x17 x18 x19 x20 x21 x22 x23 x24 x25 x26 x27 r k

/-- The readout bias broadcast along the rows: entry (r, c) is the vector at c. -/
theorem v209_eq (r : Fin 30000) (c : Fin 256) : val_main_v209 (F := Ideal) x27 (ValueIdx.ix2 r c) = Cell.toVec x27 c := by
  rw [val_main_v209_apply, val_main_v208_apply]
  exact congrArg x27 (by idx_rfl1)

/-- The product of the rectified hidden output with the readout weight. -/
theorem v207_eq (r : Fin 30000) (c : Fin 256) :
    val_main_v207 (F := Ideal) x0 x1 x2 x3 x4 x5 x6 x7 x8 x9 x10 x11 x12 x13 x14 x15 x16 x17 x18 x19 x20 x21 x22 x23 x24 x25 x26 (ValueIdx.ix2 r c)
      = Cell.mm (fun r k => max (Cell.h0 (Cell.params x3 x4 x7 x8 x9 x10 x11 x12 x13 x14 x15 x16 x17 x18 x19 x20 x21 x22 x23 x24 x25 x26 x27) (Cell.toMx (val_main_v31 (F := Ideal) x0 x1 x5 x6)) (Cell.toMx (val_main_v74 (F := Ideal) x1 x2 x3)) (Cell.toMx (val_main_v112 (F := Ideal) x1 x2 x3)) (Cell.toMx (val_main_v150 (F := Ideal) x1 x2 x3)) (Cell.toMx (val_main_v182 (F := Ideal) x1 x2 x3)) r k) 0) (Cell.toMx x26) r c := by
  rw [val_main_v207_apply]
  refine (sum_eq_mm (val_main_v206 (F := Ideal) x0 x1 x2 x3 x4 x5 x6 x7 x8 x9 x10 x11 x12 x13 x14 x15 x16 x17 x18 x19 x20 x21 x22 x23 x24 x25) x26 _ _ r c (fun k => by idx_rfl2) (fun k => by idx_rfl2)).trans ?_
  rw [v206_mx x0 x1 x2 x3 x4 x5 x6 x7 x8 x9 x10 x11 x12 x13 x14 x15 x16 x17 x18 x19 x20 x21 x22 x23 x24 x25 x26 x27]

/-- The readout (the first result): max(h0, 0)·W_lin + b_lin. -/
theorem ref_hOut (r : Fin 30000) (c : Fin 256) :
    val_main_v210 (F := Ideal) x0 x1 x2 x3 x4 x5 x6 x7 x8 x9 x10 x11 x12 x13 x14 x15 x16 x17 x18 x19 x20 x21 x22 x23 x24 x25 x26 x27 (ValueIdx.ix2 r c)
      = Cell.hOut (Cell.params x3 x4 x7 x8 x9 x10 x11 x12 x13 x14 x15 x16 x17 x18 x19 x20 x21 x22 x23 x24 x25 x26 x27) (Cell.toMx (val_main_v31 (F := Ideal) x0 x1 x5 x6)) (Cell.toMx (val_main_v74 (F := Ideal) x1 x2 x3)) (Cell.toMx (val_main_v112 (F := Ideal) x1 x2 x3)) (Cell.toMx (val_main_v150 (F := Ideal) x1 x2 x3)) (Cell.toMx (val_main_v182 (F := Ideal) x1 x2 x3)) r c := by
  rw [val_main_v210_apply, v209_eq, v207_eq]
  rfl

end Cert.RefCell

end
-- ==== Proof.GraphT1.lean ====
/-
  The first Chebyshev term: the kernel program computes it once, the reference once per gate, by the same operations.

  Both programs compute `t1 = segment_sum(norm[:, None] * h[src], dst)` with
  `norm = ((-dinv[src]) * ew) * dinv[dst]`, `dinv = where(deg > 0, rsqrt(max(deg, 1e-12)), 0)` and
  `deg = segment_sum(ew, src)`, operation for operation and operand for operand in the same order; the reference repeats
  the last steps (the gather of `h[src]`, the product and the scatter-add) for each of its four gates. So the kernel's
  term and each of the reference's four are the same expression, at any float instance.
-/
import proofs.«101913_j61426622267687_2_alg».proof.Proof.KernelHost
import proofs.«101913_j61426622267687_2_alg».proof.Proof.Gen.ReferenceIdeal.Read

noncomputable section

namespace Cert.Graph

open Idealize.ShloMosaic Cert.KernelIdeal.HostTerm

variable {F : FTy → Type} [FloatOps F]

/-- The kernel's first Chebyshev term is the one the reference computes for its input gate. -/
theorem t1_eq_i (ei : (⟨Cert.KernelIdeal.S2x480000, .i32⟩ : BufTy).Contents (Elt F))
    (ew : (⟨Cert.KernelIdeal.S480000, .f32⟩ : BufTy).Contents (Elt F))
    (h : (⟨Cert.KernelIdeal.S30000x256, .f32⟩ : BufTy).Contents (Elt F)) :
    kT1 (F := F) ei ew h = Cert.ReferenceIdeal.Read.val_main_v74 (F := F) ei ew h := rfl

/-- The kernel's first Chebyshev term is the one the reference computes for its forget gate. -/
theorem t1_eq_f (ei : (⟨Cert.KernelIdeal.S2x480000, .i32⟩ : BufTy).Contents (Elt F))
    (ew : (⟨Cert.KernelIdeal.S480000, .f32⟩ : BufTy).Contents (Elt F))
    (h : (⟨Cert.KernelIdeal.S30000x256, .f32⟩ : BufTy).Contents (Elt F)) :
    kT1 (F := F) ei ew h = Cert.ReferenceIdeal.Read.val_main_v112 (F := F) ei ew h := rfl

/-- The kernel's first Chebyshev term is the one the reference computes for its candidate gate. -/
theorem t1_eq_g (ei : (⟨Cert.KernelIdeal.S2x480000, .i32⟩ : BufTy).Contents (Elt F))
    (ew : (⟨Cert.KernelIdeal.S480000, .f32⟩ : BufTy).Contents (Elt F))
    (h : (⟨Cert.KernelIdeal.S30000x256, .f32⟩ : BufTy).Contents (Elt F)) :
    kT1 (F := F) ei ew h = Cert.ReferenceIdeal.Read.val_main_v150 (F := F) ei ew h := rfl

/-- The kernel's first Chebyshev term is the one the reference computes for its output gate. -/
theorem t1_eq_o (ei : (⟨Cert.KernelIdeal.S2x480000, .i32⟩ : BufTy).Contents (Elt F))
    (ew : (⟨Cert.KernelIdeal.S480000, .f32⟩ : BufTy).Contents (Elt F))
    (h : (⟨Cert.KernelIdeal.S30000x256, .f32⟩ : BufTy).Contents (Elt F)) :
    kT1 (F := F) ei ew h = Cert.ReferenceIdeal.Read.val_main_v182 (F := F) ei ew h := rfl

end Cert.Graph

end
-- ==== Proof.LibRowScatter.lean ====
/-
Row gather and row scatter-add of a matrix, read at an index.

`x[idx]` on the rows of a matrix `x : [N, C]` at an integer vector `idx : [E]` is a `stablehlo.gather` with offset_dims
`[1]`, collapsed_slice_dims `[0]`, start_index_map `[0]`, index_vector_dim 1 and slice_sizes `[1, C]` over the indices as
`[E, 1]`; a segment sum of `data : [E, C]` by `ids : [E]` into `N` rows is a `stablehlo.scatter` with an add body,
update_window_dims `[1]`, inserted_window_dims `[0]`, scatter_dims_to_operand_dims `[0]` and index_vector_dim 1 over the
ids as `[E, 1]`. This file gives each of the two, at the extended reals for the scatter, in closed form at an index.
-/
import Idealize.ShloMosaic.Lib.ValueIdx
import Idealize.ShloMosaic.PureOps.Ideal

noncomputable section

open scoped BigOperators

namespace Idealize.ShloMosaic.RowScatter

open Idealize.ShloMosaic Idealize.ShloMosaic.ValueIdx

/-! ## Row gather -/

section Gather
variable {α : Type}

/-- The dimension numbers of a row gather for an operand `[N, C]`, start indices `[E, 1]` and result `[E, C]`: the
    row axis is collapsed and indexed, the column axis is the one offset axis, a slice is one whole row. Their
    conditions `wf` are a parameter, so that any record with these fields is an instance whatever its proof. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into `[0, N − 1]`, and
    at the result's own column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    -- the row axis: collapsed, so no offset; not a batching axis; its start is the clamped index
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis: not indexed, so its start is 0; not a batching axis; its offset is the result's column
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hst : (rowGatherDims N E C wf).start (ix2 e c) idx 1 = 0 := by
      unfold GatherDims.start
      rw [dif_neg (show ¬ (1 : Fin 2) ∈ (rowGatherDims N E C wf).startIndexMap from
        fun h => absurd (List.mem_singleton.mp h) (show ¬ (1 : Fin 2) = 0 by decide))]
    have hk : (1 : Fin 2) ∈ (rowGatherDims N E C wf).sKept :=
      (GatherDims.mem_sKept _ _).mpr ⟨fun h => absurd (List.mem_singleton.mp h) (show ¬ (1 : Fin 2) = 0 by decide), List.not_mem_nil⟩
    have hoff : (rowGatherDims N E C wf).offCoord (ix2 e c) 1 = c.val := by
      unfold GatherDims.offCoord
      rw [dif_pos hk]
      rfl
    rw [hst, hoff]
    simp only [Nat.add_zero, Nat.zero_add]

end Gather

/-! ## Row scatter-add -/

section Scatter

/-- The dimension numbers of a row scatter for an operand `[N, C]`, scatter indices `[E, 1]` and updates `[E, C]`: the
    row axis is the inserted, indexed one, the column axis is the one window axis, an update is one whole row. Their
    conditions `wf` are a parameter, so that any record with these fields is an instance whatever its proof. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the update row's id `idx[j₀, 0]`, read signed and not clamped. -/
theorem rowScatter_start_row (idx : IVec ⟨2, ![E, 1]⟩ w) (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no scatter index names, the window starts at 0. -/
theorem rowScatter_start_col (idx : IVec ⟨2, ![E, 1]⟩ w) (j : (⟨2, ![E, C]⟩ : Shape).Idx) :
    (rowScatterDims N E C wf).start j idx 1 = 0 := by
  unfold ScatterDims.start
  rw [dif_neg (show ¬ (1 : Fin 2) ∈ (rowScatterDims N E C wf).scatterDimsToOperandDims from
    fun h => absurd (List.mem_singleton.mp h) (show ¬ (1 : Fin 2) = 0 by decide))]

/-- The row axis is inserted: the window has no extent there. -/
theorem rowScatter_window_row (j : (⟨2, ![E, C]⟩ : Shape).Idx) : (rowScatterDims N E C wf).window j 0 = 0 := by
  unfold ScatterDims.window
  rw [dif_neg]
  intro h
  have h' : (0 : Fin 2) ∉ ([0] : List (Fin 2)) := by
    simpa [ScatterDims.sKept, Shape.kept, List.mem_filter] using h
  exact h' (List.mem_singleton.mpr rfl)

/-- On the column axis the window coordinate is the update's own column. -/
theorem rowScatter_window_col (j : (⟨2, ![E, C]⟩ : Shape).Idx) : (rowScatterDims N E C wf).window j 1 = (j 1).val := by
  unfold ScatterDims.window
  have hk : (1 : Fin 2) ∈ (rowScatterDims N E C wf).sKept := by
    simp [ScatterDims.sKept, Shape.kept, List.mem_filter]
  rw [dif_pos hk]
  rfl

/-- WHERE AN UPDATE ELEMENT LANDS: update `(j₀, j₁)` lands on operand element `(n, c)` exactly when its row's id, read
    signed, is `n` and its column is `c`; an id outside `[0, N)` lands nowhere. -/
theorem rowScatter_resultIdx_iff (idx : IVec ⟨2, ![E, 1]⟩ w) (j : (⟨2, ![E, C]⟩ : Shape).Idx) (n : Fin N) (c : Fin C) :
    (rowScatterDims N E C wf).resultIdx? j idx = some (ix2 n c)
      ↔ (idx (ix2 (j 0) (0 : Fin 1))).toInt = (n.val : Int) ∧ j 1 = c := by
  unfold ScatterDims.resultIdx?
  constructor
  · intro h
    split at h
    · have hf := Option.some.inj h
      have h0 := congrArg Fin.val (congrFun hf 0)
      have h1 := congrArg Fin.val (congrFun hf 1)
      rename_i hall
      have ha0 := hall 0
      have ha1 := hall 1
      simp only [rowScatter_start_row, rowScatter_start_col, rowScatter_window_row, rowScatter_window_col] at h0 h1 ha0 ha1
      refine ⟨?_, Fin.ext ?_⟩
      · change ((idx (ix2 (j 0) (0 : Fin 1))).toInt + ((0 : Nat) : Int)).toNat = n.val at h0
        omega
      · change ((0 : Int) + ((j 1).val : Int)).toNat = c.val at h1
        omega
    · cases h
  · rintro ⟨h0, h1⟩
    have hall : ∀ a : Fin 2, 0 ≤ (rowScatterDims N E C wf).start j idx a + (rowScatterDims N E C wf).window j a
        ∧ (rowScatterDims N E C wf).start j idx a + (rowScatterDims N E C wf).window j a
          < (⟨2, ![N, C]⟩ : Shape).size a := by
      intro a
      match a with
      | ⟨0, _⟩ =>
        show 0 ≤ (rowScatterDims N E C wf).start j idx 0 + (rowScatterDims N E C wf).window j 0
          ∧ (rowScatterDims N E C wf).start j idx 0 + (rowScatterDims N E C wf).window j 0 < (N : Int)
        rw [rowScatter_start_row, rowScatter_window_row, h0]
        have := n.isLt
        omega
      | ⟨1, _⟩ =>
        show 0 ≤ (rowScatterDims N E C wf).start j idx 1 + (rowScatterDims N E C wf).window j 1
          ∧ (rowScatterDims N E C wf).start j idx 1 + (rowScatterDims N E C wf).window j 1 < (C : Int)
        rw [rowScatter_start_col, rowScatter_window_col]
        have := idx2_lt1 j
        omega
    rw [dif_pos hall]
    congr 1
    funext a
    refine Fin.ext ?_
    match a with
    | ⟨0, _⟩ =>
      show ((rowScatterDims N E C wf).start j idx 0 + (rowScatterDims N E C wf).window j 0).toNat = n.val
      rw [rowScatter_start_row, rowScatter_window_row, h0]
      omega
    | ⟨1, _⟩ =>
      show ((rowScatterDims N E C wf).start j idx 1 + (rowScatterDims N E C wf).window j 1).toNat = c.val
      rw [rowScatter_start_col, rowScatter_window_col, ← h1]
      omega

/-- THE ROW SCATTER-ADD READ AT `(n, c)`: the operand element plus the sum, over the update rows `e` whose id
    `idx[e, 0]`, read signed and not clamped, is `n`, of the update at `(e, c)`. -/
theorem rowScatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatterDims N E C wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  have hterm : ∀ c' : Fin C,
      (if (rowScatterDims N E C wf).resultIdx? (ix2 e c') idx = some (ix2 n c) then upd (ix2 e c') else 0)
        = if c' = c then (if (idx (ix2 e (0 : Fin 1))).toInt = (n.val : Int) then upd (ix2 e c) else 0) else 0 := by
    intro c'
    have hiff := rowScatter_resultIdx_iff wf idx (ix2 e c') n c
    change _ ↔ (idx (ix2 e (0 : Fin 1))).toInt = (n.val : Int) ∧ c' = c at hiff
    by_cases hc : c' = c
    · subst hc
      rw [if_pos rfl]
      exact if_congr (hiff.trans (and_iff_left rfl)) rfl rfl
    · rw [if_neg hc, if_neg (fun h => hc (hiff.mp h).2)]
  rw [Finset.sum_congr rfl (fun c' _ => hterm c'), Finset.sum_ite_eq' Finset.univ c]
  rw [if_pos (Finset.mem_univ c)]

end Scatter

/-! ## A sum over `Fin (E + E)` in two halves -/

/-- A sum over `Fin (E + E)` is the sum over the first `E` indices plus the sum over the last `E` (Mathlib's
    `Fin.sum_univ_add` at equal halves). -/
theorem sum_fin_add_self {M : Type*} [AddCommMonoid M] (E : Nat) (f : Fin (E + E) → M) :
    ∑ e, f e = ∑ e : Fin E, f (Fin.castAdd E e) + ∑ e : Fin E, f (Fin.natAdd E e) :=
  Fin.sum_univ_add f

end Idealize.ShloMosaic.RowScatter

end
-- ==== Proof.LibSegConcat.lean ====
/-
A segment sum over the concatenation of two batches of rows is the sum of the two batches' segment sums.

The ids of the two batches, `i1 i2 : [E]`, are concatenated along their one axis and read as a column `[E + E, 1]` through a
`broadcast_in_dim`; the updates `u1 u2 : [E, C]` are concatenated along the row axis. Summing, over all `E + E` rows, the
update at column `c` of the rows whose id is `n` splits at row `E` into the same sum over each batch.
-/
import Idealize.ShloMosaic.Lib.ValueIdx
import Idealize.ShloMosaic.Lib.Pipeline.Value
import Idealize.ShloMosaic.PureOps.Ideal

noncomputable section

open scoped BigOperators

namespace Idealize.ShloMosaic.RowScatter

open Idealize.ShloMosaic Idealize.ShloMosaic.ValueIdx

/-- A vector `ids : [E]` broadcast to a column `[E, 1]` reads, at `(e, 0)`, the vector at `e`. -/
theorem bcast_col_apply {E w : Nat} (hB : (⟨1, ![E]⟩ : Shape).BroadcastsInDim ⟨2, ![E, 1]⟩ (![0] : Fin 1 → Fin 2))
    (ids : (⟨1, ![E]⟩ : Shape).Idx → BitVec w) (e : Fin E) :
    broadcastInDim ⟨2, ![E, 1]⟩ ![0] hB ids (ix2 e (0 : Fin 1)) = ids (ix1 e) := by
  refine broadcastInDim_apply _ hB ids _ (ix1 e) ?_
  intro a
  match a with
  | ⟨0, _⟩ =>
    show e.val = if E = 1 then 0 else e.val
    split
    · have := e.isLt; omega
    · rfl

/-- THE SEGMENT SUM OF A CONCATENATION: over the `E + E` concatenated rows, the sum of the updates at column `c` of the
    rows whose id, read signed, is `n`, is that sum over the first batch plus that sum over the second. (`hE` names the
    concatenated extent, so that a literal extent is an instance without being evaluated.) -/
theorem segsum_concat {E E2 C w : Nat} (hE : E2 = E + E)
    (hI : Shape.Concatenates [(⟨1, ![E]⟩ : Shape), ⟨1, ![E]⟩] ⟨1, ![E2]⟩ 0)
    (hU : Shape.Concatenates [(⟨2, ![E, C]⟩ : Shape), ⟨2, ![E, C]⟩] ⟨2, ![E2, C]⟩ 0)
    (hB : (⟨1, ![E2]⟩ : Shape).BroadcastsInDim ⟨2, ![E2, 1]⟩ (![0] : Fin 1 → Fin 2))
    (i1 i2 : (⟨1, ![E]⟩ : Shape).Idx → BitVec w) (u1 u2 : (⟨2, ![E, C]⟩ : Shape).Idx → EReal) (n : Int) (c : Fin C) :
    (∑ e : Fin E2, if (broadcastInDim ⟨2, ![E2, 1]⟩ ![0] hB
            (concatenate ⟨1, ![E2]⟩ 0 [⟨⟨1, ![E]⟩, i1⟩, ⟨⟨1, ![E]⟩, i2⟩] hI) (ix2 e (0 : Fin 1))).toInt = n
          then concatenate ⟨2, ![E2, C]⟩ 0 [⟨⟨2, ![E, C]⟩, u1⟩, ⟨⟨2, ![E, C]⟩, u2⟩] hU (ix2 e c) else 0)
      = (∑ e : Fin E, if (i1 (ix1 e)).toInt = n then u1 (ix2 e c) else 0)
        + ∑ e : Fin E, if (i2 (ix1 e)).toInt = n then u2 (ix2 e c) else 0 := by
  subst hE
  rw [Fin.sum_univ_add]
  congr 1
  · -- the first E rows: both concatenations read their first piece at the same row
    refine Finset.sum_congr rfl fun e _ => ?_
    have h1 : broadcastInDim ⟨2, ![E + E, 1]⟩ ![0] hB
        (concatenate ⟨1, ![E + E]⟩ 0 [⟨⟨1, ![E]⟩, i1⟩, ⟨⟨1, ![E]⟩, i2⟩] hI) (ix2 (Fin.castAdd E e) (0 : Fin 1))
        = i1 (ix1 e) := by
      rw [bcast_col_apply]
      refine concatenate_pair_apply_left (t := ⟨1, ![E + E]⟩) 0 i1 i2 hI (ix1 (Fin.castAdd E e)) rfl (ix1 e) ?_
      intro b
      match b with
      | ⟨0, _⟩ => rfl
    have h2 : concatenate ⟨2, ![E + E, C]⟩ 0 [⟨⟨2, ![E, C]⟩, u1⟩, ⟨⟨2, ![E, C]⟩, u2⟩] hU (ix2 (Fin.castAdd E e) c)
        = u1 (ix2 e c) := by
      refine concatenate_pair_apply_left (t := ⟨2, ![E + E, C]⟩) 0 u1 u2 hU (ix2 (Fin.castAdd E e) c) rfl (ix2 e c) ?_
      intro b
      match b with
      | ⟨0, _⟩ => rfl
      | ⟨1, _⟩ => rfl
    rw [h1, h2]
  · -- the last E rows: both concatenations read their second piece, E rows up
    refine Finset.sum_congr rfl fun e _ => ?_
    have h1 : broadcastInDim ⟨2, ![E + E, 1]⟩ ![0] hB
        (concatenate ⟨1, ![E + E]⟩ 0 [⟨⟨1, ![E]⟩, i1⟩, ⟨⟨1, ![E]⟩, i2⟩] hI) (ix2 (Fin.natAdd E e) (0 : Fin 1))
        = i2 (ix1 e) := by
      rw [bcast_col_apply]
      refine concatenate_pair_apply_right (t := ⟨1, ![E + E]⟩) 0 i1 i2 hI (ix1 (Fin.natAdd E e)) rfl rfl (ix1 e) ?_ ?_
      · intro b hb
        match b, hb with
        | ⟨0, _⟩, hb => exact absurd rfl hb
      · show e.val + E = E + e.val
        omega
    have h2 : concatenate ⟨2, ![E + E, C]⟩ 0 [⟨⟨2, ![E, C]⟩, u1⟩, ⟨⟨2, ![E, C]⟩, u2⟩] hU (ix2 (Fin.natAdd E e) c)
        = u2 (ix2 e c) := by
      refine concatenate_pair_apply_right (t := ⟨2, ![E + E, C]⟩) 0 u1 u2 hU (ix2 (Fin.natAdd E e) c) rfl rfl (ix2 e c) ?_ ?_
      · intro b hb
        match b, hb with
        | ⟨0, _⟩, hb => exact absurd rfl hb
        | ⟨1, _⟩, _ => rfl
      · show e.val + E = E + e.val
        omega
    rw [h1, h2]

end Idealize.ShloMosaic.RowScatter

end
-- ==== Proof.LibFusedScatter.lean ====
/-
  One scatter-add of two concatenated batches of rows against two scatter-adds in turn.

  The kernel program adds to the node features, in ONE scatter-add, the 2E rows `[u1; u2]` at the ids `[i1; i2]`;
  the reference adds the E rows `u1` at `i1` and then the E rows `u2` at `i2`. Read at `(n, c)` on the extended
  reals both are `x[n, c]` plus the two sums `Σ_{i1 e = n} u1[e, c]` and `Σ_{i2 e = n} u2[e, c]`, grouped differently:
  equal by associativity of `+`, with no finiteness needed. A function applied entrywise (the wrap of a negative id)
  commutes with the concatenation of the two id vectors.
-/
import proofs.«101913_j61426622267687_2_alg».proof.Proof.LibRowScatter
import proofs.«101913_j61426622267687_2_alg».proof.Proof.LibSegConcat

noncomputable section

open scoped BigOperators

namespace Cert.Graph

open Idealize.ShloMosaic Idealize.ShloMosaic.ValueIdx Idealize.ShloMosaic.RowScatter

/-- A function applied entrywise commutes with the concatenation of two vectors of equal length. -/
theorem concat_vec_map {α β : Type} {E E2 : Nat} (hE : E2 = E + E) (g : α → β)
    (hI : Shape.Concatenates [(⟨1, ![E]⟩ : Shape), ⟨1, ![E]⟩] ⟨1, ![E2]⟩ 0)
    (a b : (⟨1, ![E]⟩ : Shape).Idx → α) (j : (⟨1, ![E2]⟩ : Shape).Idx) :
    g (concatenate ⟨1, ![E2]⟩ 0 [⟨⟨1, ![E]⟩, a⟩, ⟨⟨1, ![E]⟩, b⟩] hI j)
      = concatenate ⟨1, ![E2]⟩ 0 [⟨⟨1, ![E]⟩, fun i => g (a i)⟩, ⟨⟨1, ![E]⟩, fun i => g (b i)⟩] hI j := by
  subst hE
  have hj : (j 0).val < E + E := (j 0).isLt
  by_cases h : (j 0).val < E
  · have hi : ∀ d : Fin 1, ((ix1 (⟨(j 0).val, h⟩ : Fin E)) d).val = (j (d.cast rfl)).val := by
      intro d
      match d with
      | ⟨0, _⟩ => rfl
    rw [concatenate_pair_apply_left (t := ⟨1, ![E + E]⟩) 0 a b hI j rfl (ix1 ⟨(j 0).val, h⟩) hi,
      concatenate_pair_apply_left (t := ⟨1, ![E + E]⟩) 0 (fun i => g (a i)) (fun i => g (b i)) hI j rfl (ix1 ⟨(j 0).val, h⟩) hi]
  · have hlt : (j 0).val - E < E := by omega
    have hi : ∀ d : Fin 1, d.cast rfl ≠ (0 : Fin 1) → ((ix1 (⟨(j 0).val - E, hlt⟩ : Fin E)) d).val = (j (d.cast rfl)).val := by
      intro d hd
      match d, hd with
      | ⟨0, _⟩, hd => exact absurd rfl hd
    have ha : ((ix1 (⟨(j 0).val - E, hlt⟩ : Fin E)) ((0 : Fin 1).cast rfl)).val + E = (j 0).val := by
      show (j 0).val - E + E = (j 0).val
      omega
    rw [concatenate_pair_apply_right (t := ⟨1, ![E + E]⟩) 0 a b hI j rfl rfl (ix1 ⟨(j 0).val - E, hlt⟩) hi ha,
      concatenate_pair_apply_right (t := ⟨1, ![E + E]⟩) 0 (fun i => g (a i)) (fun i => g (b i)) hI j rfl rfl (ix1 ⟨(j 0).val - E, hlt⟩) hi ha]

/-- ONE SCATTER-ADD OF TWO CONCATENATED BATCHES IS TWO SCATTER-ADDS IN TURN. Adding into `x` the `E + E` rows
    `[u1; u2]` at the ids `[i1; i2]` gives, at every `(n, c)`, `x[n, c] + (Σ_{i1 e = n} u1[e, c] + Σ_{i2 e = n} u2[e, c])`;
    adding the rows `u1` at `i1` and then the rows `u2` at `i2` gives `(x[n, c] + Σ_{i1 e = n} u1[e, c]) + Σ_{i2 e = n} u2[e, c]`:
    the same extended real, by associativity of `+`. An id outside `[0, N)` lands nowhere on either side. -/
theorem fused_scatterAdd_eq {N E E2 C w : Nat} (hE : E2 = E + E)
    (wf2 : ScatterDims.WF ⟨2, ![N, C]⟩ ⟨2, ![E2, 1]⟩ ⟨2, ![E2, C]⟩ [1] [0] [0] 1)
    (wf : ScatterDims.WF ⟨2, ![N, C]⟩ ⟨2, ![E, 1]⟩ ⟨2, ![E, C]⟩ [1] [0] [0] 1)
    (hI : Shape.Concatenates [(⟨1, ![E]⟩ : Shape), ⟨1, ![E]⟩] ⟨1, ![E2]⟩ 0)
    (hU : Shape.Concatenates [(⟨2, ![E, C]⟩ : Shape), ⟨2, ![E, C]⟩] ⟨2, ![E2, C]⟩ 0)
    (hB2 : (⟨1, ![E2]⟩ : Shape).BroadcastsInDim ⟨2, ![E2, 1]⟩ (![0] : Fin 1 → Fin 2))
    (hB : (⟨1, ![E]⟩ : Shape).BroadcastsInDim ⟨2, ![E, 1]⟩ (![0] : Fin 1 → Fin 2))
    (x : (⟨2, ![N, C]⟩ : Shape).Idx → EReal)
    (i1 i2 : (⟨1, ![E]⟩ : Shape).Idx → BitVec w) (u1 u2 : (⟨2, ![E, C]⟩ : Shape).Idx → EReal) :
    Ideal.hostScatterAdd (rowScatterDims N E2 C wf2) x
        (broadcastInDim ⟨2, ![E2, 1]⟩ ![0] hB2 (concatenate ⟨1, ![E2]⟩ 0 [⟨⟨1, ![E]⟩, i1⟩, ⟨⟨1, ![E]⟩, i2⟩] hI))
        (concatenate ⟨2, ![E2, C]⟩ 0 [⟨⟨2, ![E, C]⟩, u1⟩, ⟨⟨2, ![E, C]⟩, u2⟩] hU)
      = Ideal.hostScatterAdd (rowScatterDims N E C wf)
          (Ideal.hostScatterAdd (rowScatterDims N E C wf) x (broadcastInDim ⟨2, ![E, 1]⟩ ![0] hB i1) u1)
          (broadcastInDim ⟨2, ![E, 1]⟩ ![0] hB i2) u2 := by
  funext i
  obtain ⟨n, c, rfl⟩ : ∃ (n : Fin N) (c : Fin C), i = ix2 n c := ⟨i 0, i 1, eq_ix2 i⟩
  rw [rowScatterAdd_apply, rowScatterAdd_apply, rowScatterAdd_apply,
    segsum_concat hE hI hU hB2 i1 i2 u1 u2 (n.val : Int) c, add_assoc]
  congr 2
  · exact Finset.sum_congr rfl fun e _ => by rw [bcast_col_apply]
  · exact Finset.sum_congr rfl fun e _ => by rw [bcast_col_apply]

end Cert.Graph

end
-- ==== Proof.GraphXa.lean ====
/-
  The augmented node features agree.

  The kernel program gathers `x[snb]` and `x[dnb]` from the original features, concatenates the ids `[src; dst]` and
  the rows `[x[snb]; x[dnb]]`, wraps a negative id by the number of nodes, and adds all 960000 rows into `x` in one
  scatter-add. The reference wraps `src` and `dst` separately and adds `x[snb]` at `src`, then `x[dnb]` at `dst`.
  Wrapping commutes with the concatenation, and one scatter-add of the concatenated batches is the two in turn
  (associativity of `+` on the extended reals), so the two results are equal.
-/
import proofs.«101913_j61426622267687_2_alg».proof.Proof.LibFusedScatter
import proofs.«101913_j61426622267687_2_alg».proof.Proof.KernelHost
import proofs.«101913_j61426622267687_2_alg».proof.Proof.Gen.ReferenceIdeal.Read

noncomputable section

namespace Cert.Graph

open Idealize.ShloMosaic Idealize.ShloMosaic.ValueIdx Idealize.ShloMosaic.RowScatter
open Cert.KernelIdeal.HostTerm

/-- An id wrapped as `x[i]` wraps it: a negative one has the number of nodes, 30000, added. -/
def wrapId (z : BitVec 32) : BitVec 32 := Scalar.select (IntOp.cmpi .slt z 0#32) (IntOp.addi z 30000#32) z

/-- The kernel wraps the 960000 concatenated ids `[src; dst]`; that is the concatenation of the wrapped `src` and
    the wrapped `dst`, which are the reference's two id vectors. -/
theorem wrapped_ids_eq (ei : (⟨Cert.KernelIdeal.S2x480000, .i32⟩ : BufTy).Contents (Elt Ideal)) :
    v24 (F := Ideal) ei
      = concatenate (⟨1, ![960000]⟩ : Shape) 0
          [⟨(⟨1, ![480000]⟩ : Shape), Cert.ReferenceIdeal.Read.val_main_v22 (F := Ideal) ei⟩, ⟨(⟨1, ![480000]⟩ : Shape), Cert.ReferenceIdeal.Read.val_main_v29 (F := Ideal) ei⟩]
          Cert.KernelIdeal.Gen.concatenates_S480000_S480000_S960000_d0 := by
  funext j
  exact concat_vec_map (E := 480000) (E2 := 960000) (by norm_num) wrapId
    Cert.KernelIdeal.Gen.concatenates_S480000_S480000_S960000_d0 (v1 (F := Ideal) ei) (v3 (F := Ideal) ei) j

/-- THE AUGMENTED FEATURES AGREE: the kernel's one scatter-add of the 960000 rows `[x[snb]; x[dnb]]` at the wrapped
    ids `[src; dst]` into `x` is the reference's scatter-add of `x[snb]` at the wrapped `src` followed by that of
    `x[dnb]` at the wrapped `dst`. -/
theorem xaug_eq (x : (⟨Cert.KernelIdeal.S30000x256, .f32⟩ : BufTy).Contents (Elt Ideal))
    (ei : (⟨Cert.KernelIdeal.S2x480000, .i32⟩ : BufTy).Contents (Elt Ideal))
    (snb dnb : (⟨Cert.KernelIdeal.S480000, .i32⟩ : BufTy).Contents (Elt Ideal)) :
    kXa (F := Ideal) x ei snb dnb = Cert.ReferenceIdeal.Read.val_main_v31 (F := Ideal) x ei snb dnb := by
  have h := fused_scatterAdd_eq (N := 30000) (E := 480000) (E2 := 960000) (C := 256) (by norm_num)
    Cert.KernelIdeal.Gen.scatter_S30000x256_S960000x1_S960000x256_1_0_0_1_wf
    Cert.ReferenceIdeal.Gen.scatter_S30000x256_S480000x1_S480000x256_1_0_0_1_wf
    Cert.KernelIdeal.Gen.concatenates_S480000_S480000_S960000_d0
    Cert.KernelIdeal.Gen.concatenates_S480000x256_S480000x256_S960000x256_d0
    Cert.KernelIdeal.Gen.bcast_S960000_S960000x1_0
    Cert.ReferenceIdeal.Gen.bcast_S480000_S480000x1_0
    x (Cert.ReferenceIdeal.Read.val_main_v22 (F := Ideal) ei) (Cert.ReferenceIdeal.Read.val_main_v29 (F := Ideal) ei)
    (Cert.ReferenceIdeal.Read.val_main_v10 (F := Ideal) x snb) (Cert.ReferenceIdeal.Read.val_main_v17 (F := Ideal) x dnb)
  rw [← wrapped_ids_eq ei] at h
  exact h

end Cert.Graph

end
-- ==== Proof.Bridge.lean ====
/-
  The reference's three results are the cell's three functions of the KERNEL's edge-indexed arrays.

  The reference's dense stages are the cell over its own augmented features and its four copies of the
  Chebyshev term; its augmented features (two scatter-adds, one after the other) are the kernel's (one
  scatter-add of the concatenated rows), and each of its four copies of the Chebyshev term is the kernel's one.
-/
import proofs.«101913_j61426622267687_2_alg».proof.Proof.RefCell
import proofs.«101913_j61426622267687_2_alg».proof.Proof.GraphT1
import proofs.«101913_j61426622267687_2_alg».proof.Proof.GraphXa
import proofs.«101913_j61426622267687_2_alg».proof.Proof.KernelHost
import proofs.«101913_j61426622267687_2_alg».proof.Proof.Cell

noncomputable section

namespace Cert.Bridge

open Idealize.ShloMosaic Idealize.ShloMosaic.ValueIdx Cert.ReferenceIdeal Cert.ReferenceIdeal.Read Cert.Cell Cert.KernelIdeal.HostTerm

variable (x0 : (⟨S30000x256, .f32⟩ : BufTy).Contents (Elt Ideal)) (x1 : (⟨S2x480000, .i32⟩ : BufTy).Contents (Elt Ideal)) (x2 : (⟨S480000, .f32⟩ : BufTy).Contents (Elt Ideal)) (x3 : (⟨S30000x256, .f32⟩ : BufTy).Contents (Elt Ideal)) (x4 : (⟨S30000x256, .f32⟩ : BufTy).Contents (Elt Ideal)) (x5 : (⟨S480000, .i32⟩ : BufTy).Contents (Elt Ideal)) (x6 : (⟨S480000, .i32⟩ : BufTy).Contents (Elt Ideal)) (x7 : (⟨S256x256, .f32⟩ : BufTy).Contents (Elt Ideal)) (x8 : (⟨S256x256, .f32⟩ : BufTy).Contents (Elt Ideal)) (x9 : (⟨S256x256, .f32⟩ : BufTy).Contents (Elt Ideal)) (x10 : (⟨S256x256, .f32⟩ : BufTy).Contents (Elt Ideal)) (x11 : (⟨S2x256x256, .f32⟩ : BufTy).Contents (Elt Ideal)) (x12 : (⟨S2x256x256, .f32⟩ : BufTy).Contents (Elt Ideal)) (x13 : (⟨S2x256x256, .f32⟩ : BufTy).Contents (Elt Ideal)) (x14 : (⟨S2x256x256, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (x22 : (⟨S256, .f32⟩ : BufTy).Contents (Elt Ideal)) (x23 : (⟨S256, .f32⟩ : BufTy).Contents (Elt Ideal)) (x24 : (⟨S256, .f32⟩ : BufTy).Contents (Elt Ideal)) (x25 : (⟨S256, .f32⟩ : BufTy).Contents (Elt Ideal)) (x26 : (⟨S256x256, .f32⟩ : BufTy).Contents (Elt Ideal)) (x27 : (⟨S256, .f32⟩ : BufTy).Contents (Elt Ideal))

/-- The reference's third result is the new cell state over the kernel's edge-indexed arrays. -/
theorem ref_third : val_main_v165 (F := Ideal) x0 x1 x2 x3 x4 x5 x6 x7 x8 x9 x11 x12 x13 x15 x16 x17 x19 x20 x22 x23 x24
    = fun i => Cell.cNew (Cell.params x3 x4 x7 x8 x9 x10 x11 x12 x13 x14 x15 x16 x17 x18 x19 x20 x21 x22 x23 x24 x25 x26 x27) (toMx (kXa (F := Ideal) x0 x1 x5 x6)) (toMx (kT1 (F := Ideal) x1 x2 x3)) (toMx (kT1 (F := Ideal) x1 x2 x3)) (toMx (kT1 (F := Ideal) x1 x2 x3)) (i 0) (i 1) := by
  funext i
  obtain ⟨r, q, rfl⟩ : ∃ (r : Fin 30000) (q : Fin 256), i = ix2 r q := ⟨i 0, i 1, eq_ix2 i⟩
  rw [Cert.RefCell.ref_cNew x0 x1 x2 x3 x4 x5 x6 x7 x8 x9 x10 x11 x12 x13 x14 x15 x16 x17 x18 x19 x20 x21 x22 x23 x24 x25 x26 x27 r q, ← Cert.Graph.xaug_eq, ← Cert.Graph.t1_eq_i, ← Cert.Graph.t1_eq_f, ← Cert.Graph.t1_eq_g]

/-- The reference's second result is the hidden output over the kernel's edge-indexed arrays. -/
theorem ref_second : val_main_v205 (F := Ideal) x0 x1 x2 x3 x4 x5 x6 x7 x8 x9 x10 x11 x12 x13 x14 x15 x16 x17 x18 x19 x20 x21 x22 x23 x24 x25
    = fun i => Cell.h0 (Cell.params x3 x4 x7 x8 x9 x10 x11 x12 x13 x14 x15 x16 x17 x18 x19 x20 x21 x22 x23 x24 x25 x26 x27) (toMx (kXa (F := Ideal) x0 x1 x5 x6)) (toMx (kT1 (F := Ideal) x1 x2 x3)) (toMx (kT1 (F := Ideal) x1 x2 x3)) (toMx (kT1 (F := Ideal) x1 x2 x3)) (toMx (kT1 (F := Ideal) x1 x2 x3)) (i 0) (i 1) := by
  funext i
  obtain ⟨r, q, rfl⟩ : ∃ (r : Fin 30000) (q : Fin 256), i = ix2 r q := ⟨i 0, i 1, eq_ix2 i⟩
  rw [Cert.RefCell.ref_h0 x0 x1 x2 x3 x4 x5 x6 x7 x8 x9 x10 x11 x12 x13 x14 x15 x16 x17 x18 x19 x20 x21 x22 x23 x24 x25 x26 x27 r q, ← Cert.Graph.xaug_eq, ← Cert.Graph.t1_eq_i, ← Cert.Graph.t1_eq_f, ← Cert.Graph.t1_eq_g, ← Cert.Graph.t1_eq_o]

/-- The reference's first result is the readout over the kernel's edge-indexed arrays. -/
theorem ref_first : val_main_v210 (F := Ideal) x0 x1 x2 x3 x4 x5 x6 x7 x8 x9 x10 x11 x12 x13 x14 x15 x16 x17 x18 x19 x20 x21 x22 x23 x24 x25 x26 x27
    = fun i => Cell.hOut (Cell.params x3 x4 x7 x8 x9 x10 x11 x12 x13 x14 x15 x16 x17 x18 x19 x20 x21 x22 x23 x24 x25 x26 x27) (toMx (kXa (F := Ideal) x0 x1 x5 x6)) (toMx (kT1 (F := Ideal) x1 x2 x3)) (toMx (kT1 (F := Ideal) x1 x2 x3)) (toMx (kT1 (F := Ideal) x1 x2 x3)) (toMx (kT1 (F := Ideal) x1 x2 x3)) (i 0) (i 1) := by
  funext i
  obtain ⟨r, q, rfl⟩ : ∃ (r : Fin 30000) (q : Fin 256), i = ix2 r q := ⟨i 0, i 1, eq_ix2 i⟩
  rw [Cert.RefCell.ref_hOut x0 x1 x2 x3 x4 x5 x6 x7 x8 x9 x10 x11 x12 x13 x14 x15 x16 x17 x18 x19 x20 x21 x22 x23 x24 x25 x26 x27 r q, ← Cert.Graph.xaug_eq, ← Cert.Graph.t1_eq_i, ← Cert.Graph.t1_eq_f, ← Cert.Graph.t1_eq_g, ← Cert.Graph.t1_eq_o]

end Cert.Bridge

end
-- ==== Proof.lean ====
/-
  A graph-convolutional LSTM cell, as one fused kernel against thirteen separate matrix products.

  Both programs first build, on the host, the neighbour-augmented node features and the first Chebyshev term of the
  hidden state (gathers and scatter-adds over the 480000 edges). The kernel program then runs ONE kernel over
  twenty-five blocks of 1200 node rows: three products against the four gates' weights laid side by side, the four
  gate streams cut out of the wide sum, the gates, the new cell state, the hidden output, and the readout
  max(h0, 0)·W_lin + b_lin. The reference computes each gate with its own three products, and recomputes the
  Chebyshev term for each.

  At the ideal instance (floats are extended reals, operations exact) the three results agree:
  * a product against weights laid side by side, cut at a gate's 256 columns, is the product against that gate's
    weights (the sum over the 256 inner coordinates is the same sum);
  * a gate's pre-activation is grouped (((X + H) + T) + (bc + b)) + w∘c in the kernel and ((X + ((H + T) + bc)) + w∘c) + b
    in the reference: equal by associativity and commutativity of +, which hold on all of the extended reals, so the
    precondition is never opened;
  * the logistic function is 1 / (1 + exp(−z)) by definition, which is how the reference spells it;
  * one scatter-add of the concatenated neighbour rows is two scatter-adds one after the other, again by
    associativity and commutativity of +.
  The frames: each kernel program is its host operations, then the region; the body reads its thirteen input blocks
  whole and overwrites its three output blocks whole, so every execution terminates without a fault and no argument
  array is written. The reference's frame is its run with the results dropped. Nothing was rewritten by the
  idealization, so `preserves` is trivial.
-/
import proofs.«101913_j61426622267687_2_alg».proof.Defs
import proofs.«101913_j61426622267687_2_alg».proof.Proof.Gen.Kernel
import proofs.«101913_j61426622267687_2_alg».proof.Proof.Gen.KernelIdeal
import proofs.«101913_j61426622267687_2_alg».proof.Proof.Gen.ReferenceIdeal
import proofs.«101913_j61426622267687_2_alg».proof.Proof.Gen.Pre_finite_inputs
import proofs.«101913_j61426622267687_2_alg».proof.Proof.Gen.ReferenceIdeal.Run
import proofs.«101913_j61426622267687_2_alg».proof.Proof.Gen.ReferenceIdeal.Read
import proofs.«101913_j61426622267687_2_alg».proof.Proof.BitsFrame
import proofs.«101913_j61426622267687_2_alg».proof.Proof.IdealFinal
import proofs.«101913_j61426622267687_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Frame.frame m ρ

/-- So does the idealized kernel program. -/
theorem frame_kernelIdeal : Cert.frame_KernelIdeal := fun m ρ _ => Cert.KernelIdeal.Frame.frame m ρ

/-- The reference's frame is its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- Two equal pairs of data give the same new cell state, index by index. -/
theorem third_congr (P : Cert.Cell.Params 30000 256) {X X' T T' : Cert.Cell.Mx 30000 256} (hX : X = X') (hT : T = T') :
    (fun (i : (⟨2, ![30000, 256]⟩ : Shape).Idx) => Cert.Cell.cNew P X T T T (i 0) (i 1))
      = fun i => Cert.Cell.cNew P X' T' T' T' (i 0) (i 1) := by
  subst hX; subst hT; rfl

/-- … the same hidden output, -/
theorem second_congr (P : Cert.Cell.Params 30000 256) {X X' T T' : Cert.Cell.Mx 30000 256} (hX : X = X') (hT : T = T') :
    (fun (i : (⟨2, ![30000, 256]⟩ : Shape).Idx) => Cert.Cell.h0 P X T T T T (i 0) (i 1))
      = fun i => Cert.Cell.h0 P X' T' T' T' T' (i 0) (i 1) := by
  subst hX; subst hT; rfl

/-- … and the same readout. -/
theorem first_congr (P : Cert.Cell.Params 30000 256) {X X' T T' : Cert.Cell.Mx 30000 256} (hX : X = X') (hT : T = T') :
    (fun (i : (⟨2, ![30000, 256]⟩ : Shape).Idx) => Cert.Cell.hOut P X T T T T (i 0) (i 1))
      = fun i => Cert.Cell.hOut P X' T' T' T' T' (i 0) (i 1) := by
  subst hX; subst hT; rfl

set_option maxHeartbeats 4000000 in
/-- From memories agreeing on the arguments both programs end with the cell's three functions of the arguments. -/
theorem algebraic : Cert.algebraic_KernelIdeal_ReferenceIdeal := by
  intro m ρ m' ρ' _ hagree
  refine ⟨fun c => Cert.KernelIdeal.Final.Gout m c, fun c => Cert.KernelIdeal.Final.Ghid m c, fun c => Cert.KernelIdeal.Final.Gcell m c,
    Cert.KernelIdeal.Final.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  all_goals obtain ⟨a0, a1, a2, a3, a4, a5, a6, a7, a8, a9, a10, a11, a12, a13, a14, a15, a16, a17, a18, a19, a20, a21, a22, a23, a24, a25, a26, a27⟩ := hagree c
  · rw [Cert.ReferenceIdeal.Read.val_main_v210_eq, Cert.Bridge.ref_first (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)), a0, a1, a2, a3, a4, a5, a6, a7, a8, a9, a10, a11, a12, a13, a14, a15, a16, a17, a18, a19, a20, a21, a22, a23, a24, a25, a26, a27]
    exact first_congr _ (congrArg Cert.Cell.toMx (Cert.KernelIdeal.Entry.augmented m c).symm) (congrArg Cert.Cell.toMx (Cert.KernelIdeal.Entry.chebyshev m c).symm)
  · rw [Cert.ReferenceIdeal.Read.val_main_v205_eq, Cert.Bridge.ref_second (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)), a0, a1, a2, a3, a4, a5, a6, a7, a8, a9, a10, a11, a12, a13, a14, a15, a16, a17, a18, a19, a20, a21, a22, a23, a24, a25, a26, a27]
    exact second_congr _ (congrArg Cert.Cell.toMx (Cert.KernelIdeal.Entry.augmented m c).symm) (congrArg Cert.Cell.toMx (Cert.KernelIdeal.Entry.chebyshev m c).symm)
  · rw [Cert.ReferenceIdeal.Read.val_main_v165_eq, Cert.Bridge.ref_third (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)), a0, a1, a2, a3, a4, a5, a6, a7, a8, a9, a10, a11, a12, a13, a14, a15, a16, a17, a18, a19, a20, a21, a22, a23, a24, a25, a26, a27]
    exact third_congr _ (congrArg Cert.Cell.toMx (Cert.KernelIdeal.Entry.augmented m c).symm) (congrArg Cert.Cell.toMx (Cert.KernelIdeal.Entry.chebyshev m c).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
